-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v37_0)) (v1 : (c : Dev Cert.KernelIdeal.nD) → Buf (Elt Ideal) ((c.tc : Thread Cert.KernelIdeal.nD Cert.KernelIdeal.τ).loc Cert.KernelIdeal.main_v37_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37_0) = v0 c
          ∧ r.2.mem ((c.tc : Thread Cert.KernelIdeal.nD Cert.KernelIdeal.τ).loc Cert.KernelIdeal.main_v37_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1x1024 : Shape := ⟨2, ![1, 1024]⟩
abbrev S3072x1024 : Shape := ⟨2, ![3072, 1024]⟩
abbrev S3072x2048 : Shape := ⟨2, ![3072, 2048]⟩
abbrev S3072 : Shape := ⟨1, ![3072]⟩
abbrev S1024x1024 : Shape := ⟨2, ![1024, 1024]⟩
abbrev S2048x2048 : Shape := ⟨2, ![2048, 2048]⟩
abbrev S2048 : Shape := ⟨1, ![2048]⟩
abbrev S32768 : Shape := ⟨1, ![32768]⟩
abbrev S16384 : Shape := ⟨1, ![16384]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S3072x1024 : S_.BroadcastsInDim S3072x1024 (![] : Fin 0 → Fin S3072x1024.rank)
  reducesTo_S3072x1024_S_d0_1 : S3072x1024.ReducesTo [0, 1] S_
  bcast_S_S3072x2048 : S_.BroadcastsInDim S3072x2048 (![] : Fin 0 → Fin S3072x2048.rank)
  reducesTo_S3072x2048_S_d0_1 : S3072x2048.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S3072 .f32) (main_arg8 : FVec F S1024x1024 .f32) (main_arg9 : FVec F S2048x2048 .f32) (main_arg10 : FVec F S2048 .f32) (main_v33 : IVec S_ 1) : IVec S_ 1 :=
  let main_v34 : FVec F S3072 .f32 := Host.absf main_arg7
  let main_cst_12 : FVec F S_ .f32 := constant S_ .f32 0x7F800000#32
  let main_v35 : FVec F S3072 .f32 := broadcastInDim S3072 ![] bcast_S_S3072 main_cst_12
  let main_v36 : IVec S3072 1 := cmpf .olt main_v34 main_v35
  let main_c_13 : IVec S_ 1 := constantI S_ 1 1#1
  let main_v37 : IVec S_ 1 := (fun x v => Host.reduce IntOp.andi x v reducesTo_S3072_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S1x1024 .f32) (main_arg5 : FVec F S3072x1024 .f32) (main_arg6 : FVec F S3072x2048 .f32) (main_arg7 : FVec F S3072 .f32) (main_arg8 : FVec F S1024x1024 .f32) (main_arg9 : FVec F S2048x2048 .f32) (main_arg10 : FVec F S2048 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S3072x1024 .f32 := Host.absf main_arg5
  let main_cst_8 : FVec F S_ .f32 := constant S_ .f32 0x7F800000#32
  let main_v25 : FVec F S3072x1024 .f32 := broadcastInDim S3072x1024 ![] bcast_S_S3072x1024 main_cst_8
  let main_v26 : IVec S3072x1024 1 := cmpf .olt main_v24 main_v25
  let main_c_9 : IVec S_ 1 := constantI S_ 1 1#1
  let main_v27 : IVec S_ 1 := (fun x v => Host.reduce IntOp.andi x v reducesTo_S3072x1024_S_d0_1 h_S_) main_v26 main_c_9
  let main_v28 : IVec S_ 1 := andi main_v23 main_v27
  let main_v29 : FVec F S3072x2048 .f32 := Host.absf main_arg6
  let main_cst_10 : FVec F S_ .f32 := constant S_ .f32 0x7F800000#32
  let main_v30 : FVec F S3072x2048 .f32 := broadcastInDim S3072x2048 ![] bcast_S_S3072x2048 main_cst_10
  let main_v31 : IVec S3072x2048 1 := cmpf .olt main_v29 main_v30
  let main_c_11 : IVec S_ 1 := constantI S_ 1 1#1
  let main_v32 : IVec S_ 1 := (fun x v => Host.reduce IntOp.andi x v reducesTo_S3072x2048_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x1024 .f32) (main_arg1 : FVec F S16384x1024 .f32) (main_arg2 : FVec F S16384x1024 .f32) (main_arg3 : FVec F S1x1024 .f32) (main_arg4 : FVec F S1x1024 .f32) (main_arg5 : FVec F S3072x1024 .f32) (main_arg6 : FVec F S3072x2048 .f32) (main_arg7 : FVec F S3072 .f32) (main_arg8 : FVec F S1024x1024 .f32) (main_arg9 : FVec F S2048x2048 .f32) (main_arg10 : FVec F S2048 .f32) (main_arg11 : IVec S32768 32) (main_arg12 : IVec S16384 32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_arg7 main_arg8 main_arg9 main_arg10 main_v13 main_v16
-- ==== Kernel.lean ====
abbrev S16384x1024 : Shape := ⟨2, ![16384, 1024]⟩
abbrev S1x1024 : Shape := ⟨2, ![1, 1024]⟩
abbrev S3072x1024 : Shape := ⟨2, ![3072, 1024]⟩
abbrev S3072x2048 : Shape := ⟨2, ![3072, 2048]⟩
abbrev S3072 : Shape := ⟨1, ![3072]⟩
abbrev S1024x1024 : Shape := ⟨2, ![1024, 1024]⟩
abbrev S2048x2048 : Shape := ⟨2, ![2048, 2048]⟩
abbrev S2048 : Shape := ⟨1, ![2048]⟩
abbrev S32768 : Shape := ⟨1, ![32768]⟩
abbrev S16384 : Shape := ⟨1, ![16384]⟩
abbrev S1x1x1x1024 : Shape := ⟨4, ![1, 1, 1, 1024]⟩
abbrev S32768x1x1x1024 : Shape := ⟨4, ![32768, 1, 1, 1024]⟩
abbrev S32768x1024 : Shape := ⟨2, ![32768, 1024]⟩
abbrev S_ : Shape := ⟨0, ![]⟩
abbrev S16384x1 : Shape := ⟨2, ![16384, 1]⟩
abbrev S16384x2048 : Shape := ⟨2, ![16384, 2048]⟩
abbrev S1024x3072 : Shape := ⟨2, ![1024, 3072]⟩
abbrev S2048x3072 : Shape := ⟨2, ![2048, 3072]⟩
abbrev S1x1024x1x1024 : Shape := ⟨4, ![1, 1024, 1, 1024]⟩
abbrev S1x1024x2x1024 : Shape := ⟨4, ![1, 1024, 2, 1024]⟩
abbrev S1024x2048 : Shape := ⟨2, ![1024, 2048]⟩
abbrev S3072x3072 : Shape := ⟨2, ![3072, 3072]⟩
abbrev S3072x5120 : Shape := ⟨2, ![3072, 5120]⟩
abbrev S5120 : Shape := ⟨1, ![5120]⟩
abbrev S16384x3072 : Shape := ⟨2, ![16384, 3072]⟩
abbrev S16384x5120 : Shape := ⟨2, ![16384, 5120]⟩
abbrev S1024 : Shape := ⟨1, ![1024]⟩
abbrev S256x5120 : Shape := ⟨2, ![256, 5120]⟩
abbrev S256x2048 : Shape := ⟨2, ![256, 2048]⟩
abbrev S256x1024 : Shape := ⟨2, ![256, 1024]⟩

abbrev nBuf : Space → Nat
  | .hbm => 56
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S3072x1024, .f32⟩
  | .hbm, ⟨6, _⟩ => ⟨S3072x2048, .f32⟩
  | .hbm, ⟨7, _⟩ => ⟨S3072, .f32⟩
  | .hbm, ⟨8, _⟩ => ⟨S1024x1024, .f32⟩
  | .hbm, ⟨9, _⟩ => ⟨S2048x2048, .f32⟩
  | .hbm, ⟨10, _⟩ => ⟨S2048, .f32⟩
  | .hbm, ⟨11, _⟩ => ⟨S32768, .i32⟩
  | .hbm, ⟨12, _⟩ => ⟨S16384, .i32⟩
  | .hbm, ⟨13, _⟩ => ⟨S1x1x1x1024, .f32⟩
  | .hbm, ⟨14, _⟩ => ⟨S32768x1x1x1024, .f32⟩
  | .hbm, ⟨15, _⟩ => ⟨S32768x1024, .f32⟩
  | .hbm, ⟨16, _⟩ => ⟨S_, .i32⟩
  | .hbm, ⟨17, _⟩ => ⟨S16384, .i32⟩
  | .hbm, ⟨18, _⟩ => ⟨S16384, .i1⟩
  | .hbm, ⟨19, _⟩ => ⟨S_, .i32⟩
  | .hbm, ⟨20, _⟩ => ⟨S16384, .i32⟩
  | .hbm, ⟨21, _⟩ => ⟨S16384, .i32⟩
  | .hbm, ⟨22, _⟩ => ⟨S16384, .i32⟩
  | .hbm, ⟨23, _⟩ => ⟨S16384x1, .i32⟩
  | .hbm, ⟨24, _⟩ => ⟨S32768x1024, .f32⟩
  | .hbm, ⟨25, _⟩ => ⟨S16384x2048, .f32⟩
  | .hbm, ⟨26, _⟩ => ⟨S1x1x1x1024, .f32⟩
  | .hbm, ⟨27, _⟩ => ⟨S32768x1x1x1024, .f32⟩
  | .hbm, ⟨28, _⟩ => ⟨S32768x1024, .f32⟩
  | .hbm, ⟨29, _⟩ => ⟨S_, .i32⟩
  | .hbm, ⟨30, _⟩ => ⟨S16384, .i32⟩
  | .hbm, ⟨31, _⟩ => ⟨S16384, .i1⟩
  | .hbm, ⟨32, _⟩ => ⟨S_, .i32⟩
  | .hbm, ⟨33, _⟩ => ⟨S16384, .i32⟩
  | .hbm, ⟨34, _⟩ => ⟨S16384, .i32⟩
  | .hbm, ⟨35, _⟩ => ⟨S16384, .i32⟩
  | .hbm, ⟨36, _⟩ => ⟨S16384x1, .i32⟩
  | .hbm, ⟨37, _⟩ => ⟨S32768x1024, .f32⟩
  | .hbm, ⟨38, _⟩ => ⟨S16384x2048, .f32⟩
  | .hbm, ⟨39, _⟩ => ⟨S1024x3072, .f32⟩
  | .hbm, ⟨40, _⟩ => ⟨S2048x3072, .f32⟩
  | .hbm, ⟨41, _⟩ => ⟨S1024x1024, .f32⟩
  | .hbm, ⟨42, _⟩ => ⟨S1x1024x1x1024, .f32⟩
  | .hbm, ⟨43, _⟩ => ⟨S1x1024x2x1024, .f32⟩
  | .hbm, ⟨44, _⟩ => ⟨S1024x2048, .f32⟩
  | .hbm, ⟨45, _⟩ => ⟨S2048x2048, .f32⟩
  | .hbm, ⟨46, _⟩ => ⟨S3072x3072, .f32⟩
  | .hbm, ⟨47, _⟩ => ⟨S3072x2048, .f32⟩
  | .hbm, ⟨48, _⟩ => ⟨S3072x5120, .f32⟩
  | .hbm, ⟨49, _⟩ => ⟨S5120, .f32⟩
  | .hbm, ⟨50, _⟩ => ⟨S16384x3072, .f32⟩
  | .hbm, ⟨51, _⟩ => ⟨S16384x3072, .bf16⟩
  | .hbm, ⟨52, _⟩ => ⟨S3072x5120, .bf16⟩
  | .hbm, ⟨53, _⟩ => ⟨S16384x5120, .f32⟩
  | .hbm, ⟨54, _⟩ => ⟨S16384x1024, .f32⟩
  | .hbm, ⟨55, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024, .f32⟩
  | .local _ .vmem, ⟨5, _⟩ => ⟨S1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S256x5120, .f32⟩
  | .local _ .vmem, ⟨10, _⟩ => ⟨S256x5120, .f32⟩
  | .local _ .vmem, ⟨11, _⟩ => ⟨S256x2048, .f32⟩
  | .local _ .vmem, ⟨12, _⟩ => ⟨S256x2048, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c : Ref sig .tc := ⟨.hbm, 16, rfl⟩
abbrev main_v3 : Ref sig .tc := ⟨.hbm, 17, rfl⟩
abbrev main_v4 : Ref sig .tc := ⟨.hbm, 18, rfl⟩
abbrev main_c_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37_0 : Ref sig .tc := ⟨.hbm, 54, rfl⟩
abbrev main_v37_1 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨3, ![16, 5, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x5120 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S1x1024_S1x1x1x1024 : S1x1024.ShapeCasts S1x1x1x1024
  bcast_S1x1x1x1024_S32768x1x1x1024_0_1_2_3 : S1x1x1x1024.BroadcastsInDim S32768x1x1x1024 (![0, 1, 2, 3] : Fin 4 → Fin S32768x1x1x1024.rank)
  shapeCasts_S32768x1x1x1024_S32768x1024 : S32768x1x1x1024.ShapeCasts S32768x1024
  bcast_S_S16384 : S_.BroadcastsInDim S16384 (![] : Fin 0 → Fin S16384.rank)
  bcast_S16384_S16384x1_0 : S16384.BroadcastsInDim S16384x1 (![0] : Fin 1 → Fin S16384x1.rank)
  shapeCasts_S32768x1024_S16384x2048 : S32768x1024.ShapeCasts S16384x2048
  transposes_S3072x1024_S1024x3072_1_0 : S3072x1024.Transposes [1, 0] S1024x3072
  transposes_S3072x2048_S2048x3072_1_0 : S3072x2048.Transposes [1, 0] S2048x3072
  transposes_S1024x1024_S1024x1024_1_0 : S1024x1024.Transposes [1, 0] S1024x1024
  shapeCasts_S1024x1024_S1x1024x1x1024 : S1024x1024.ShapeCasts S1x1024x1x1024
  bcast_S1x1024x1x1024_S1x1024x2x1024_0_1_2_3 : S1x1024x1x1024.BroadcastsInDim S1x1024x2x1024 (![0, 1, 2, 3] : Fin 4 → Fin S1x1024x2x1024.rank)
  shapeCasts_S1x1024x2x1024_S1024x2048 : S1x1024x2x1024.ShapeCasts S1024x2048
  transposes_S2048x2048_S2048x2048_1_0 : S2048x2048.Transposes [1, 0] S2048x2048
  concatenates_S1024x3072_S2048x3072_S3072x3072_d0 : Shape.Concatenates [S1024x3072, S2048x3072] S3072x3072 0
  concatenates_S1024x2048_S2048x2048_S3072x2048_d0 : Shape.Concatenates [S1024x2048, S2048x2048] S3072x2048 0
  concatenates_S3072x3072_S3072x2048_S3072x5120_d1 : Shape.Concatenates [S3072x3072, S3072x2048] S3072x5120 1
  concatenates_S3072_S2048_S5120_d0 : Shape.Concatenates [S3072, S2048] S5120 0
  concatenates_S16384x1024_S16384x2048_S16384x3072_d1 : Shape.Concatenates [S16384x1024, S16384x2048] S16384x3072 1
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  broadcasts_S1x1024_S1024x1024 : S1x1024.Broadcasts S1024x1024
  inb_S256x5120_S256x5120_0_0 : ∀ a, (![0, 0] : Fin 2 → Nat) a + S256x5120.size a ≤ S256x5120.size a
  h_S256x5120 : 0 < S256x5120.numel
  shapeCasts_S256x5120_S256x5120 : S256x5120.ShapeCasts S256x5120
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  slices_S256x5120_o0_0_S256x1024 : S256x5120.Slices ![0, 0] S256x1024
  slices_S256x5120_o0_1024_S256x1024 : S256x5120.Slices ![0, 1024] S256x1024
  slices_S256x5120_o0_2048_S256x1024 : S256x5120.Slices ![0, 2048] S256x1024
  slices_S256x5120_o0_3072_S256x2048 : S256x5120.Slices ![0, 3072] S256x2048
  slices_S256x2048_o0_0_S256x1024 : S256x2048.Slices ![0, 0] S256x1024
  slices_S256x2048_o0_1024_S256x1024 : S256x2048.Slices ![0, 1024] S256x1024
  inb_S256x1024_S256x1024_0_0 : ∀ a, (![0, 0] : Fin 2 → Nat) a + S256x1024.size a ≤ S256x1024.size a
  h_S256x1024 : 0 < S256x1024.numel
  scatter_S32768x1024_S16384x1_S16384x1024_1_0_0_1_wf : ScatterDims.WF S32768x1024 S16384x1 S16384x1024 [1] [0] [0] 1
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x3072.size a
  hwx0_0 : ∀ i : grid0.Coords, EltTy.bits .bf16 = 32 ∨ (Rect.block (s := S16384x3072) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S3072x5120.size a
  hwx0_1 : ∀ i : grid0.Coords, EltTy.bits .bf16 = 32 ∨ (Rect.block (s := S3072x5120) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S5120.size a
  hwx0_2 : ∀ i : grid0.Coords, EltTy.bits .f32 = 32 ∨ (Rect.block (s := S5120) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x5120.size a
  hwx0_3 : ∀ i : grid0.Coords, EltTy.bits .f32 = 32 ∨ (Rect.block (s := S16384x5120) S1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x5120.size a ≤ S16384x5120.size a
  hwx1_0 : ∀ i : grid1.Coords, EltTy.bits .f32 = 32 ∨ (Rect.block (s := S16384x5120) S256x5120.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S16384x2048.size a
  hwx1_1 : ∀ i : grid1.Coords, EltTy.bits .f32 = 32 ∨ (Rect.block (s := S16384x2048) S256x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S16384x1024.size a
  hwx1_2 : ∀ i : grid1.Coords, EltTy.bits .f32 = 32 ∨ (Rect.block (s := S16384x1024) S256x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S16384x1024.size a
  hwx1_3 : ∀ i : grid1.Coords, EltTy.bits .f32 = 32 ∨ (Rect.block (s := S16384x1024) S256x1024.size (cc1_transform_3 i) (hinb1_3 i)).WholeWords (EltTy.packing .f32)

variable [Facts₀]

def scatter_S32768x1024_S16384x1_S16384x1024_1_0_0_1 : ScatterDims S32768x1024 S16384x1 S16384x1024 where
  updateWindowDims := [1]
  insertedWindowDims := [0]
  scatterDimsToOperandDims := [0]
  indexVectorDim := 1
  wf := scatter_S32768x1024_S16384x1_S16384x1024_1_0_0_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v34) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v36) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v36) S256x5120.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37_0) S256x1024.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37_1) S256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16384x1024 : Shape := ⟨2, ![16384, 1024]⟩
abbrev S1x1024 : Shape := ⟨2, ![1, 1024]⟩
abbrev S3072x1024 : Shape := ⟨2, ![3072, 1024]⟩
abbrev S3072x2048 : Shape := ⟨2, ![3072, 2048]⟩
abbrev S3072 : Shape := ⟨1, ![3072]⟩
abbrev S1024x1024 : Shape := ⟨2, ![1024, 1024]⟩
abbrev S2048x2048 : Shape := ⟨2, ![2048, 2048]⟩
abbrev S2048 : Shape := ⟨1, ![2048]⟩
abbrev S32768 : Shape := ⟨1, ![32768]⟩
abbrev S16384 : Shape := ⟨1, ![16384]⟩
abbrev S1x1x1x1024 : Shape := ⟨4, ![1, 1, 1, 1024]⟩
abbrev S32768x1x1x1024 : Shape := ⟨4, ![32768, 1, 1, 1024]⟩
abbrev S32768x1024 : Shape := ⟨2, ![32768, 1024]⟩
abbrev S_ : Shape := ⟨0, ![]⟩
abbrev S16384x1 : Shape := ⟨2, ![16384, 1]⟩
abbrev S16384x2048 : Shape := ⟨2, ![16384, 2048]⟩
abbrev S1024x3072 : Shape := ⟨2, ![1024, 3072]⟩
abbrev S16384x3072 : Shape := ⟨2, ![16384, 3072]⟩
abbrev S2048x3072 : Shape := ⟨2, ![2048, 3072]⟩
abbrev S1x3072 : Shape := ⟨2, ![1, 3072]⟩
abbrev S1x2048 : Shape := ⟨2, ![1, 2048]⟩
abbrev S1x16384x1x1024 : Shape := ⟨4, ![1, 16384, 1, 1024]⟩
abbrev S1x16384x2x1024 : Shape := ⟨4, ![1, 16384, 2, 1024]⟩
abbrev S16384x2x1024 : Shape := ⟨3, ![16384, 2, 1024]⟩

abbrev nBuf : Space → Nat
  | .hbm => 94
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S3072x1024, .f32⟩
  | .hbm, ⟨6, _⟩ => ⟨S3072x2048, .f32⟩
  | .hbm, ⟨7, _⟩ => ⟨S3072, .f32⟩
  | .hbm, ⟨8, _⟩ => ⟨S1024x1024, .f32⟩
  | .hbm, ⟨9, _⟩ => ⟨S2048x2048, .f32⟩
  | .hbm, ⟨10, _⟩ => ⟨S2048, .f32⟩
  | .hbm, ⟨11, _⟩ => ⟨S32768, .i32⟩
  | .hbm, ⟨12, _⟩ => ⟨S16384, .i32⟩
  | .hbm, ⟨13, _⟩ => ⟨S1x1x1x1024, .f32⟩
  | .hbm, ⟨14, _⟩ => ⟨S32768x1x1x1024, .f32⟩
  | .hbm, ⟨15, _⟩ => ⟨S32768x1024, .f32⟩
  | .hbm, ⟨16, _⟩ => ⟨S_, .i32⟩
  | .hbm, ⟨17, _⟩ => ⟨S16384, .i32⟩
  | .hbm, ⟨18, _⟩ => ⟨S16384, .i1⟩
  | .hbm, ⟨19, _⟩ => ⟨S_, .i32⟩
  | .hbm, ⟨20, _⟩ => ⟨S16384, .i32⟩
  | .hbm, ⟨21, _⟩ => ⟨S16384, .i32⟩
  | .hbm, ⟨22, _⟩ => ⟨S16384, .i32⟩
  | .hbm, ⟨23, _⟩ => ⟨S16384x1, .i32⟩
  | .hbm, ⟨24, _⟩ => ⟨S32768x1024, .f32⟩
  | .hbm, ⟨25, _⟩ => ⟨S16384x2048, .f32⟩
  | .hbm, ⟨26, _⟩ => ⟨S1x1x1x1024, .f32⟩
  | .hbm, ⟨27, _⟩ => ⟨S32768x1x1x1024, .f32⟩
  | .hbm, ⟨28, _⟩ => ⟨S32768x1024, .f32⟩
  | .hbm, ⟨29, _⟩ => ⟨S_, .i32⟩
  | .hbm, ⟨30, _⟩ => ⟨S16384, .i32⟩
  | .hbm, ⟨31, _⟩ => ⟨S16384, .i1⟩
  | .hbm, ⟨32, _⟩ => ⟨S_, .i32⟩
  | .hbm, ⟨33, _⟩ => ⟨S16384, .i32⟩
  | .hbm, ⟨34, _⟩ => ⟨S16384, .i32⟩
  | .hbm, ⟨35, _⟩ => ⟨S16384, .i32⟩
  | .hbm, ⟨36, _⟩ => ⟨S16384x1, .i32⟩
  | .hbm, ⟨37, _⟩ => ⟨S32768x1024, .f32⟩
  | .hbm, ⟨38, _⟩ => ⟨S16384x2048, .f32⟩
  | .hbm, ⟨39, _⟩ => ⟨S1024x3072, .f32⟩
  | .hbm, ⟨40, _⟩ => ⟨S16384x3072, .f32⟩
  | .hbm, ⟨41, _⟩ => ⟨S2048x3072, .f32⟩
  | .hbm, ⟨42, _⟩ => ⟨S16384x3072, .f32⟩
  | .hbm, ⟨43, _⟩ => ⟨S16384x3072, .f32⟩
  | .hbm, ⟨44, _⟩ => ⟨S1x3072, .f32⟩
  | .hbm, ⟨45, _⟩ => ⟨S16384x3072, .f32⟩
  | .hbm, ⟨46, _⟩ => ⟨S16384x3072, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S_, .f32⟩
  | .hbm, ⟨61, _⟩ => ⟨S16384x1024, .f32⟩
  | .hbm, ⟨62, _⟩ => ⟨S16384x1024, .f32⟩
  | .hbm, ⟨63, _⟩ => ⟨S_, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S2048x2048, .f32⟩
  | .hbm, ⟨68, _⟩ => ⟨S16384x2048, .f32⟩
  | .hbm, ⟨69, _⟩ => ⟨S1x2048, .f32⟩
  | .hbm, ⟨70, _⟩ => ⟨S16384x2048, .f32⟩
  | .hbm, ⟨71, _⟩ => ⟨S16384x2048, .f32⟩
  | .hbm, ⟨72, _⟩ => ⟨S1024x1024, .f32⟩
  | .hbm, ⟨73, _⟩ => ⟨S16384x1024, .f32⟩
  | .hbm, ⟨74, _⟩ => ⟨S1x16384x1x1024, .f32⟩
  | .hbm, ⟨75, _⟩ => ⟨S1x16384x2x1024, .f32⟩
  | .hbm, ⟨76, _⟩ => ⟨S16384x2048, .f32⟩
  | .hbm, ⟨77, _⟩ => ⟨S16384x2048, .f32⟩
  | .hbm, ⟨78, _⟩ => ⟨S16384x2048, .f32⟩
  | .hbm, ⟨79, _⟩ => ⟨S16384x2048, .f32⟩
  | .hbm, ⟨80, _⟩ => ⟨S_, .f32⟩
  | .hbm, ⟨81, _⟩ => ⟨S16384x2048, .f32⟩
  | .hbm, ⟨82, _⟩ => ⟨S16384x2048, .f32⟩
  | .hbm, ⟨83, _⟩ => ⟨S_, .f32⟩
  | .hbm, ⟨84, _⟩ => ⟨S16384x2048, .f32⟩
  | .hbm, ⟨85, _⟩ => ⟨S16384x2048, .f32⟩
  | .hbm, ⟨86, _⟩ => ⟨S16384x2048, .f32⟩
  | .hbm, ⟨87, _⟩ => ⟨S16384x1024, .f32⟩
  | .hbm, ⟨88, _⟩ => ⟨S16384x2x1024, .f32⟩
  | .hbm, ⟨89, _⟩ => ⟨S_, .f32⟩
  | .hbm, ⟨90, _⟩ => ⟨S16384x1024, .f32⟩
  | .hbm, ⟨91, _⟩ => ⟨S16384x1024, .f32⟩
  | .hbm, ⟨92, _⟩ => ⟨S16384x1024, .f32⟩
  | .hbm, ⟨93, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c : Ref sig .tc := ⟨.hbm, 16, rfl⟩
abbrev main_v3 : Ref sig .tc := ⟨.hbm, 17, rfl⟩
abbrev main_v4 : Ref sig .tc := ⟨.hbm, 18, rfl⟩
abbrev main_c_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst : Ref sig .tc := ⟨.hbm, 52, rfl⟩
abbrev main_v35 : Ref sig .tc := ⟨.hbm, 53, rfl⟩
abbrev main_v36 : Ref sig .tc := ⟨.hbm, 54, rfl⟩
abbrev main_cst_3 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_4 : Ref sig .tc := ⟨.hbm, 60, rfl⟩
abbrev main_v41 : Ref sig .tc := ⟨.hbm, 61, rfl⟩
abbrev main_v42 : Ref sig .tc := ⟨.hbm, 62, rfl⟩
abbrev main_cst_5 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_6 : Ref sig .tc := ⟨.hbm, 80, rfl⟩
abbrev main_v59 : Ref sig .tc := ⟨.hbm, 81, rfl⟩
abbrev main_v60 : Ref sig .tc := ⟨.hbm, 82, rfl⟩
abbrev main_cst_7 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_8 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩

abbrev nD : Nat := 1
abbrev τ : Topo := Topo.v7x

variable {F : FTy → Type} [FloatOps F]

class Facts₀ : Prop where
  shapeCasts_S1x1024_S1x1x1x1024 : S1x1024.ShapeCasts S1x1x1x1024
  bcast_S1x1x1x1024_S32768x1x1x1024_0_1_2_3 : S1x1x1x1024.BroadcastsInDim S32768x1x1x1024 (![0, 1, 2, 3] : Fin 4 → Fin S32768x1x1x1024.rank)
  shapeCasts_S32768x1x1x1024_S32768x1024 : S32768x1x1x1024.ShapeCasts S32768x1024
  bcast_S_S16384 : S_.BroadcastsInDim S16384 (![] : Fin 0 → Fin S16384.rank)
  bcast_S16384_S16384x1_0 : S16384.BroadcastsInDim S16384x1 (![0] : Fin 1 → Fin S16384x1.rank)
  shapeCasts_S32768x1024_S16384x2048 : S32768x1024.ShapeCasts S16384x2048
  transposes_S3072x1024_S1024x3072_1_0 : S3072x1024.Transposes [1, 0] S1024x3072
  transposes_S3072x2048_S2048x3072_1_0 : S3072x2048.Transposes [1, 0] S2048x3072
  bcast_S3072_S1x3072_1 : S3072.BroadcastsInDim S1x3072 (![1] : Fin 1 → Fin S1x3072.rank)
  bcast_S1x3072_S16384x3072_0_1 : S1x3072.BroadcastsInDim S16384x3072 (![0, 1] : Fin 2 → Fin S16384x3072.rank)
  slices_S16384x3072_S16384x1024_0_0 : S16384x3072.Slices ![0, 0] S16384x1024
  slices_S16384x3072_S16384x1024_0_1024 : S16384x3072.Slices ![0, 1024] S16384x1024
  slices_S16384x3072_S16384x1024_0_2048 : S16384x3072.Slices ![0, 2048] S16384x1024
  bcast_S_S16384x1024 : S_.BroadcastsInDim S16384x1024 (![] : Fin 0 → Fin S16384x1024.rank)
  transposes_S2048x2048_S2048x2048_1_0 : S2048x2048.Transposes [1, 0] S2048x2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  transposes_S1024x1024_S1024x1024_1_0 : S1024x1024.Transposes [1, 0] S1024x1024
  shapeCasts_S16384x1024_S1x16384x1x1024 : S16384x1024.ShapeCasts S1x16384x1x1024
  bcast_S1x16384x1x1024_S1x16384x2x1024_0_1_2_3 : S1x16384x1x1024.BroadcastsInDim S1x16384x2x1024 (![0, 1, 2, 3] : Fin 4 → Fin S1x16384x2x1024.rank)
  shapeCasts_S1x16384x2x1024_S16384x2048 : S1x16384x2x1024.ShapeCasts S16384x2048
  bcast_S_S16384x2048 : S_.BroadcastsInDim S16384x2048 (![] : Fin 0 → Fin S16384x2048.rank)
  shapeCasts_S16384x2048_S16384x2x1024 : S16384x2048.ShapeCasts S16384x2x1024
  reducesTo_S16384x2x1024_S16384x1024_d1 : S16384x2x1024.ReducesTo [1] S16384x1024
  h_S_ : 0 < S_.numel
  scatter_S32768x1024_S16384x1_S16384x1024_1_0_0_1_wf : ScatterDims.WF S32768x1024 S16384x1 S16384x1024 [1] [0] [0] 1
  dot_S16384x1024_S1024x3072_S16384x3072_1_0_0_1_n_n_wf : DotDims.WF S16384x1024 S1024x3072 S16384x3072 [1] [0] [0] [1] [] []
  dot_S16384x2048_S2048x3072_S16384x3072_1_0_0_1_n_n_wf : DotDims.WF S16384x2048 S2048x3072 S16384x3072 [1] [0] [0] [1] [] []
  dot_S16384x2048_S2048x2048_S16384x2048_1_0_0_1_n_n_wf : DotDims.WF S16384x2048 S2048x2048 S16384x2048 [1] [0] [0] [1] [] []
  dot_S16384x1024_S1024x1024_S16384x1024_1_0_0_1_n_n_wf : DotDims.WF S16384x1024 S1024x1024 S16384x1024 [1] [0] [0] [1] [] []

variable [Facts₀]

def scatter_S32768x1024_S16384x1_S16384x1024_1_0_0_1 : ScatterDims S32768x1024 S16384x1 S16384x1024 where
  updateWindowDims := [1]
  insertedWindowDims := [0]
  scatterDimsToOperandDims := [0]
  indexVectorDim := 1
  wf := scatter_S32768x1024_S16384x1_S16384x1024_1_0_0_1_wf
def dot_S16384x1024_S1024x3072_S16384x3072_1_0_0_1_n_n : DotDims S16384x1024 S1024x3072 S16384x3072 where
  lhsContracting := [1]
  rhsContracting := [0]
  lhsNonContracting := [0]
  rhsNonContracting := [1]
  lhsBatch := []
  rhsBatch := []
  wf := dot_S16384x1024_S1024x3072_S16384x3072_1_0_0_1_n_n_wf
def dot_S16384x2048_S2048x3072_S16384x3072_1_0_0_1_n_n : DotDims S16384x2048 S2048x3072 S16384x3072 where
  lhsContracting := [1]
  rhsContracting := [0]
  lhsNonContracting := [0]
  rhsNonContracting := [1]
  lhsBatch := []
  rhsBatch := []
  wf := dot_S16384x2048_S2048x3072_S16384x3072_1_0_0_1_n_n_wf
def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.Mm0Bits.lean ====
/-
  The matmul region (the first pallas_call): a [16384, 3072] x [3072, 5120] product tiled 16 x 5 x 3 in blocks of
  1024, the partial products of one output block summed over the three steps of the contraction axis in a scratch
  accumulator that the kernel keeps between grid points: cleared where the contraction coordinate is 0, added to at
  every point, and, where it is 2, written out with the bias row added. This module holds what the three control
  cases share: the two branch conditions as functions of the grid point, decided over the 240 points (the
  contraction coordinate is the point's position mod 3); where the output window is idle; the staging memrefs as the
  pipeline passes them; the blocks of the operand arrays; and the region invariant's spelling with the scratch as an
  owned memref.
-/
import proofs.«146003_j63513976373582_1_alg».proof.Proof.Gen.Kernel.Launch
import proofs.«146003_j63513976373582_1_alg».proof.Proof.Gen.Kernel.Skeleton
import proofs.«146003_j63513976373582_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Mm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row's staging buffer holds its block at every point, fetched there or not (its block index moves only
    with the output column block). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Blocks

/-! ## The two branch conditions over the grid -/

/-- The accumulator is cleared where the contraction coordinate is 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 3 = 0 :=
  (by decide +kernel : ∀ t : Fin grid0.N, cond0_0 (grid0.coords t) ↔ t.val % 3 = 0)

/-- The output block is stored where the contraction coordinate is 2. -/
abbrev cond0_1 (i : grid0.Coords) : Prop := k0_cond2 i = 1#1
theorem hcond0_1 : ∀ t : Fin cfg0.N, cond0_1 (grid0.coords t) ↔ t.val % 3 = 2 :=
  (by decide +kernel : ∀ t : Fin grid0.N, cond0_1 (grid0.coords t) ↔ t.val % 3 = 2)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the output is not stored the window is idle and is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the body is called with -/

abbrev VO0_3 : View sig .tc .vmem S1024x1024 .f32 := (Memref.whole cc0_stg3_0 : Memref sig .tc .vmem S1024x1024 .f32).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S1024x1024 .f32 := Memref.whole cc0_scratch0
abbrev VS0_0 : View sig .tc .vmem S1024x1024 .f32 := scM0_0.view

/-- The core's other scoped buffers (the second pallas_call's staging buffers), each whole at some contents: the
    matmul region never touches them. -/
def restOther (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant with the accumulator as a memref owned at some contents, beside the other scoped buffers and
    the generator register. -/
theorem PhiA0_eq (c : Dev nD) :
    (Pipeline.ΦA spec0 c : sProp 𝕄)
      = iprop(iprop((∃ d, owns (c : Thread nD τ) scM0_0 fullShare d) ∗ restOther (F := F) c) ∗ (∃ r, prngReg c r)) := by
  unfold Pipeline.ΦA restOther; rw [scopedRest0_eq]; simp only [scM0_0, owns_whole]; try rfl

end Cert.Kernel.Mm

end
-- ==== Proof.Mm0RunABits.lean ====
/-
  The matmul body where the contraction coordinate is 0: the accumulator is cleared, the first partial product is
  added to it, and nothing is stored into the output block. The list of pieces the stores leave in the accumulator
  is found by running the body.
-/
import proofs.«146003_j63513976373582_1_alg».proof.Proof.Mm0Bits

set_option maxRecDepth 16384

noncomputable section

namespace Cert.Kernel.Mm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of the first contraction step, on whole staging memrefs: the three operand blocks and the
    idle output buffer are handed back as found; the accumulator, found at anything, ends with the pieces written. -/
noncomputable def kernelRun0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1024 .f32) :
    { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__matmul_bias_kernel i arg3 harg3 arg4 harg4 arg5 harg5 arg6 harg6 arg7 harg7) K } := by
  refine ⟨?_, fun xi3 E K => ?run⟩
  case run =>
    simp only [cc0__matmul_bias_kernel_eq_skeleton]; unfold cc0__matmul_bias_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Mm

end
-- ==== Proof.Mm0RunBBits.lean ====
/-
  The matmul body where the contraction coordinate is 1: the partial product of the point's blocks is added to the
  accumulator, which holds the sum of the steps before; nothing is stored into the output block.
-/
import proofs.«146003_j63513976373582_1_alg».proof.Proof.Mm0Bits

set_option maxRecDepth 16384

noncomputable section

namespace Cert.Kernel.Mm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of the middle contraction step: the accumulator, found at what the point before left, ends
    with the pieces written; everything else is handed back as found. -/
noncomputable def kernelRun0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1024 .f32) (xs0 : Vec F S1024x1024 .f32) :
    { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__matmul_bias_kernel i arg3 harg3 arg4 harg4 arg5 harg5 arg6 harg6 arg7 harg7) K } := by
  refine ⟨?_, fun xi3 E K => ?run⟩
  case run =>
    simp only [cc0__matmul_bias_kernel_eq_skeleton]; unfold cc0__matmul_bias_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Mm

end
-- ==== Proof.Mm0RunCBits.lean ====
/-
  The matmul body where the contraction coordinate is 2: the last partial product is added to the accumulator and
  the accumulator plus the bias row, broadcast down the rows, is stored into the output block.
-/
import proofs.«146003_j63513976373582_1_alg».proof.Proof.Mm0Bits

set_option maxRecDepth 16384

noncomputable section

namespace Cert.Kernel.Mm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of the last contraction step: the accumulator, found at what the point before left, and the
    output buffer, found at anything, end with their pieces written; the operand blocks are handed back as found. -/
noncomputable def kernelRun0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__matmul_bias_kernel i arg3 harg3 arg4 harg4 arg5 harg5 arg6 harg6 arg7 harg7) K } := by
  refine ⟨?_, ?_, fun E K => ?run⟩
  case run =>
    simp only [cc0__matmul_bias_kernel_eq_skeleton]; unfold cc0__matmul_bias_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Mm

end
-- ==== Proof.Mm0FrameBits.lean ====
/-
  The matmul region point by point. What the accumulator holds after each grid point is defined by recursion on
  the point: the case the point's contraction coordinate selects, run on the point's operand blocks over what the
  point before left. The region invariant carries the accumulator at exactly those contents from one point to the
  next; the output block is what the last contraction step stores and is idle elsewhere. From these the proof data
  of the pipeline and the body's obligation at every point.
-/
import proofs.«146003_j63513976373582_1_alg».proof.Proof.Mm0RunABits
import proofs.«146003_j63513976373582_1_alg».proof.Proof.Mm0RunBBits
import proofs.«146003_j63513976373582_1_alg».proof.Proof.Mm0RunCBits

set_option maxRecDepth 16384

noncomputable section

namespace Cert.Kernel.Mm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- The first step's pieces cover the accumulator. -/
theorem scover0_A_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i) (x0 : Vec F S1024x1024 .bf16) (x1 : Vec F S1024x1024 .bf16) (x2 : Vec F S1024 .f32) (y : S1024x1024.Idx) :
    ∃ pc ∈ (kernelRun0_A (F := F) c i arg3 harg3 arg4 harg4 arg5 harg5 arg6 harg6 arg7 harg7 hc0 hc1 x0 x1 x2).1, y ∈ pc.1.set :=
  View.cover_of_tiledL (kernelRun0_A (F := F) c i arg3 harg3 arg4 harg4 arg5 harg5 arg6 harg6 arg7 harg7 hc0 hc1 x0 x1 x2).1 S1024x1024.size (by sl_kernel_rfl) y

/-- What the first step leaves in the accumulator. -/
def sout0_A_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i) (x0 : Vec F S1024x1024 .bf16) (x1 : Vec F S1024x1024 .bf16) (x2 : Vec F S1024 .f32) : Vec F S1024x1024 .f32 :=
  VS0_0.read (Elt F) (VS0_0.writes (Elt F) VS0_0.junk (kernelRun0_A (F := F) c i arg3 harg3 arg4 harg4 arg5 harg5 arg6 harg6 arg7 harg7 hc0 hc1 x0 x1 x2).1)

theorem scover0_B_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i) (x0 : Vec F S1024x1024 .bf16) (x1 : Vec F S1024x1024 .bf16) (x2 : Vec F S1024 .f32) (xs0 : Vec F S1024x1024 .f32) (y : S1024x1024.Idx) :
    ∃ pc ∈ (kernelRun0_B (F := F) c i arg3 harg3 arg4 harg4 arg5 harg5 arg6 harg6 arg7 harg7 hc0 hc1 x0 x1 x2 xs0).1, y ∈ pc.1.set :=
  View.cover_of_tiledL (kernelRun0_B (F := F) c i arg3 harg3 arg4 harg4 arg5 harg5 arg6 harg6 arg7 harg7 hc0 hc1 x0 x1 x2 xs0).1 S1024x1024.size (by sl_kernel_rfl) y

/-- What the middle step leaves in the accumulator. -/
def sout0_B_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i) (x0 : Vec F S1024x1024 .bf16) (x1 : Vec F S1024x1024 .bf16) (x2 : Vec F S1024 .f32) (xs0 : Vec F S1024x1024 .f32) : Vec F S1024x1024 .f32 :=
  VS0_0.read (Elt F) (VS0_0.writes (Elt F) VS0_0.junk (kernelRun0_B (F := F) c i arg3 harg3 arg4 harg4 arg5 harg5 arg6 harg6 arg7 harg7 hc0 hc1 x0 x1 x2 xs0).1)

theorem cover0_C_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i) (x0 : Vec F S1024x1024 .bf16) (x1 : Vec F S1024x1024 .bf16) (x2 : Vec F S1024 .f32) (xs0 : Vec F S1024x1024 .f32) (y : S1024x1024.Idx) :
    ∃ pc ∈ (kernelRun0_C (F := F) c i arg3 harg3 arg4 harg4 arg5 harg5 arg6 harg6 arg7 harg7 hc0 hc1 x0 x1 x2 xs0).1, y ∈ pc.1.set :=
  View.cover_of_tiledL (kernelRun0_C (F := F) c i arg3 harg3 arg4 harg4 arg5 harg5 arg6 harg6 arg7 harg7 hc0 hc1 x0 x1 x2 xs0).1 S1024x1024.size (by sl_kernel_rfl) y

theorem scover0_C_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i) (x0 : Vec F S1024x1024 .bf16) (x1 : Vec F S1024x1024 .bf16) (x2 : Vec F S1024 .f32) (xs0 : Vec F S1024x1024 .f32) (y : S1024x1024.Idx) :
    ∃ pc ∈ (kernelRun0_C (F := F) c i arg3 harg3 arg4 harg4 arg5 harg5 arg6 harg6 arg7 harg7 hc0 hc1 x0 x1 x2 xs0).2.1, y ∈ pc.1.set :=
  View.cover_of_tiledL (kernelRun0_C (F := F) c i arg3 harg3 arg4 harg4 arg5 harg5 arg6 harg6 arg7 harg7 hc0 hc1 x0 x1 x2 xs0).2.1 S1024x1024.size (by sl_kernel_rfl) y

/-- What the last step stores into the output block. -/
def out0_C_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i) (x0 : Vec F S1024x1024 .bf16) (x1 : Vec F S1024x1024 .bf16) (x2 : Vec F S1024 .f32) (xs0 : Vec F S1024x1024 .f32) : Vec F S1024x1024 .f32 :=
  VO0_3.read (Elt F) (VO0_3.writes (Elt F) VO0_3.junk (kernelRun0_C (F := F) c i arg3 harg3 arg4 harg4 arg5 harg5 arg6 harg6 arg7 harg7 hc0 hc1 x0 x1 x2 xs0).1)

/-- What the last step leaves in the accumulator. -/
def sout0_C_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i) (x0 : Vec F S1024x1024 .bf16) (x1 : Vec F S1024x1024 .bf16) (x2 : Vec F S1024 .f32) (xs0 : Vec F S1024x1024 .f32) : Vec F S1024x1024 .f32 :=
  VS0_0.read (Elt F) (VS0_0.writes (Elt F) VS0_0.junk (kernelRun0_C (F := F) c i arg3 harg3 arg4 harg4 arg5 harg5 arg6 harg6 arg7 harg7 hc0 hc1 x0 x1 x2 xs0).2.1)

/-- Contents nothing consults: the output buffer where the window is idle, the accumulator before the first point. -/
def unread : Vec F S1024x1024 .f32 := VO0_3.read (Elt F) VO0_3.junk

section Region
variable (V : (c : Dev nD) → (b : Ref sig .tc) → Buf (Elt F) ((c : Thread nD τ).loc b))

/-! ## The accumulation -/

/-- One point: the output block's buffer and the accumulator after the body at `t`, from what the accumulator held
    before it. -/
def step0 (c : Dev nD) (t : Fin cfg0.N) (prev : Vec F S1024x1024 .f32) : Vec F S1024x1024 .f32 × Vec F S1024x1024 .f32 :=
  if h0 : t.val % 3 = 0 then
    (unread, sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => absurd ((hcond0_1 t).mp h) (by omega)) (iblk0 V c 0 t) (iblk0 V c 1 t) (iblk0 V c 2 t))
  else if h1 : t.val % 3 = 2 then
    (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) prev,
     sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) prev)
  else
    (unread, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) prev)

/-- The output block's buffer and the accumulator after the body at position `n`. -/
def outsAt0 (c : Dev nD) : (n : ℕ) → n < cfg0.N → Vec F S1024x1024 .f32 × Vec F S1024x1024 .f32
  | 0, hn => step0 V c ⟨0, hn⟩ unread
  | n + 1, hn => step0 V c ⟨n + 1, hn⟩ (outsAt0 c n (Nat.lt_of_succ_lt hn)).2

/-- What the accumulator holds when point `t` starts. -/
def prevAt0 (c : Dev nD) (t : Fin cfg0.N) : Vec F S1024x1024 .f32 :=
  if hz : t.val = 0 then unread else (outsAt0 V c (t.val - 1) (Nat.lt_of_le_of_lt (Nat.sub_le _ _) t.isLt)).2

theorem outsAt0_eq (c : Dev nD) (t : Fin cfg0.N) : outsAt0 V c t.val t.isLt = step0 V c t (prevAt0 V c t) := by
  obtain ⟨n, hn⟩ := t
  cases n with
  | zero => rfl
  | succ n => rfl

theorem prevAt0_pos (c : Dev nD) (t : Fin cfg0.N) (hz : t.val ≠ 0) :
    prevAt0 V c t = (outsAt0 V c (t.val - 1) (Nat.lt_of_le_of_lt (Nat.sub_le _ _) t.isLt)).2 := dif_neg hz

theorem step0_A (c : Dev nD) (t : Fin cfg0.N) (prev) (h0 : t.val % 3 = 0) :
    step0 V c t prev = (unread, sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => absurd ((hcond0_1 t).mp h) (by omega)) (iblk0 V c 0 t) (iblk0 V c 1 t) (iblk0 V c 2 t)) := dif_pos h0

theorem step0_C (c : Dev nD) (t : Fin cfg0.N) (prev) (h0 : ¬t.val % 3 = 0) (h1 : t.val % 3 = 2) :
    step0 V c t prev = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) prev,
     sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) prev) := (dif_neg h0).trans (dif_pos h1)

theorem step0_B (c : Dev nD) (t : Fin cfg0.N) (prev) (h0 : ¬t.val % 3 = 0) (h1 : ¬t.val % 3 = 2) :
    step0 V c t prev = (unread, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) prev) := (dif_neg h0).trans (dif_neg h1)

/-! ## The invariant and the proof data -/

/-- The region invariant before position `n`: before the first point the class's (every scoped buffer at anything);
    afterwards the accumulator at what the point before left, the other scoped buffers at anything, and the generator
    register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restOther (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ restOther (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ restOther (F := F) c) ∗ (∃ r, prngReg c r)) := by
  cases n with
  | zero => exact absurd rfl hz
  | succ n => rfl

/-- The proof data of the matmul pipeline on core `c`: the arrays as the region finds them; after the body each
    operand's buffer at its block and the output's at the accumulation's first component; the invariant above;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 8000000 in
/-- The body at any point. The operands' memrefs hold their blocks; the point's position mod 3 says which case it is
    in; the invariant hands the body the accumulator at what the point before left (at anything at the first point)
    and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 240 := lt_of_lt_of_eq t.isLt (show cfg0.N = 240 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [outsAt0_eq V c t]
  by_cases h0 : t.val % 3 = 0
  · have hc0 : cond0_0 (grid0.coords t) := (hcond0_0 t).mpr h0
    have hc1 : ¬cond0_1 (grid0.coords t) := fun h => absurd ((hcond0_1 t).mp h) (by omega)
    rw [Dat.leavesExact_idle (dat0 V c) 3 t (idleAt0_3 t hc1) (noFlush0_3 t hc1)]
    rw [step0_A V c t _ h0]
    unfold sout0_A_0; (try dsimp only)
    by_cases hz : t.val = 0
    · rw [PhiS_castSucc V c t, PhiS_zero V c _ _ hz, PhiA0_eq]
      iintro ⟨⟨⟨HS0, HR⟩, Hg⟩, Ho, ⟨%d0, H0⟩, ⟨%d1, H1⟩, ⟨%d2, H2⟩, ⟨%d3, H3⟩⟩
      iapply ((kernelRun0_A c (grid0.coords t) (ms0_0 t) (hs0_0 t) (ms0_1 t) (hs0_1 t) (ms0_2 t) (hs0_2 t) (ms0_3 t) (hs0_3 t) scM0_0 (Memref.isWhole_whole _) hc0 hc1 (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun0_A c (grid0.coords t) (ms0_0 t) (hs0_0 t) (ms0_1 t) (hs0_1 t) (ms0_2 t) (hs0_2 t) (ms0_3 t) (hs0_3 t) scM0_0 (Memref.isWhole_whole _) hc0 hc1 (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hnc0 : ¬cond0_0 (grid0.coords t) := fun h => h0 ((hcond0_0 t).mp h)
    rw [prevAt0_pos V c t hz]
    by_cases h1 : t.val % 3 = 2
    · have hc1 : cond0_1 (grid0.coords t) := (hcond0_1 t).mpr h1
      rw [show (dat0 V c).leavesExact 3 t = owns (c : Thread nD τ) (ms0_3 t) fullShare ((dat0 V c).after 3 t) from by
        unfold Dat.leavesExact; rw [liveAt0_3 t hc1], after0_3, outsAt0_eq V c t, prevAt0_pos V c t hz]
      rw [step0_C V c t _ h0 h1]
      unfold out0_C_3 sout0_C_0; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun0_C c (grid0.coords t) (ms0_0 t) (hs0_0 t) (ms0_1 t) (hs0_1 t) (ms0_2 t) (hs0_2 t) (ms0_3 t) (hs0_3 t) scM0_0 (Memref.isWhole_whole _) hnc0 hc1 (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · have hc1 : ¬cond0_1 (grid0.coords t) := fun h => h1 ((hcond0_1 t).mp h)
      rw [Dat.leavesExact_idle (dat0 V c) 3 t (idleAt0_3 t hc1) (noFlush0_3 t hc1)]
      rw [step0_B V c t _ h0 h1]
      unfold sout0_B_0; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun0_B c (grid0.coords t) (ms0_0 t) (hs0_0 t) (ms0_1 t) (hs0_1 t) (ms0_2 t) (hs0_2 t) (ms0_3 t) (hs0_3 t) scM0_0 (Memref.isWhole_whole _) hnc0 hc1 (iblk0 V c 0 t) (iblk0 V c 1 t) (iblk0 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 240 := N_0; omega), PhiA0_eq]
  iintro ⟨⟨HS0, HR⟩, Hg⟩
  isplitl [HS0 HR]
  · isplitl [HS0]
    · iexists _; iexact HS0
    iexact HR
  iexact Hg

end Region

end Cert.Kernel.Mm

end
-- ==== Proof.EpiFrameBits.lean ====
/- The gate region: 64 grid points, point t working on rows 256·t … 256·t + 255. At each point the body reads one
   block of the pre-activation array (256 × 5120) and one of the carried-cell table (256 × 2048), and writes one block
   (256 × 1024) of the new hidden state and one of the new cell state; each of the two writes is a single store over
   the whole block, so what a block holds afterwards is a function of the two blocks read and of nothing else (not of
   what the output block held before, although the body reads it). This module states that, for arbitrary contents
   `V` of the core's buffers at the region's entry and for any float model: the blocks, the two functions, the body's
   specification as a separation-logic triple, and the per-point obligation of the pipeline rule. -/
import proofs.«146003_j63513976373582_1_alg».proof.Proof.Gen.Kernel.Launch
import proofs.«146003_j63513976373582_1_alg».proof.Proof.Gen.Kernel.Skeleton
import proofs.«146003_j63513976373582_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Epi

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers at the region's entry
variable (V : (c : Dev nD) → (b : Ref sig .tc) → Buf (Elt F) ((c : Thread nD τ).loc b))

/-! ## The windows' blocks -/

/-- Block `t` of window `w`'s array, as a function on the block's own indices: the array's entry contents read through
    the block's rectangle. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Before the body runs at point `t`, the buffer the pre-activation window is on holds block `t` of the array: the
    block moves at every point and every block lies inside the array, and the body does not change an input buffer. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the carried-cell window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes through: each is its whole buffer -/

abbrev r1_0 : Rect S256x5120 := Rect.unit (s := S256x5120) ![0, 0] S256x5120.size inb_S256x5120_S256x5120_0_0
abbrev r1_1 : Rect S256x2048 := Rect.unit (s := S256x2048) ![0, 0] S256x2048.size inb_S256x2048_S256x2048_0_0
abbrev r1_2 : Rect S256x1024 := Rect.unit (s := S256x1024) ![0, 0] S256x1024.size inb_S256x1024_S256x1024_0_0

/-! ## What the body leaves in each output window's buffer -/

/-- What the hidden-state block holds after the body, as a function of the two blocks read: the one value stored,
    laid over the whole block. -/
def out1_2 (x0 : Vec F S256x5120 .f32) (x1 : Vec F S256x2048 .f32) : Vec F S256x1024 .f32 :=
  View.canon [⟨r1_2, k1_pay3 (View.ld x0 r1_0) (View.ld x1 r1_1)⟩]

/-- What the cell-state block holds after the body, likewise. -/
def out1_3 (x0 : Vec F S256x5120 .f32) (x1 : Vec F S256x2048 .f32) : Vec F S256x1024 .f32 :=
  View.canon [⟨r1_2, k1_pay2 (View.ld x0 r1_0) (View.ld x1 r1_1)⟩]

/-- A rectangle that is the whole buffer contains every index of it. -/
theorem cover1_2 (p0 : Vec F S256x1024 .f32) (y : S256x1024.Idx) :
    ∃ pc ∈ ([⟨r1_2, p0⟩] : List (View.Piece (Elt F) S256x1024 .f32)), y ∈ pc.1.set :=
  View.cover_of_tiled [⟨r1_2, p0⟩] S256x1024.size (by rfl) y

/-- The whole-buffer rectangle starts at the origin. -/
theorem hz : (![0, 0] : Fin 2 → Nat) = fun _ => 0 := funext fun a => by fin_cases a <;> rfl

/-- A store over the whole block leaves exactly the stored value, and a read through the whole block is the block:
    the hidden-state block ends at the stored value computed from the two blocks read. -/
theorem out1_2_eq (x0 : Vec F S256x5120 .f32) (x1 : Vec F S256x2048 .f32) : out1_2 (F := F) x0 x1 = k1_pay3 x0 x1 := by
  unfold out1_2
  rw [View.canon_unit_zero hz]
  rw [View.ld_unit_zero (S := S256x5120) hz, View.ld_unit_zero (S := S256x2048) hz]

/-- The same for the cell-state block. -/
theorem out1_3_eq (x0 : Vec F S256x5120 .f32) (x1 : Vec F S256x2048 .f32) : out1_3 (F := F) x0 x1 = k1_pay2 x0 x1 := by
  unfold out1_3
  rw [View.canon_unit_zero hz]
  rw [View.ld_unit_zero (S := S256x5120) hz, View.ld_unit_zero (S := S256x2048) hz]

/-! ## The body's triple -/

set_option maxHeartbeats 1000000 in
/-- The body's specification: owning the two input buffers at contents `x0`, `x1` and the two output buffers at
    any contents, it terminates without fault, leaves the inputs as they were and the outputs at the two functions of
    `x0` and `x1` above. -/
theorem sound_kernel1 (c : Dev nD) (E : Set ℕ) (i : grid1.Coords) (arg1 : Memref sig .tc .vmem S256x5120 .f32) (harg1 : arg1.IsWhole) (arg2 : Memref sig .tc .vmem S256x2048 .f32) (harg2 : arg2.IsWhole) (arg3 : Memref sig .tc .vmem S256x1024 .f32) (harg3 : arg3.IsWhole) (arg4 : Memref sig .tc .vmem S256x1024 .f32) (harg4 : arg4.IsWhole)
    (x0 : Vec F S256x5120 .f32) (x1 : Vec F S256x2048 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out1_2 x0 x1) ∗ owns (c : Thread nD τ) arg4 fullShare (out1_3 x0 x1)) -∗ K ⟨⟩))
      ⊢ wp frame (wpE (defs₀ (F := F)) Variants.none c none) E (cc1__epilogue_kernel i arg1 harg1 arg2 harg2 arg3 harg3 arg4 harg4) K := by
  simp only [cc1__epilogue_kernel_eq_skeleton]; unfold cc1__epilogue_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _)
  iexists _; isplitr
  swap; · iexact H3
  ipureintro
  exact View.read_writes_eq_canon _ _ _ (cover1_2 _)

/-! ## The pipeline's proof data -/

/-- What the pipeline rule is told about the region on core `c`: the four arrays start at `V`; after the body at point
    `t` the input buffers hold block `t` of their arrays and the output buffers the two functions of those blocks; the
    invariant carried from point to point is the ownership of everything the body does not touch; the core owes no
    signal to any other. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
  Φ _ := Pipeline.ΦA spec1 c
  q _ := fullShare
  owed _ := 0

/-- The arrays start at the entry contents. -/
theorem A_eq1 (c : Dev nD) (w : Fin cfg1.W) : (dat1 V c).A w = V c (Pipeline.arrRef spec1 w) := by
  dsimp only [dat1]

/-- What each buffer holds after the body at point `t`, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]

/-- Before the body at point `t` each input buffer holds block `t` of its array. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- The resources the body starts from at point `t`: the invariant, the (empty) debt, and the four buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and those it must end with. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body meets that at every point: the input buffers hold their blocks, so its specification applies with those
    blocks as the contents read; the invariant and the debt are framed around it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The per-point obligation of the pipeline rule. -/
theorem body_obligation1 (c : Dev nD) : BodyObligation (dat1 (F := F) V c) (defs₀ (F := F)) Variants.none () Set.univ := fun t => by
  rw [bigSep_W1, bigSep_W1]
  exact sound_body1 V c t

end Cert.Kernel.Epi

end
-- ==== Proof.RegionsBits.lean ====
/-
  The whole run of the kernel's program: the host operations that lay out the operands, the matmul region, the
  gate region. Between two items every unscoped buffer of a core is held at a named valuation: the launch memory,
  then the host operations' fold over it, then that with the matmul's arrays at what its pipeline leaves (the
  operands as entered, the product's array at its write-backs folded), then that with the gate region's arrays
  likewise. Each region is a segment whose pipeline invariant takes the scoped buffers and the generator register in
  and gives them back (the matmul's holds its accumulator at named contents in between); nothing is owed to any
  other core. At the end every unscoped buffer is read off the last valuation: the two results at what the gate
  region's pipeline leaves, every argument at its launch contents.
-/
import proofs.«146003_j63513976373582_1_alg».proof.Proof.Mm0FrameBits
import proofs.«146003_j63513976373582_1_alg».proof.Proof.EpiFrameBits
import proofs.«146003_j63513976373582_1_alg».proof.Proof.Gen.Kernel.Regions

set_option maxRecDepth 16384

noncomputable section

namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- After the host operations (the matmul region's entry), read at the TensorCore's references. -/
abbrev VV1 : (c : Dev nD) → (b : Ref sig .tc) → Buf (Elt F) ((c : Thread nD τ).loc b) := fun c b => V1 m c b

/-- At the matmul region's exit. -/
def W2 (c : Dev nD) : Valuation τ sig (Elt F) :=
  Pipeline.withArrays spec0 c (V1 m c) fun w => (Mm.dat0 (VV1 m) c).arrAt w cfg0.N
theorem W2_arr (c : Dev nD) (w : Fin cfg0.W) :
    W2 m c (Proc.devRef .tc (Pipeline.arrRef spec0 w)) = (Mm.dat0 (VV1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = V1 m c (Proc.devRef .tc b) := by
  unfold W2; exact Pipeline.withArrays_of_ne spec0 c _ _ b hb
abbrev VV2 : (c : Dev nD) → (b : Ref sig .tc) → Buf (Elt F) ((c : Thread nD τ).loc b) := fun c b => W2 m c b
theorem hF0 (c : Dev nD) (w : Fin cfg0.W) : (Mm.dat0 (VV1 m) c).arrAt w cfg0.N = VV2 m c (Pipeline.arrRef spec0 w) :=
  (W2_arr m c w).symm
theorem hrest0 (c : Dev nD) : ∀ b, b ∉ Finset.univ.image (Pipeline.arrRef spec0) → VV2 m c b = VV1 m c b :=
  fun b hb => W2_of_ne m c b fun w e => hb (Finset.mem_image.mpr ⟨w, Finset.mem_univ _, e⟩)

/-- At the gate region's exit. -/
def W3 (c : Dev nD) : Valuation τ sig (Elt F) :=
  Pipeline.withArrays spec1 c (W2 m c) fun w => (Epi.dat1 (VV2 m) c).arrAt w cfg1.N
theorem W3_arr (c : Dev nD) (w : Fin cfg1.W) :
    W3 m c (Proc.devRef .tc (Pipeline.arrRef spec1 w)) = (Epi.dat1 (VV2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev VV3 : (c : Dev nD) → (b : Ref sig .tc) → Buf (Elt F) ((c : Thread nD τ).loc b) := fun c b => W3 m c b
theorem hF1 (c : Dev nD) (w : Fin cfg1.W) : (Epi.dat1 (VV2 m) c).arrAt w cfg1.N = VV3 m c (Pipeline.arrRef spec1 w) :=
  (W3_arr m c w).symm
theorem hrest1 (c : Dev nD) : ∀ b, b ∉ Finset.univ.image (Pipeline.arrRef spec1) → VV3 m c b = VV2 m c b :=
  fun b hb => W3_of_ne m c b fun w e => hb (Finset.mem_image.mpr ⟨w, Finset.mem_univ _, e⟩)

/-! ### No item writes an argument; the results are the gate region's two output arrays -/

theorem W3_main_arg0 (c : Dev nD) : W3 m c (Proc.devRef .tc main_arg0) = m ((c : Thread nD τ).loc main_arg0) :=
  (W3_of_ne m c main_arg0 (by decide)).trans <| (W2_of_ne m c main_arg0 (by decide)).trans <| (V1_of m c main_arg0 (by decide)).trans rfl
theorem W3_main_arg1 (c : Dev nD) : W3 m c (Proc.devRef .tc main_arg1) = m ((c : Thread nD τ).loc main_arg1) :=
  (W3_of_ne m c main_arg1 (by decide)).trans <| (W2_of_ne m c main_arg1 (by decide)).trans <| (V1_of m c main_arg1 (by decide)).trans rfl
theorem W3_main_arg2 (c : Dev nD) : W3 m c (Proc.devRef .tc main_arg2) = m ((c : Thread nD τ).loc main_arg2) :=
  (W3_of_ne m c main_arg2 (by decide)).trans <| (W2_of_ne m c main_arg2 (by decide)).trans <| (V1_of m c main_arg2 (by decide)).trans rfl
theorem W3_main_arg3 (c : Dev nD) : W3 m c (Proc.devRef .tc main_arg3) = m ((c : Thread nD τ).loc main_arg3) :=
  (W3_of_ne m c main_arg3 (by decide)).trans <| (W2_of_ne m c main_arg3 (by decide)).trans <| (V1_of m c main_arg3 (by decide)).trans rfl
theorem W3_main_arg4 (c : Dev nD) : W3 m c (Proc.devRef .tc main_arg4) = m ((c : Thread nD τ).loc main_arg4) :=
  (W3_of_ne m c main_arg4 (by decide)).trans <| (W2_of_ne m c main_arg4 (by decide)).trans <| (V1_of m c main_arg4 (by decide)).trans rfl
theorem W3_main_arg5 (c : Dev nD) : W3 m c (Proc.devRef .tc main_arg5) = m ((c : Thread nD τ).loc main_arg5) :=
  (W3_of_ne m c main_arg5 (by decide)).trans <| (W2_of_ne m c main_arg5 (by decide)).trans <| (V1_of m c main_arg5 (by decide)).trans rfl
theorem W3_main_arg6 (c : Dev nD) : W3 m c (Proc.devRef .tc main_arg6) = m ((c : Thread nD τ).loc main_arg6) :=
  (W3_of_ne m c main_arg6 (by decide)).trans <| (W2_of_ne m c main_arg6 (by decide)).trans <| (V1_of m c main_arg6 (by decide)).trans rfl
theorem W3_main_arg7 (c : Dev nD) : W3 m c (Proc.devRef .tc main_arg7) = m ((c : Thread nD τ).loc main_arg7) :=
  (W3_of_ne m c main_arg7 (by decide)).trans <| (W2_of_ne m c main_arg7 (by decide)).trans <| (V1_of m c main_arg7 (by decide)).trans rfl
theorem W3_main_arg8 (c : Dev nD) : W3 m c (Proc.devRef .tc main_arg8) = m ((c : Thread nD τ).loc main_arg8) :=
  (W3_of_ne m c main_arg8 (by decide)).trans <| (W2_of_ne m c main_arg8 (by decide)).trans <| (V1_of m c main_arg8 (by decide)).trans rfl
theorem W3_main_arg9 (c : Dev nD) : W3 m c (Proc.devRef .tc main_arg9) = m ((c : Thread nD τ).loc main_arg9) :=
  (W3_of_ne m c main_arg9 (by decide)).trans <| (W2_of_ne m c main_arg9 (by decide)).trans <| (V1_of m c main_arg9 (by decide)).trans rfl
theorem W3_main_arg10 (c : Dev nD) : W3 m c (Proc.devRef .tc main_arg10) = m ((c : Thread nD τ).loc main_arg10) :=
  (W3_of_ne m c main_arg10 (by decide)).trans <| (W2_of_ne m c main_arg10 (by decide)).trans <| (V1_of m c main_arg10 (by decide)).trans rfl
theorem W3_main_arg11 (c : Dev nD) : W3 m c (Proc.devRef .tc main_arg11) = m ((c : Thread nD τ).loc main_arg11) :=
  (W3_of_ne m c main_arg11 (by decide)).trans <| (W2_of_ne m c main_arg11 (by decide)).trans <| (V1_of m c main_arg11 (by decide)).trans rfl
theorem W3_main_arg12 (c : Dev nD) : W3 m c (Proc.devRef .tc main_arg12) = m ((c : Thread nD τ).loc main_arg12) :=
  (W3_of_ne m c main_arg12 (by decide)).trans <| (W2_of_ne m c main_arg12 (by decide)).trans <| (V1_of m c main_arg12 (by decide)).trans rfl

theorem W3_main_v37_0 (c : Dev nD) : W3 m c (Proc.devRef .tc main_v37_0) = (Epi.dat1 (VV2 m) c).arrAt 2 cfg1.N := W3_arr m c 2
theorem W3_main_v37_1 (c : Dev nD) : W3 m c (Proc.devRef .tc main_v37_1) = (Epi.dat1 (VV2 m) c).arrAt 3 cfg1.N := W3_arr m c 3

/-! ## The proof data family and the thread state -/

def pdats : (p : Fin 2) → (c : Dev nD) → Dat τ (Elt F) Unit ℕ (UR sig nD τ) ℕ (Pipeline.pin (pcfgs (F := F)) adm p) c
  | ⟨0, _⟩ => fun c => Mm.dat0 (VV1 m) c
  | ⟨1, _⟩ => fun c => Epi.dat1 (VV2 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The matmul region over the thread state. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Mm.body_obligation0 (VV1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (VV1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec0 c ⊢ (pdats m 0 c).Φ 0 from Mm.hin0 (VV1 m) c)
    unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Mm.hout0 (VV1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VV1 m c) (VV2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gate region over the thread state. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Epi.body_obligation1 (VV2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VV2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VV2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VV2 m c) (VV3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (V0 m)),
    .region (reg0 m),
    .region (reg1 m) ]
theorem main_run (c : Dev nD) : main (F := F) c = Pipeline.Seg.run (segs m) := (main_chain c).trans (by chain_rfl)

set_option backward.isDefEq.respectTransparency.types false in
/-- From any memory with zero counters every weakly fair execution of @main terminates, nothing faulting, and
    every final state holds the two results at what the gate region's pipeline leaves in its output arrays and every
    argument array as launched. -/
theorem run_all : θ_run defs (onTc (τ := τ) (main (F := F))) ⟨m, fun _ => 0, ρ⟩ (fun r => ∀ c : Dev nD,
      r.2.mem ((c.tc : Thread nD τ).loc main_v37_0) = (Epi.dat1 (VV2 m) c).arrAt 2 cfg1.N
      ∧ r.2.mem ((c.tc : Thread nD τ).loc main_v37_1) = (Epi.dat1 (VV2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v37_0 (by decide))).trans (W3_main_v37_0 m c),
        (h c _ (mem_uc main_v37_1 (by decide))).trans (W3_main_v37_1 m c),
        (h c _ (mem_uc main_arg0 (by decide))).trans (W3_main_arg0 m c),
        (h c _ (mem_uc main_arg1 (by decide))).trans (W3_main_arg1 m c),
        (h c _ (mem_uc main_arg2 (by decide))).trans (W3_main_arg2 m c),
        (h c _ (mem_uc main_arg3 (by decide))).trans (W3_main_arg3 m c),
        (h c _ (mem_uc main_arg4 (by decide))).trans (W3_main_arg4 m c),
        (h c _ (mem_uc main_arg5 (by decide))).trans (W3_main_arg5 m c),
        (h c _ (mem_uc main_arg6 (by decide))).trans (W3_main_arg6 m c),
        (h c _ (mem_uc main_arg7 (by decide))).trans (W3_main_arg7 m c),
        (h c _ (mem_uc main_arg8 (by decide))).trans (W3_main_arg8 m c),
        (h c _ (mem_uc main_arg9 (by decide))).trans (W3_main_arg9 m c),
        (h c _ (mem_uc main_arg10 (by decide))).trans (W3_main_arg10 m c),
        (h c _ (mem_uc main_arg11 (by decide))).trans (W3_main_arg11 m c),
        (h c _ (mem_uc main_arg12 (by decide))).trans (W3_main_arg12 m c)⟩)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => (h c).2.2) (run_all m ρ)

end Cert.Kernel.Regs

end
-- ==== Proof.Mm0Ideal.lean ====
/-
  The matmul region (the first pallas_call): a [16384, 3072] x [3072, 5120] product tiled 16 x 5 x 3 in blocks of
  1024, the partial products of one output block summed over the three steps of the contraction axis in a scratch
  accumulator that the kernel keeps between grid points: cleared where the contraction coordinate is 0, added to at
  every point, and, where it is 2, written out with the bias row added. This module holds what the three control
  cases share: the two branch conditions as functions of the grid point, decided over the 240 points (the
  contraction coordinate is the point's position mod 3); where the output window is idle; the staging memrefs as the
  pipeline passes them; the blocks of the operand arrays; and the region invariant's spelling with the scratch as an
  owned memref.
-/
import proofs.«146003_j63513976373582_1_alg».proof.Proof.Gen.KernelIdeal.Launch
import proofs.«146003_j63513976373582_1_alg».proof.Proof.Gen.KernelIdeal.Skeleton
import proofs.«146003_j63513976373582_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Mm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row's staging buffer holds its block at every point, fetched there or not (its block index moves only
    with the output column block). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Blocks

/-! ## The two branch conditions over the grid -/

/-- The accumulator is cleared where the contraction coordinate is 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 3 = 0 :=
  (by decide +kernel : ∀ t : Fin grid0.N, cond0_0 (grid0.coords t) ↔ t.val % 3 = 0)

/-- The output block is stored where the contraction coordinate is 2. -/
abbrev cond0_1 (i : grid0.Coords) : Prop := k0_cond2 i = 1#1
theorem hcond0_1 : ∀ t : Fin cfg0.N, cond0_1 (grid0.coords t) ↔ t.val % 3 = 2 :=
  (by decide +kernel : ∀ t : Fin grid0.N, cond0_1 (grid0.coords t) ↔ t.val % 3 = 2)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the output is not stored the window is idle and is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the body is called with -/

abbrev VO0_3 : View sig .tc .vmem S1024x1024 .f32 := (Memref.whole cc0_stg3_0 : Memref sig .tc .vmem S1024x1024 .f32).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S1024x1024 .f32 := Memref.whole cc0_scratch0
abbrev VS0_0 : View sig .tc .vmem S1024x1024 .f32 := scM0_0.view

/-- The core's other scoped buffers (the second pallas_call's staging buffers), each whole at some contents: the
    matmul region never touches them. -/
def restOther (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant with the accumulator as a memref owned at some contents, beside the other scoped buffers and
    the generator register. -/
theorem PhiA0_eq (c : Dev nD) :
    (Pipeline.ΦA spec0 c : sProp 𝕄)
      = iprop(iprop((∃ d, owns (c : Thread nD τ) scM0_0 fullShare d) ∗ restOther (F := F) c) ∗ (∃ r, prngReg c r)) := by
  unfold Pipeline.ΦA restOther; rw [scopedRest0_eq]; simp only [scM0_0, owns_whole]; try rfl

end Cert.KernelIdeal.Mm

end
-- ==== Proof.Mm0RunAIdeal.lean ====
/-
  The matmul body where the contraction coordinate is 0: the accumulator is cleared, the first partial product is
  added to it, and nothing is stored into the output block. The list of pieces the stores leave in the accumulator
  is found by running the body.
-/
import proofs.«146003_j63513976373582_1_alg».proof.Proof.Mm0Ideal

set_option maxRecDepth 16384

noncomputable section

namespace Cert.KernelIdeal.Mm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of the first contraction step, on whole staging memrefs: the three operand blocks and the
    idle output buffer are handed back as found; the accumulator, found at anything, ends with the pieces written. -/
noncomputable def kernelRun0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1024 .f32) :
    { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__matmul_bias_kernel i arg3 harg3 arg4 harg4 arg5 harg5 arg6 harg6 arg7 harg7) K } := by
  refine ⟨?_, fun xi3 E K => ?run⟩
  case run =>
    simp only [cc0__matmul_bias_kernel_eq_skeleton]; unfold cc0__matmul_bias_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Mm

end
-- ==== Proof.Mm0RunBIdeal.lean ====
/-
  The matmul body where the contraction coordinate is 1: the partial product of the point's blocks is added to the
  accumulator, which holds the sum of the steps before; nothing is stored into the output block.
-/
import proofs.«146003_j63513976373582_1_alg».proof.Proof.Mm0Ideal

set_option maxRecDepth 16384

noncomputable section

namespace Cert.KernelIdeal.Mm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of the middle contraction step: the accumulator, found at what the point before left, ends
    with the pieces written; everything else is handed back as found. -/
noncomputable def kernelRun0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1024 .f32) (xs0 : Vec F S1024x1024 .f32) :
    { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__matmul_bias_kernel i arg3 harg3 arg4 harg4 arg5 harg5 arg6 harg6 arg7 harg7) K } := by
  refine ⟨?_, fun xi3 E K => ?run⟩
  case run =>
    simp only [cc0__matmul_bias_kernel_eq_skeleton]; unfold cc0__matmul_bias_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Mm

end
-- ==== Proof.Mm0RunCIdeal.lean ====
/-
  The matmul body where the contraction coordinate is 2: the last partial product is added to the accumulator and
  the accumulator plus the bias row, broadcast down the rows, is stored into the output block.
-/
import proofs.«146003_j63513976373582_1_alg».proof.Proof.Mm0Ideal

set_option maxRecDepth 16384

noncomputable section

namespace Cert.KernelIdeal.Mm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of the last contraction step: the accumulator, found at what the point before left, and the
    output buffer, found at anything, end with their pieces written; the operand blocks are handed back as found. -/
noncomputable def kernelRun0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__matmul_bias_kernel i arg3 harg3 arg4 harg4 arg5 harg5 arg6 harg6 arg7 harg7) K } := by
  refine ⟨?_, ?_, fun E K => ?run⟩
  case run =>
    simp only [cc0__matmul_bias_kernel_eq_skeleton]; unfold cc0__matmul_bias_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Mm

end
-- ==== Proof.Mm0FrameIdeal.lean ====
/-
  The matmul region point by point. What the accumulator holds after each grid point is defined by recursion on
  the point: the case the point's contraction coordinate selects, run on the point's operand blocks over what the
  point before left. The region invariant carries the accumulator at exactly those contents from one point to the
  next; the output block is what the last contraction step stores and is idle elsewhere. From these the proof data
  of the pipeline and the body's obligation at every point.
-/
import proofs.«146003_j63513976373582_1_alg».proof.Proof.Mm0RunAIdeal
import proofs.«146003_j63513976373582_1_alg».proof.Proof.Mm0RunBIdeal
import proofs.«146003_j63513976373582_1_alg».proof.Proof.Mm0RunCIdeal

set_option maxRecDepth 16384

noncomputable section

namespace Cert.KernelIdeal.Mm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- The first step's pieces cover the accumulator. -/
theorem scover0_A_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i) (x0 : Vec F S1024x1024 .bf16) (x1 : Vec F S1024x1024 .bf16) (x2 : Vec F S1024 .f32) (y : S1024x1024.Idx) :
    ∃ pc ∈ (kernelRun0_A (F := F) c i arg3 harg3 arg4 harg4 arg5 harg5 arg6 harg6 arg7 harg7 hc0 hc1 x0 x1 x2).1, y ∈ pc.1.set :=
  View.cover_of_tiledL (kernelRun0_A (F := F) c i arg3 harg3 arg4 harg4 arg5 harg5 arg6 harg6 arg7 harg7 hc0 hc1 x0 x1 x2).1 S1024x1024.size (by sl_kernel_rfl) y

/-- What the first step leaves in the accumulator. -/
def sout0_A_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i) (x0 : Vec F S1024x1024 .bf16) (x1 : Vec F S1024x1024 .bf16) (x2 : Vec F S1024 .f32) : Vec F S1024x1024 .f32 :=
  VS0_0.read (Elt F) (VS0_0.writes (Elt F) VS0_0.junk (kernelRun0_A (F := F) c i arg3 harg3 arg4 harg4 arg5 harg5 arg6 harg6 arg7 harg7 hc0 hc1 x0 x1 x2).1)

theorem scover0_B_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i) (x0 : Vec F S1024x1024 .bf16) (x1 : Vec F S1024x1024 .bf16) (x2 : Vec F S1024 .f32) (xs0 : Vec F S1024x1024 .f32) (y : S1024x1024.Idx) :
    ∃ pc ∈ (kernelRun0_B (F := F) c i arg3 harg3 arg4 harg4 arg5 harg5 arg6 harg6 arg7 harg7 hc0 hc1 x0 x1 x2 xs0).1, y ∈ pc.1.set :=
  View.cover_of_tiledL (kernelRun0_B (F := F) c i arg3 harg3 arg4 harg4 arg5 harg5 arg6 harg6 arg7 harg7 hc0 hc1 x0 x1 x2 xs0).1 S1024x1024.size (by sl_kernel_rfl) y

/-- What the middle step leaves in the accumulator. -/
def sout0_B_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i) (x0 : Vec F S1024x1024 .bf16) (x1 : Vec F S1024x1024 .bf16) (x2 : Vec F S1024 .f32) (xs0 : Vec F S1024x1024 .f32) : Vec F S1024x1024 .f32 :=
  VS0_0.read (Elt F) (VS0_0.writes (Elt F) VS0_0.junk (kernelRun0_B (F := F) c i arg3 harg3 arg4 harg4 arg5 harg5 arg6 harg6 arg7 harg7 hc0 hc1 x0 x1 x2 xs0).1)

theorem cover0_C_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i) (x0 : Vec F S1024x1024 .bf16) (x1 : Vec F S1024x1024 .bf16) (x2 : Vec F S1024 .f32) (xs0 : Vec F S1024x1024 .f32) (y : S1024x1024.Idx) :
    ∃ pc ∈ (kernelRun0_C (F := F) c i arg3 harg3 arg4 harg4 arg5 harg5 arg6 harg6 arg7 harg7 hc0 hc1 x0 x1 x2 xs0).1, y ∈ pc.1.set :=
  View.cover_of_tiledL (kernelRun0_C (F := F) c i arg3 harg3 arg4 harg4 arg5 harg5 arg6 harg6 arg7 harg7 hc0 hc1 x0 x1 x2 xs0).1 S1024x1024.size (by sl_kernel_rfl) y

theorem scover0_C_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i) (x0 : Vec F S1024x1024 .bf16) (x1 : Vec F S1024x1024 .bf16) (x2 : Vec F S1024 .f32) (xs0 : Vec F S1024x1024 .f32) (y : S1024x1024.Idx) :
    ∃ pc ∈ (kernelRun0_C (F := F) c i arg3 harg3 arg4 harg4 arg5 harg5 arg6 harg6 arg7 harg7 hc0 hc1 x0 x1 x2 xs0).2.1, y ∈ pc.1.set :=
  View.cover_of_tiledL (kernelRun0_C (F := F) c i arg3 harg3 arg4 harg4 arg5 harg5 arg6 harg6 arg7 harg7 hc0 hc1 x0 x1 x2 xs0).2.1 S1024x1024.size (by sl_kernel_rfl) y

/-- What the last step stores into the output block. -/
def out0_C_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i) (x0 : Vec F S1024x1024 .bf16) (x1 : Vec F S1024x1024 .bf16) (x2 : Vec F S1024 .f32) (xs0 : Vec F S1024x1024 .f32) : Vec F S1024x1024 .f32 :=
  VO0_3.read (Elt F) (VO0_3.writes (Elt F) VO0_3.junk (kernelRun0_C (F := F) c i arg3 harg3 arg4 harg4 arg5 harg5 arg6 harg6 arg7 harg7 hc0 hc1 x0 x1 x2 xs0).1)

/-- What the last step leaves in the accumulator. -/
def sout0_C_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i) (x0 : Vec F S1024x1024 .bf16) (x1 : Vec F S1024x1024 .bf16) (x2 : Vec F S1024 .f32) (xs0 : Vec F S1024x1024 .f32) : Vec F S1024x1024 .f32 :=
  VS0_0.read (Elt F) (VS0_0.writes (Elt F) VS0_0.junk (kernelRun0_C (F := F) c i arg3 harg3 arg4 harg4 arg5 harg5 arg6 harg6 arg7 harg7 hc0 hc1 x0 x1 x2 xs0).2.1)

/-- Contents nothing consults: the output buffer where the window is idle, the accumulator before the first point. -/
def unread : Vec F S1024x1024 .f32 := VO0_3.read (Elt F) VO0_3.junk

section Region
variable (V : (c : Dev nD) → (b : Ref sig .tc) → Buf (Elt F) ((c : Thread nD τ).loc b))

/-! ## The accumulation -/

/-- One point: the output block's buffer and the accumulator after the body at `t`, from what the accumulator held
    before it. -/
def step0 (c : Dev nD) (t : Fin cfg0.N) (prev : Vec F S1024x1024 .f32) : Vec F S1024x1024 .f32 × Vec F S1024x1024 .f32 :=
  if h0 : t.val % 3 = 0 then
    (unread, sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => absurd ((hcond0_1 t).mp h) (by omega)) (iblk0 V c 0 t) (iblk0 V c 1 t) (iblk0 V c 2 t))
  else if h1 : t.val % 3 = 2 then
    (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) prev,
     sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) prev)
  else
    (unread, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) prev)

/-- The output block's buffer and the accumulator after the body at position `n`. -/
def outsAt0 (c : Dev nD) : (n : ℕ) → n < cfg0.N → Vec F S1024x1024 .f32 × Vec F S1024x1024 .f32
  | 0, hn => step0 V c ⟨0, hn⟩ unread
  | n + 1, hn => step0 V c ⟨n + 1, hn⟩ (outsAt0 c n (Nat.lt_of_succ_lt hn)).2

/-- What the accumulator holds when point `t` starts. -/
def prevAt0 (c : Dev nD) (t : Fin cfg0.N) : Vec F S1024x1024 .f32 :=
  if hz : t.val = 0 then unread else (outsAt0 V c (t.val - 1) (Nat.lt_of_le_of_lt (Nat.sub_le _ _) t.isLt)).2

theorem outsAt0_eq (c : Dev nD) (t : Fin cfg0.N) : outsAt0 V c t.val t.isLt = step0 V c t (prevAt0 V c t) := by
  obtain ⟨n, hn⟩ := t
  cases n with
  | zero => rfl
  | succ n => rfl

theorem prevAt0_pos (c : Dev nD) (t : Fin cfg0.N) (hz : t.val ≠ 0) :
    prevAt0 V c t = (outsAt0 V c (t.val - 1) (Nat.lt_of_le_of_lt (Nat.sub_le _ _) t.isLt)).2 := dif_neg hz

theorem step0_A (c : Dev nD) (t : Fin cfg0.N) (prev) (h0 : t.val % 3 = 0) :
    step0 V c t prev = (unread, sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => absurd ((hcond0_1 t).mp h) (by omega)) (iblk0 V c 0 t) (iblk0 V c 1 t) (iblk0 V c 2 t)) := dif_pos h0

theorem step0_C (c : Dev nD) (t : Fin cfg0.N) (prev) (h0 : ¬t.val % 3 = 0) (h1 : t.val % 3 = 2) :
    step0 V c t prev = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) prev,
     sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) prev) := (dif_neg h0).trans (dif_pos h1)

theorem step0_B (c : Dev nD) (t : Fin cfg0.N) (prev) (h0 : ¬t.val % 3 = 0) (h1 : ¬t.val % 3 = 2) :
    step0 V c t prev = (unread, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) prev) := (dif_neg h0).trans (dif_neg h1)

/-! ## The invariant and the proof data -/

/-- The region invariant before position `n`: before the first point the class's (every scoped buffer at anything);
    afterwards the accumulator at what the point before left, the other scoped buffers at anything, and the generator
    register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restOther (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ restOther (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ restOther (F := F) c) ∗ (∃ r, prngReg c r)) := by
  cases n with
  | zero => exact absurd rfl hz
  | succ n => rfl

/-- The proof data of the matmul pipeline on core `c`: the arrays as the region finds them; after the body each
    operand's buffer at its block and the output's at the accumulation's first component; the invariant above;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 8000000 in
/-- The body at any point. The operands' memrefs hold their blocks; the point's position mod 3 says which case it is
    in; the invariant hands the body the accumulator at what the point before left (at anything at the first point)
    and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 240 := lt_of_lt_of_eq t.isLt (show cfg0.N = 240 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [outsAt0_eq V c t]
  by_cases h0 : t.val % 3 = 0
  · have hc0 : cond0_0 (grid0.coords t) := (hcond0_0 t).mpr h0
    have hc1 : ¬cond0_1 (grid0.coords t) := fun h => absurd ((hcond0_1 t).mp h) (by omega)
    rw [Dat.leavesExact_idle (dat0 V c) 3 t (idleAt0_3 t hc1) (noFlush0_3 t hc1)]
    rw [step0_A V c t _ h0]
    unfold sout0_A_0; (try dsimp only)
    by_cases hz : t.val = 0
    · rw [PhiS_castSucc V c t, PhiS_zero V c _ _ hz, PhiA0_eq]
      iintro ⟨⟨⟨HS0, HR⟩, Hg⟩, Ho, ⟨%d0, H0⟩, ⟨%d1, H1⟩, ⟨%d2, H2⟩, ⟨%d3, H3⟩⟩
      iapply ((kernelRun0_A c (grid0.coords t) (ms0_0 t) (hs0_0 t) (ms0_1 t) (hs0_1 t) (ms0_2 t) (hs0_2 t) (ms0_3 t) (hs0_3 t) scM0_0 (Memref.isWhole_whole _) hc0 hc1 (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun0_A c (grid0.coords t) (ms0_0 t) (hs0_0 t) (ms0_1 t) (hs0_1 t) (ms0_2 t) (hs0_2 t) (ms0_3 t) (hs0_3 t) scM0_0 (Memref.isWhole_whole _) hc0 hc1 (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hnc0 : ¬cond0_0 (grid0.coords t) := fun h => h0 ((hcond0_0 t).mp h)
    rw [prevAt0_pos V c t hz]
    by_cases h1 : t.val % 3 = 2
    · have hc1 : cond0_1 (grid0.coords t) := (hcond0_1 t).mpr h1
      rw [show (dat0 V c).leavesExact 3 t = owns (c : Thread nD τ) (ms0_3 t) fullShare ((dat0 V c).after 3 t) from by
        unfold Dat.leavesExact; rw [liveAt0_3 t hc1], after0_3, outsAt0_eq V c t, prevAt0_pos V c t hz]
      rw [step0_C V c t _ h0 h1]
      unfold out0_C_3 sout0_C_0; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun0_C c (grid0.coords t) (ms0_0 t) (hs0_0 t) (ms0_1 t) (hs0_1 t) (ms0_2 t) (hs0_2 t) (ms0_3 t) (hs0_3 t) scM0_0 (Memref.isWhole_whole _) hnc0 hc1 (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · have hc1 : ¬cond0_1 (grid0.coords t) := fun h => h1 ((hcond0_1 t).mp h)
      rw [Dat.leavesExact_idle (dat0 V c) 3 t (idleAt0_3 t hc1) (noFlush0_3 t hc1)]
      rw [step0_B V c t _ h0 h1]
      unfold sout0_B_0; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun0_B c (grid0.coords t) (ms0_0 t) (hs0_0 t) (ms0_1 t) (hs0_1 t) (ms0_2 t) (hs0_2 t) (ms0_3 t) (hs0_3 t) scM0_0 (Memref.isWhole_whole _) hnc0 hc1 (iblk0 V c 0 t) (iblk0 V c 1 t) (iblk0 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 240 := N_0; omega), PhiA0_eq]
  iintro ⟨⟨HS0, HR⟩, Hg⟩
  isplitl [HS0 HR]
  · isplitl [HS0]
    · iexists _; iexact HS0
    iexact HR
  iexact Hg

end Region

end Cert.KernelIdeal.Mm

end
-- ==== Proof.EpiFrameIdeal.lean ====
/- The gate region: 64 grid points, point t working on rows 256·t … 256·t + 255. At each point the body reads one
   block of the pre-activation array (256 × 5120) and one of the carried-cell table (256 × 2048), and writes one block
   (256 × 1024) of the new hidden state and one of the new cell state; each of the two writes is a single store over
   the whole block, so what a block holds afterwards is a function of the two blocks read and of nothing else (not of
   what the output block held before, although the body reads it). This module states that, for arbitrary contents
   `V` of the core's buffers at the region's entry and for any float model: the blocks, the two functions, the body's
   specification as a separation-logic triple, and the per-point obligation of the pipeline rule. -/
import proofs.«146003_j63513976373582_1_alg».proof.Proof.Gen.KernelIdeal.Launch
import proofs.«146003_j63513976373582_1_alg».proof.Proof.Gen.KernelIdeal.Skeleton
import proofs.«146003_j63513976373582_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Epi

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers at the region's entry
variable (V : (c : Dev nD) → (b : Ref sig .tc) → Buf (Elt F) ((c : Thread nD τ).loc b))

/-! ## The windows' blocks -/

/-- Block `t` of window `w`'s array, as a function on the block's own indices: the array's entry contents read through
    the block's rectangle. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Before the body runs at point `t`, the buffer the pre-activation window is on holds block `t` of the array: the
    block moves at every point and every block lies inside the array, and the body does not change an input buffer. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the carried-cell window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes through: each is its whole buffer -/

abbrev r1_0 : Rect S256x5120 := Rect.unit (s := S256x5120) ![0, 0] S256x5120.size inb_S256x5120_S256x5120_0_0
abbrev r1_1 : Rect S256x2048 := Rect.unit (s := S256x2048) ![0, 0] S256x2048.size inb_S256x2048_S256x2048_0_0
abbrev r1_2 : Rect S256x1024 := Rect.unit (s := S256x1024) ![0, 0] S256x1024.size inb_S256x1024_S256x1024_0_0

/-! ## What the body leaves in each output window's buffer -/

/-- What the hidden-state block holds after the body, as a function of the two blocks read: the one value stored,
    laid over the whole block. -/
def out1_2 (x0 : Vec F S256x5120 .f32) (x1 : Vec F S256x2048 .f32) : Vec F S256x1024 .f32 :=
  View.canon [⟨r1_2, k1_pay3 (View.ld x0 r1_0) (View.ld x1 r1_1)⟩]

/-- What the cell-state block holds after the body, likewise. -/
def out1_3 (x0 : Vec F S256x5120 .f32) (x1 : Vec F S256x2048 .f32) : Vec F S256x1024 .f32 :=
  View.canon [⟨r1_2, k1_pay2 (View.ld x0 r1_0) (View.ld x1 r1_1)⟩]

/-- A rectangle that is the whole buffer contains every index of it. -/
theorem cover1_2 (p0 : Vec F S256x1024 .f32) (y : S256x1024.Idx) :
    ∃ pc ∈ ([⟨r1_2, p0⟩] : List (View.Piece (Elt F) S256x1024 .f32)), y ∈ pc.1.set :=
  View.cover_of_tiled [⟨r1_2, p0⟩] S256x1024.size (by rfl) y

/-- The whole-buffer rectangle starts at the origin. -/
theorem hz : (![0, 0] : Fin 2 → Nat) = fun _ => 0 := funext fun a => by fin_cases a <;> rfl

/-- A store over the whole block leaves exactly the stored value, and a read through the whole block is the block:
    the hidden-state block ends at the stored value computed from the two blocks read. -/
theorem out1_2_eq (x0 : Vec F S256x5120 .f32) (x1 : Vec F S256x2048 .f32) : out1_2 (F := F) x0 x1 = k1_pay3 x0 x1 := by
  unfold out1_2
  rw [View.canon_unit_zero hz]
  rw [View.ld_unit_zero (S := S256x5120) hz, View.ld_unit_zero (S := S256x2048) hz]

/-- The same for the cell-state block. -/
theorem out1_3_eq (x0 : Vec F S256x5120 .f32) (x1 : Vec F S256x2048 .f32) : out1_3 (F := F) x0 x1 = k1_pay2 x0 x1 := by
  unfold out1_3
  rw [View.canon_unit_zero hz]
  rw [View.ld_unit_zero (S := S256x5120) hz, View.ld_unit_zero (S := S256x2048) hz]

/-! ## The body's triple -/

set_option maxHeartbeats 1000000 in
/-- The body's specification: owning the two input buffers at contents `x0`, `x1` and the two output buffers at
    any contents, it terminates without fault, leaves the inputs as they were and the outputs at the two functions of
    `x0` and `x1` above. -/
theorem sound_kernel1 (c : Dev nD) (E : Set ℕ) (i : grid1.Coords) (arg1 : Memref sig .tc .vmem S256x5120 .f32) (harg1 : arg1.IsWhole) (arg2 : Memref sig .tc .vmem S256x2048 .f32) (harg2 : arg2.IsWhole) (arg3 : Memref sig .tc .vmem S256x1024 .f32) (harg3 : arg3.IsWhole) (arg4 : Memref sig .tc .vmem S256x1024 .f32) (harg4 : arg4.IsWhole)
    (x0 : Vec F S256x5120 .f32) (x1 : Vec F S256x2048 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out1_2 x0 x1) ∗ owns (c : Thread nD τ) arg4 fullShare (out1_3 x0 x1)) -∗ K ⟨⟩))
      ⊢ wp frame (wpE (defs₀ (F := F)) Variants.none c none) E (cc1__epilogue_kernel i arg1 harg1 arg2 harg2 arg3 harg3 arg4 harg4) K := by
  simp only [cc1__epilogue_kernel_eq_skeleton]; unfold cc1__epilogue_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _)
  iexists _; isplitr
  swap; · iexact H3
  ipureintro
  exact View.read_writes_eq_canon _ _ _ (cover1_2 _)

/-! ## The pipeline's proof data -/

/-- What the pipeline rule is told about the region on core `c`: the four arrays start at `V`; after the body at point
    `t` the input buffers hold block `t` of their arrays and the output buffers the two functions of those blocks; the
    invariant carried from point to point is the ownership of everything the body does not touch; the core owes no
    signal to any other. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
  Φ _ := Pipeline.ΦA spec1 c
  q _ := fullShare
  owed _ := 0

/-- The arrays start at the entry contents. -/
theorem A_eq1 (c : Dev nD) (w : Fin cfg1.W) : (dat1 V c).A w = V c (Pipeline.arrRef spec1 w) := by
  dsimp only [dat1]

/-- What each buffer holds after the body at point `t`, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]

/-- Before the body at point `t` each input buffer holds block `t` of its array. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- The resources the body starts from at point `t`: the invariant, the (empty) debt, and the four buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and those it must end with. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body meets that at every point: the input buffers hold their blocks, so its specification applies with those
    blocks as the contents read; the invariant and the debt are framed around it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The per-point obligation of the pipeline rule. -/
theorem body_obligation1 (c : Dev nD) : BodyObligation (dat1 (F := F) V c) (defs₀ (F := F)) Variants.none () Set.univ := fun t => by
  rw [bigSep_W1, bigSep_W1]
  exact sound_body1 V c t

end Cert.KernelIdeal.Epi

end
-- ==== Proof.RegionsIdeal.lean ====
/-
  The whole run of the kernel's program: the host operations that lay out the operands, the matmul region, the
  gate region. Between two items every unscoped buffer of a core is held at a named valuation: the launch memory,
  then the host operations' fold over it, then that with the matmul's arrays at what its pipeline leaves (the
  operands as entered, the product's array at its write-backs folded), then that with the gate region's arrays
  likewise. Each region is a segment whose pipeline invariant takes the scoped buffers and the generator register in
  and gives them back (the matmul's holds its accumulator at named contents in between); nothing is owed to any
  other core. At the end every unscoped buffer is read off the last valuation: the two results at what the gate
  region's pipeline leaves, every argument at its launch contents.
-/
import proofs.«146003_j63513976373582_1_alg».proof.Proof.Mm0FrameIdeal
import proofs.«146003_j63513976373582_1_alg».proof.Proof.EpiFrameIdeal
import proofs.«146003_j63513976373582_1_alg».proof.Proof.Gen.KernelIdeal.Regions

set_option maxRecDepth 16384

noncomputable section

namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- After the host operations (the matmul region's entry), read at the TensorCore's references. -/
abbrev VV1 : (c : Dev nD) → (b : Ref sig .tc) → Buf (Elt F) ((c : Thread nD τ).loc b) := fun c b => V1 m c b

/-- At the matmul region's exit. -/
def W2 (c : Dev nD) : Valuation τ sig (Elt F) :=
  Pipeline.withArrays spec0 c (V1 m c) fun w => (Mm.dat0 (VV1 m) c).arrAt w cfg0.N
theorem W2_arr (c : Dev nD) (w : Fin cfg0.W) :
    W2 m c (Proc.devRef .tc (Pipeline.arrRef spec0 w)) = (Mm.dat0 (VV1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = V1 m c (Proc.devRef .tc b) := by
  unfold W2; exact Pipeline.withArrays_of_ne spec0 c _ _ b hb
abbrev VV2 : (c : Dev nD) → (b : Ref sig .tc) → Buf (Elt F) ((c : Thread nD τ).loc b) := fun c b => W2 m c b
theorem hF0 (c : Dev nD) (w : Fin cfg0.W) : (Mm.dat0 (VV1 m) c).arrAt w cfg0.N = VV2 m c (Pipeline.arrRef spec0 w) :=
  (W2_arr m c w).symm
theorem hrest0 (c : Dev nD) : ∀ b, b ∉ Finset.univ.image (Pipeline.arrRef spec0) → VV2 m c b = VV1 m c b :=
  fun b hb => W2_of_ne m c b fun w e => hb (Finset.mem_image.mpr ⟨w, Finset.mem_univ _, e⟩)

/-- At the gate region's exit. -/
def W3 (c : Dev nD) : Valuation τ sig (Elt F) :=
  Pipeline.withArrays spec1 c (W2 m c) fun w => (Epi.dat1 (VV2 m) c).arrAt w cfg1.N
theorem W3_arr (c : Dev nD) (w : Fin cfg1.W) :
    W3 m c (Proc.devRef .tc (Pipeline.arrRef spec1 w)) = (Epi.dat1 (VV2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev VV3 : (c : Dev nD) → (b : Ref sig .tc) → Buf (Elt F) ((c : Thread nD τ).loc b) := fun c b => W3 m c b
theorem hF1 (c : Dev nD) (w : Fin cfg1.W) : (Epi.dat1 (VV2 m) c).arrAt w cfg1.N = VV3 m c (Pipeline.arrRef spec1 w) :=
  (W3_arr m c w).symm
theorem hrest1 (c : Dev nD) : ∀ b, b ∉ Finset.univ.image (Pipeline.arrRef spec1) → VV3 m c b = VV2 m c b :=
  fun b hb => W3_of_ne m c b fun w e => hb (Finset.mem_image.mpr ⟨w, Finset.mem_univ _, e⟩)

/-! ### No item writes an argument; the results are the gate region's two output arrays -/

theorem W3_main_arg0 (c : Dev nD) : W3 m c (Proc.devRef .tc main_arg0) = m ((c : Thread nD τ).loc main_arg0) :=
  (W3_of_ne m c main_arg0 (by decide)).trans <| (W2_of_ne m c main_arg0 (by decide)).trans <| (V1_of m c main_arg0 (by decide)).trans rfl
theorem W3_main_arg1 (c : Dev nD) : W3 m c (Proc.devRef .tc main_arg1) = m ((c : Thread nD τ).loc main_arg1) :=
  (W3_of_ne m c main_arg1 (by decide)).trans <| (W2_of_ne m c main_arg1 (by decide)).trans <| (V1_of m c main_arg1 (by decide)).trans rfl
theorem W3_main_arg2 (c : Dev nD) : W3 m c (Proc.devRef .tc main_arg2) = m ((c : Thread nD τ).loc main_arg2) :=
  (W3_of_ne m c main_arg2 (by decide)).trans <| (W2_of_ne m c main_arg2 (by decide)).trans <| (V1_of m c main_arg2 (by decide)).trans rfl
theorem W3_main_arg3 (c : Dev nD) : W3 m c (Proc.devRef .tc main_arg3) = m ((c : Thread nD τ).loc main_arg3) :=
  (W3_of_ne m c main_arg3 (by decide)).trans <| (W2_of_ne m c main_arg3 (by decide)).trans <| (V1_of m c main_arg3 (by decide)).trans rfl
theorem W3_main_arg4 (c : Dev nD) : W3 m c (Proc.devRef .tc main_arg4) = m ((c : Thread nD τ).loc main_arg4) :=
  (W3_of_ne m c main_arg4 (by decide)).trans <| (W2_of_ne m c main_arg4 (by decide)).trans <| (V1_of m c main_arg4 (by decide)).trans rfl
theorem W3_main_arg5 (c : Dev nD) : W3 m c (Proc.devRef .tc main_arg5) = m ((c : Thread nD τ).loc main_arg5) :=
  (W3_of_ne m c main_arg5 (by decide)).trans <| (W2_of_ne m c main_arg5 (by decide)).trans <| (V1_of m c main_arg5 (by decide)).trans rfl
theorem W3_main_arg6 (c : Dev nD) : W3 m c (Proc.devRef .tc main_arg6) = m ((c : Thread nD τ).loc main_arg6) :=
  (W3_of_ne m c main_arg6 (by decide)).trans <| (W2_of_ne m c main_arg6 (by decide)).trans <| (V1_of m c main_arg6 (by decide)).trans rfl
theorem W3_main_arg7 (c : Dev nD) : W3 m c (Proc.devRef .tc main_arg7) = m ((c : Thread nD τ).loc main_arg7) :=
  (W3_of_ne m c main_arg7 (by decide)).trans <| (W2_of_ne m c main_arg7 (by decide)).trans <| (V1_of m c main_arg7 (by decide)).trans rfl
theorem W3_main_arg8 (c : Dev nD) : W3 m c (Proc.devRef .tc main_arg8) = m ((c : Thread nD τ).loc main_arg8) :=
  (W3_of_ne m c main_arg8 (by decide)).trans <| (W2_of_ne m c main_arg8 (by decide)).trans <| (V1_of m c main_arg8 (by decide)).trans rfl
theorem W3_main_arg9 (c : Dev nD) : W3 m c (Proc.devRef .tc main_arg9) = m ((c : Thread nD τ).loc main_arg9) :=
  (W3_of_ne m c main_arg9 (by decide)).trans <| (W2_of_ne m c main_arg9 (by decide)).trans <| (V1_of m c main_arg9 (by decide)).trans rfl
theorem W3_main_arg10 (c : Dev nD) : W3 m c (Proc.devRef .tc main_arg10) = m ((c : Thread nD τ).loc main_arg10) :=
  (W3_of_ne m c main_arg10 (by decide)).trans <| (W2_of_ne m c main_arg10 (by decide)).trans <| (V1_of m c main_arg10 (by decide)).trans rfl
theorem W3_main_arg11 (c : Dev nD) : W3 m c (Proc.devRef .tc main_arg11) = m ((c : Thread nD τ).loc main_arg11) :=
  (W3_of_ne m c main_arg11 (by decide)).trans <| (W2_of_ne m c main_arg11 (by decide)).trans <| (V1_of m c main_arg11 (by decide)).trans rfl
theorem W3_main_arg12 (c : Dev nD) : W3 m c (Proc.devRef .tc main_arg12) = m ((c : Thread nD τ).loc main_arg12) :=
  (W3_of_ne m c main_arg12 (by decide)).trans <| (W2_of_ne m c main_arg12 (by decide)).trans <| (V1_of m c main_arg12 (by decide)).trans rfl

theorem W3_main_v37_0 (c : Dev nD) : W3 m c (Proc.devRef .tc main_v37_0) = (Epi.dat1 (VV2 m) c).arrAt 2 cfg1.N := W3_arr m c 2
theorem W3_main_v37_1 (c : Dev nD) : W3 m c (Proc.devRef .tc main_v37_1) = (Epi.dat1 (VV2 m) c).arrAt 3 cfg1.N := W3_arr m c 3

/-! ## The proof data family and the thread state -/

def pdats : (p : Fin 2) → (c : Dev nD) → Dat τ (Elt F) Unit ℕ (UR sig nD τ) ℕ (Pipeline.pin (pcfgs (F := F)) adm p) c
  | ⟨0, _⟩ => fun c => Mm.dat0 (VV1 m) c
  | ⟨1, _⟩ => fun c => Epi.dat1 (VV2 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The matmul region over the thread state. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Mm.body_obligation0 (VV1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (VV1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec0 c ⊢ (pdats m 0 c).Φ 0 from Mm.hin0 (VV1 m) c)
    unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Mm.hout0 (VV1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VV1 m c) (VV2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gate region over the thread state. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Epi.body_obligation1 (VV2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VV2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VV2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VV2 m c) (VV3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (V0 m)),
    .region (reg0 m),
    .region (reg1 m) ]
theorem main_run (c : Dev nD) : main (F := F) c = Pipeline.Seg.run (segs m) := (main_chain c).trans (by chain_rfl)

set_option backward.isDefEq.respectTransparency.types false in
/-- From any memory with zero counters every weakly fair execution of @main terminates, nothing faulting, and
    every final state holds the two results at what the gate region's pipeline leaves in its output arrays and every
    argument array as launched. -/
theorem run_all : θ_run defs (onTc (τ := τ) (main (F := F))) ⟨m, fun _ => 0, ρ⟩ (fun r => ∀ c : Dev nD,
      r.2.mem ((c.tc : Thread nD τ).loc main_v37_0) = (Epi.dat1 (VV2 m) c).arrAt 2 cfg1.N
      ∧ r.2.mem ((c.tc : Thread nD τ).loc main_v37_1) = (Epi.dat1 (VV2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v37_0 (by decide))).trans (W3_main_v37_0 m c),
        (h c _ (mem_uc main_v37_1 (by decide))).trans (W3_main_v37_1 m c),
        (h c _ (mem_uc main_arg0 (by decide))).trans (W3_main_arg0 m c),
        (h c _ (mem_uc main_arg1 (by decide))).trans (W3_main_arg1 m c),
        (h c _ (mem_uc main_arg2 (by decide))).trans (W3_main_arg2 m c),
        (h c _ (mem_uc main_arg3 (by decide))).trans (W3_main_arg3 m c),
        (h c _ (mem_uc main_arg4 (by decide))).trans (W3_main_arg4 m c),
        (h c _ (mem_uc main_arg5 (by decide))).trans (W3_main_arg5 m c),
        (h c _ (mem_uc main_arg6 (by decide))).trans (W3_main_arg6 m c),
        (h c _ (mem_uc main_arg7 (by decide))).trans (W3_main_arg7 m c),
        (h c _ (mem_uc main_arg8 (by decide))).trans (W3_main_arg8 m c),
        (h c _ (mem_uc main_arg9 (by decide))).trans (W3_main_arg9 m c),
        (h c _ (mem_uc main_arg10 (by decide))).trans (W3_main_arg10 m c),
        (h c _ (mem_uc main_arg11 (by decide))).trans (W3_main_arg11 m c),
        (h c _ (mem_uc main_arg12 (by decide))).trans (W3_main_arg12 m c)⟩)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => (h c).2.2) (run_all m ρ)

end Cert.KernelIdeal.Regs

end
-- ==== Proof.Spec.lean ====
/-
  The long short-term memory cell with a slot table, as ONE function of its argument arrays, index by index.

  A batch row r reads the input x[r, ·] (1024 wide) and the two-child hidden table hf[r, ·] and cell table cf[r, ·]
  (2048 wide: the two children's states side by side). Four contractions give the pre-activations

    iou[r, n]  = (Σ_k x[r, k] · Wx[n, k]  +  Σ_k hf[r, k] · Wh[n, k])  +  b[n]          n < 3072  (input, output, update gates)
    fpre[r, n] = (Σ_k hf[r, k] · Wfh[n, k]  +  bf[n])  +  Σ_k x[r, k] · Wfx[n mod 1024, k]   n < 2048  (one forget gate per child)

  and the new states are

    cNew[r, j] = σ(iou[r, j]) · tanh(iou[r, j + 2048])  +  (σ(fpre[r, j]) · cf[r, j]  +  σ(fpre[r, j + 1024]) · cf[r, j + 1024])
    hNew[r, j] = σ(iou[r, j + 1024]) · tanh(cNew[r, j])

  with σ x = 1 / (1 + exp (−x)) on the extended reals. Sums and products are those of the extended reals; the
  groupings are written exactly as above and no law beyond them is used here.
-/
import Idealize.ShloMosaic.PureOps.Ideal
import Idealize.ShloMosaic.Lib.ValueIdx

noncomputable section

namespace Cert.Spec

open Idealize.ShloMosaic Idealize.ShloMosaic.ValueIdx
open scoped BigOperators

/-! ## The literal shapes of the arrays -/

abbrev A16384x1024 : Shape := ⟨2, ![16384, 1024]⟩
abbrev A16384x2048 : Shape := ⟨2, ![16384, 2048]⟩
abbrev A3072x1024 : Shape := ⟨2, ![3072, 1024]⟩
abbrev A3072x2048 : Shape := ⟨2, ![3072, 2048]⟩
abbrev A1024x1024 : Shape := ⟨2, ![1024, 1024]⟩
abbrev A2048x2048 : Shape := ⟨2, ![2048, 2048]⟩
abbrev A3072 : Shape := ⟨1, ![3072]⟩
abbrev A2048 : Shape := ⟨1, ![2048]⟩

/-! ## The pre-activations -/

/-- The input / output / update pre-activation of row `r`, column `n < 3072`: the input's contraction with `Wx`'s row `n`
    plus the hidden table's contraction with `Wh`'s row `n`, and then the bias. -/
def iou (x : A16384x1024.Idx → EReal) (hf : A16384x2048.Idx → EReal)
    (Wx : A3072x1024.Idx → EReal) (Wh : A3072x2048.Idx → EReal) (b : A3072.Idx → EReal)
    (r : Fin 16384) (n : Fin 3072) : EReal :=
  (∑ k : Fin 1024, x (ix2 r k) * Wx (ix2 n k) + ∑ k : Fin 2048, hf (ix2 r k) * Wh (ix2 n k)) + b (ix1 n)

/-- The forget pre-activation of row `r`, column `n < 2048` (child `n / 1024`, unit `n mod 1024`): the hidden table's
    contraction with `Wfh`'s row `n` plus the bias, and then the input's contraction with `Wfx`'s row `n mod 1024`
    (the input's term is the same for both children). -/
def fpre (x : A16384x1024.Idx → EReal) (hf : A16384x2048.Idx → EReal)
    (Wfx : A1024x1024.Idx → EReal) (Wfh : A2048x2048.Idx → EReal) (bf : A2048.Idx → EReal)
    (r : Fin 16384) (n : Fin 2048) : EReal :=
  (∑ k : Fin 2048, hf (ix2 r k) * Wfh (ix2 n k) + bf (ix1 n))
    + ∑ k : Fin 1024, x (ix2 r k) * Wfx (ix2 (⟨n.val % 1024, Nat.mod_lt _ (by decide)⟩ : Fin 1024) k)

/-! ## The new states -/

/-- The new cell state: input gate times update, plus each child's forget gate times that child's cell state. -/
def cNew (x : A16384x1024.Idx → EReal) (hf cf : A16384x2048.Idx → EReal)
    (Wx : A3072x1024.Idx → EReal) (Wh : A3072x2048.Idx → EReal) (b : A3072.Idx → EReal)
    (Wfx : A1024x1024.Idx → EReal) (Wfh : A2048x2048.Idx → EReal) (bf : A2048.Idx → EReal)
    (r : Fin 16384) (j : Fin 1024) : EReal :=
  Ideal.logistic (iou x hf Wx Wh b r ⟨j.val, by have := j.isLt; omega⟩)
      * Ideal.tanh (iou x hf Wx Wh b r ⟨j.val + 2048, by have := j.isLt; omega⟩)
    + (Ideal.logistic (fpre x hf Wfx Wfh bf r ⟨j.val, by have := j.isLt; omega⟩)
          * cf (ix2 r (⟨j.val, by have := j.isLt; omega⟩ : Fin 2048))
        + Ideal.logistic (fpre x hf Wfx Wfh bf r ⟨j.val + 1024, by have := j.isLt; omega⟩)
          * cf (ix2 r (⟨j.val + 1024, by have := j.isLt; omega⟩ : Fin 2048)))

/-- The new hidden state: output gate times the hyperbolic tangent of the new cell state. -/
def hNew (x : A16384x1024.Idx → EReal) (hf cf : A16384x2048.Idx → EReal)
    (Wx : A3072x1024.Idx → EReal) (Wh : A3072x2048.Idx → EReal) (b : A3072.Idx → EReal)
    (Wfx : A1024x1024.Idx → EReal) (Wfh : A2048x2048.Idx → EReal) (bf : A2048.Idx → EReal)
    (r : Fin 16384) (j : Fin 1024) : EReal :=
  Ideal.logistic (iou x hf Wx Wh b r ⟨j.val + 1024, by have := j.isLt; omega⟩)
    * Ideal.tanh (cNew x hf cf Wx Wh b Wfx Wfh bf r j)

/-! ## The new states as arrays -/

/-- The new hidden state as an array over `[16384, 1024]`. -/
def hNewArr (x : A16384x1024.Idx → EReal) (hf cf : A16384x2048.Idx → EReal)
    (Wx : A3072x1024.Idx → EReal) (Wh : A3072x2048.Idx → EReal) (b : A3072.Idx → EReal)
    (Wfx : A1024x1024.Idx → EReal) (Wfh : A2048x2048.Idx → EReal) (bf : A2048.Idx → EReal) :
    A16384x1024.Idx → EReal :=
  fun i => hNew x hf cf Wx Wh b Wfx Wfh bf (i 0) (i 1)

/-- The new cell state as an array over `[16384, 1024]`. -/
def cNewArr (x : A16384x1024.Idx → EReal) (hf cf : A16384x2048.Idx → EReal)
    (Wx : A3072x1024.Idx → EReal) (Wh : A3072x2048.Idx → EReal) (b : A3072.Idx → EReal)
    (Wfx : A1024x1024.Idx → EReal) (Wfh : A2048x2048.Idx → EReal) (bf : A2048.Idx → EReal) :
    A16384x1024.Idx → EReal :=
  fun i => cNew x hf cf Wx Wh b Wfx Wfh bf (i 0) (i 1)

theorem hNewArr_ix2 (x : A16384x1024.Idx → EReal) (hf cf : A16384x2048.Idx → EReal)
    (Wx : A3072x1024.Idx → EReal) (Wh : A3072x2048.Idx → EReal) (b : A3072.Idx → EReal)
    (Wfx : A1024x1024.Idx → EReal) (Wfh : A2048x2048.Idx → EReal) (bf : A2048.Idx → EReal)
    (r : Fin 16384) (j : Fin 1024) :
    hNewArr x hf cf Wx Wh b Wfx Wfh bf (ix2 r j) = hNew x hf cf Wx Wh b Wfx Wfh bf r j := rfl

theorem cNewArr_ix2 (x : A16384x1024.Idx → EReal) (hf cf : A16384x2048.Idx → EReal)
    (Wx : A3072x1024.Idx → EReal) (Wh : A3072x2048.Idx → EReal) (b : A3072.Idx → EReal)
    (Wfx : A1024x1024.Idx → EReal) (Wfh : A2048x2048.Idx → EReal) (bf : A2048.Idx → EReal)
    (r : Fin 16384) (j : Fin 1024) :
    cNewArr x hf cf Wx Wh b Wfx Wfh bf (ix2 r j) = cNew x hf cf Wx Wh b Wfx Wfh bf r j := rfl

end Cert.Spec

end
-- ==== Proof.RefSpec.lean ====
/-
  The reference program, read index by index, computes the cell of `Spec.lean`.

  The reference forms the two pre-activation arrays by four contractions, then the gates. Read at an index
  (row `r`, column `n`), its stages are exactly the sums of `Cert.Spec.iou` and `Cert.Spec.fpre`: a transposed weight
  read at `(k, n)` is the weight at `(n, k)`; the input's forget term, computed once per row and repeated for the
  two children through a reshape [16384, 1024] → [1, 16384, 1, 1024], a broadcast to [1, 16384, 2, 1024] and a reshape
  to [16384, 2048], is read at column `n mod 1024`; a slice of the wide array at offset `o` reads column `o + j`;
  `1 / (1 + exp (−y))` with the literal `1` is the logistic function; and the sum over the two children,
  started from the literal `0`, is `0 + (a₀ + a₁) = a₀ + a₁`.
  The two slot tables (the hidden and cell states scattered into their slots and reshaped to [16384, 2048]) are
  never opened: they enter the specification as arrays.
-/
import proofs.«146003_j63513976373582_1_alg».proof.Proof.Gen.ReferenceIdeal.Read
import proofs.«146003_j63513976373582_1_alg».proof.Proof.Spec
import proofs.«146003_j63513976373582_1_alg».proof.Defs
import proofs.«146003_j63513976373582_1_alg».proof.Proof.Gen.Pre_finite_inputs

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx
open scoped BigOperators

variable (x0 x1 x2 : (⟨S16384x1024, .f32⟩ : BufTy).Contents (Elt Ideal))
  (x3 x4 : (⟨S1x1024, .f32⟩ : BufTy).Contents (Elt Ideal))
  (x5 : (⟨S3072x1024, .f32⟩ : BufTy).Contents (Elt Ideal))
  (x6 : (⟨S3072x2048, .f32⟩ : BufTy).Contents (Elt Ideal))
  (x7 : (⟨S3072, .f32⟩ : BufTy).Contents (Elt Ideal))
  (x8 : (⟨S1024x1024, .f32⟩ : BufTy).Contents (Elt Ideal))
  (x9 : (⟨S2048x2048, .f32⟩ : BufTy).Contents (Elt Ideal))
  (x10 : (⟨S2048, .f32⟩ : BufTy).Contents (Elt Ideal))
  (x12 : (⟨S16384, .i32⟩ : BufTy).Contents (Elt Ideal))

/-! ## Index equations: the composed index maps of the stages, at an index given by its coordinates -/

section indices
variable (r : Fin 16384) (n : Fin 3072) (n' : Fin 2048) (j : Fin 1024) (k : Fin 1024) (k' : Fin 2048)

theorem lidx23 : lidx_main_v23 (ix2 r n) k = ix2 r k :=
  funext fun a => Fin.ext (by match a with | ⟨0, _⟩ => rfl | ⟨1, _⟩ => rfl)
theorem ridx23 : idx_main_v22 (ridx_main_v23 (ix2 r n) k) = ix2 n k :=
  funext fun a => Fin.ext (by match a with | ⟨0, _⟩ => rfl | ⟨1, _⟩ => rfl)
theorem lidx25 : lidx_main_v25 (ix2 r n) k' = ix2 r k' :=
  funext fun a => Fin.ext (by match a with | ⟨0, _⟩ => rfl | ⟨1, _⟩ => rfl)
theorem ridx25 : idx_main_v24 (ridx_main_v25 (ix2 r n) k') = ix2 n k' :=
  funext fun a => Fin.ext (by match a with | ⟨0, _⟩ => rfl | ⟨1, _⟩ => rfl)
theorem bidx28 : idx_main_v27 (idx_main_v28 (ix2 r n)) = ix1 n :=
  funext fun a => Fin.ext (by match a with | ⟨0, _⟩ => rfl)

theorem lidx47 : lidx_main_v47 (ix2 r n') k' = ix2 r k' :=
  funext fun a => Fin.ext (by match a with | ⟨0, _⟩ => rfl | ⟨1, _⟩ => rfl)
theorem ridx47 : idx_main_v46 (ridx_main_v47 (ix2 r n') k') = ix2 n' k' :=
  funext fun a => Fin.ext (by match a with | ⟨0, _⟩ => rfl | ⟨1, _⟩ => rfl)
theorem bidx49 : idx_main_v48 (idx_main_v49 (ix2 r n')) = ix1 n' :=
  funext fun a => Fin.ext (by match a with | ⟨0, _⟩ => rfl)

/-- The repeated input term of the forget pre-activation is read at row `r`. -/
theorem lidx52 : lidx_main_v52 (idx_main_v53 (idx_main_v54 (idx_main_v55 (ix2 r n')))) k = ix2 r k :=
  funext fun a => Fin.ext (by
    have hr := r.isLt; have hn := n'.isLt
    match a with
    | ⟨0, _⟩ =>
      show (((0 * 16384 + (r.val * 2048 + n'.val) / 2048 % 16384) * 1 + 0) * 1024 + (r.val * 2048 + n'.val) % 1024) / 1024 = r.val
      omega
    | ⟨1, _⟩ => rfl)
/-- … and at column `n' mod 1024` of the weight. -/
theorem ridx52 : idx_main_v51 (ridx_main_v52 (idx_main_v53 (idx_main_v54 (idx_main_v55 (ix2 r n')))) k)
    = ix2 (⟨n'.val % 1024, Nat.mod_lt _ (by decide)⟩ : Fin 1024) k :=
  funext fun a => Fin.ext (by
    have hr := r.isLt; have hn := n'.isLt
    match a with
    | ⟨0, _⟩ =>
      show (((0 * 16384 + (r.val * 2048 + n'.val) / 2048 % 16384) * 1 + 0) * 1024 + (r.val * 2048 + n'.val) % 1024) % 1024 = n'.val % 1024
      omega
    | ⟨1, _⟩ => rfl)

end indices

/-! ## The two pre-activations -/

/-- The wide pre-activation array at `(r, n)` is `Spec.iou`. -/
theorem iou_at (r : Fin 16384) (n : Fin 3072) :
    val_main_v29 (F := Ideal) x0 x1 x3 x5 x6 x7 x12 (ix2 r n)
      = Cert.Spec.iou x0 (val_main_v10 (F := Ideal) x1 x3 x12) x5 x6 x7 r n := by
  rw [val_main_v29_apply, val_main_v26_apply, val_main_v23_apply, val_main_v25_apply, val_main_v28_apply,
    val_main_v27_apply]
  generalize val_main_v10 (F := Ideal) x1 x3 x12 = hf
  simp only [val_main_v22_apply, val_main_v24_apply, lidx23, ridx23, lidx25, ridx25, bidx28, Ideal.addf_def]
  rfl

/-- The forget pre-activation array at `(r, n)` is `Spec.fpre`. -/
theorem fpre_at (r : Fin 16384) (n : Fin 2048) :
    val_main_v56 (F := Ideal) x0 x1 x3 x8 x9 x10 x12 (ix2 r n)
      = Cert.Spec.fpre x0 (val_main_v10 (F := Ideal) x1 x3 x12) x8 x9 x10 r n := by
  rw [val_main_v56_apply, val_main_v50_apply, val_main_v47_apply, val_main_v49_apply, val_main_v48_apply,
    val_main_v55_apply, val_main_v54_apply, val_main_v53_apply, val_main_v52_apply]
  generalize val_main_v10 (F := Ideal) x1 x3 x12 = hf
  simp only [val_main_v46_apply, val_main_v51_apply, lidx47, ridx47, bidx49, lidx52, ridx52, Ideal.addf_def]
  rfl

/-! ## The gates -/

/-- The literal `1` of the reference's logistic expansions. -/
theorem one_word : Ideal.ofBits .f32 0x3F800000#32 = (1 : EReal) := by
  simp [Ideal.ofBits, Ideal.ieee, -EReal.coe_mul]; norm_num

/-- `1 / (1 + exp (−y))` with the literal `1` is the logistic function. -/
theorem sigmoid_eq (y : EReal) :
    Ideal.div (Ideal.ofBits .f32 0x3F800000#32) (Ideal.ofBits .f32 0x3F800000#32 + Ideal.exp (-y)) = Ideal.logistic y := by
  rw [one_word]; rfl

section slices
variable (r : Fin 16384) (j : Fin 1024)

theorem sidx30 : idx_main_v30 (ix2 r j) = ix2 r (⟨j.val, by have := j.isLt; omega⟩ : Fin 3072) :=
  funext fun a => Fin.ext (by match a with | ⟨0, _⟩ => rfl | ⟨1, _⟩ => rfl)
theorem sidx31 : idx_main_v31 (ix2 r j) = ix2 r (⟨j.val + 1024, by have := j.isLt; omega⟩ : Fin 3072) :=
  funext fun a => Fin.ext (by match a with | ⟨0, _⟩ => rfl | ⟨1, _⟩ => exact Nat.add_comm 1024 j.val)
theorem sidx32 : idx_main_v32 (ix2 r j) = ix2 r (⟨j.val + 2048, by have := j.isLt; omega⟩ : Fin 3072) :=
  funext fun a => Fin.ext (by match a with | ⟨0, _⟩ => rfl | ⟨1, _⟩ => exact Nat.add_comm 2048 j.val)

/-- Child 0's entry of the [16384, 2, 1024] view is column `j` of the [16384, 2048] array. -/
theorem cidx0 : idx_main_v65 (idx_main_v66 (ix2 r j) (0 : Fin 2)) = ix2 r (⟨j.val, by have := j.isLt; omega⟩ : Fin 2048) :=
  funext fun a => Fin.ext (by
    have hr := r.isLt; have hj := j.isLt
    match a with
    | ⟨0, _⟩ => show ((r.val * 2 + 0) * 1024 + j.val) / 2048 = r.val; omega
    | ⟨1, _⟩ => show ((r.val * 2 + 0) * 1024 + j.val) % 2048 = j.val; omega)
/-- Child 1's entry is column `j + 1024`. -/
theorem cidx1 : idx_main_v65 (idx_main_v66 (ix2 r j) (1 : Fin 2)) = ix2 r (⟨j.val + 1024, by have := j.isLt; omega⟩ : Fin 2048) :=
  funext fun a => Fin.ext (by
    have hr := r.isLt; have hj := j.isLt
    match a with
    | ⟨0, _⟩ => show ((r.val * 2 + 1) * 1024 + j.val) / 2048 = r.val; omega
    | ⟨1, _⟩ => show ((r.val * 2 + 1) * 1024 + j.val) % 2048 = j.val + 1024; omega)

end slices

/-- The input gate. -/
theorem gate_i (r : Fin 16384) (j : Fin 1024) :
    val_main_v38 (F := Ideal) x0 x1 x3 x5 x6 x7 x12 (ix2 r j)
      = Ideal.logistic (Cert.Spec.iou x0 (val_main_v10 (F := Ideal) x1 x3 x12) x5 x6 x7 r ⟨j.val, by have := j.isLt; omega⟩) := by
  rw [val_main_v38_apply, val_main_v37_apply, val_main_cst_3_apply, val_main_v36_apply, val_main_v35_apply,
    val_main_cst_apply, val_main_v34_apply, val_main_v33_apply, val_main_v30_apply, sidx30, iou_at]
  generalize Cert.Spec.iou x0 (val_main_v10 (F := Ideal) x1 x3 x12) x5 x6 x7 r _ = y
  exact sigmoid_eq y

/-- The output gate. -/
theorem gate_o (r : Fin 16384) (j : Fin 1024) :
    val_main_v44 (F := Ideal) x0 x1 x3 x5 x6 x7 x12 (ix2 r j)
      = Ideal.logistic (Cert.Spec.iou x0 (val_main_v10 (F := Ideal) x1 x3 x12) x5 x6 x7 r ⟨j.val + 1024, by have := j.isLt; omega⟩) := by
  rw [val_main_v44_apply, val_main_v43_apply, val_main_cst_5_apply, val_main_v42_apply, val_main_v41_apply,
    val_main_cst_4_apply, val_main_v40_apply, val_main_v39_apply, val_main_v31_apply, sidx31, iou_at]
  generalize Cert.Spec.iou x0 (val_main_v10 (F := Ideal) x1 x3 x12) x5 x6 x7 r _ = y
  exact sigmoid_eq y

/-- The update. -/
theorem gate_u (r : Fin 16384) (j : Fin 1024) :
    val_main_v45 (F := Ideal) x0 x1 x3 x5 x6 x7 x12 (ix2 r j)
      = Ideal.tanh (Cert.Spec.iou x0 (val_main_v10 (F := Ideal) x1 x3 x12) x5 x6 x7 r ⟨j.val + 2048, by have := j.isLt; omega⟩) := by
  rw [val_main_v45_apply, val_main_v32_apply, sidx32, iou_at]
  rfl

/-- A forget gate. -/
theorem gate_f (r : Fin 16384) (n : Fin 2048) :
    val_main_v62 (F := Ideal) x0 x1 x3 x8 x9 x10 x12 (ix2 r n)
      = Ideal.logistic (Cert.Spec.fpre x0 (val_main_v10 (F := Ideal) x1 x3 x12) x8 x9 x10 r n) := by
  rw [val_main_v62_apply, val_main_v61_apply, val_main_cst_7_apply, val_main_v60_apply, val_main_v59_apply,
    val_main_cst_6_apply, val_main_v58_apply, val_main_v57_apply, fpre_at]
  generalize Cert.Spec.fpre x0 (val_main_v10 (F := Ideal) x1 x3 x12) x8 x9 x10 r n = y
  exact sigmoid_eq y

/-- The two children's forget terms, summed from the literal `0`. -/
theorem forget_sum (r : Fin 16384) (j : Fin 1024) :
    val_main_v66 (F := Ideal) x0 x1 x2 x3 x4 x8 x9 x10 x12 (ix2 r j)
      = Ideal.logistic (Cert.Spec.fpre x0 (val_main_v10 (F := Ideal) x1 x3 x12) x8 x9 x10 r ⟨j.val, by have := j.isLt; omega⟩)
          * val_main_v21 (F := Ideal) x2 x4 x12 (ix2 r (⟨j.val, by have := j.isLt; omega⟩ : Fin 2048))
        + Ideal.logistic (Cert.Spec.fpre x0 (val_main_v10 (F := Ideal) x1 x3 x12) x8 x9 x10 r ⟨j.val + 1024, by have := j.isLt; omega⟩)
          * val_main_v21 (F := Ideal) x2 x4 x12 (ix2 r (⟨j.val + 1024, by have := j.isLt; omega⟩ : Fin 2048)) := by
  rw [val_main_v66_apply, val_main_cst_8_apply, Fin.sum_univ_two, val_main_v65_apply, val_main_v65_apply,
    cidx0, cidx1, val_main_v63_apply, val_main_v63_apply, gate_f, gate_f]
  generalize val_main_v21 (F := Ideal) x2 x4 x12 = cf
  generalize val_main_v10 (F := Ideal) x1 x3 x12 = hf
  simp only [Ideal.ofBits_def, Ideal.ofBits_zero_f32, Ideal.mulf_def, zero_add]

/-! ## The two results -/

theorem c_new_at (r : Fin 16384) (j : Fin 1024) :
    val_main_v67 (F := Ideal) x0 x1 x2 x3 x4 x5 x6 x7 x8 x9 x10 x12 (ix2 r j)
      = Cert.Spec.cNew x0 (val_main_v10 (F := Ideal) x1 x3 x12) (val_main_v21 (F := Ideal) x2 x4 x12) x5 x6 x7 x8 x9 x10 r j := by
  rw [val_main_v67_apply, val_main_v64_apply, gate_i, gate_u, forget_sum]
  rfl

theorem h_new_at (r : Fin 16384) (j : Fin 1024) :
    val_main_v69 (F := Ideal) x0 x1 x2 x3 x4 x5 x6 x7 x8 x9 x10 x12 (ix2 r j)
      = Cert.Spec.hNew x0 (val_main_v10 (F := Ideal) x1 x3 x12) (val_main_v21 (F := Ideal) x2 x4 x12) x5 x6 x7 x8 x9 x10 r j := by
  rw [val_main_v69_apply, gate_o, val_main_v68_apply, c_new_at]
  rfl

/-- The reference's new cell state is the specification's, as arrays. -/
theorem c_new_eq :
    val_main_v67 (F := Ideal) x0 x1 x2 x3 x4 x5 x6 x7 x8 x9 x10 x12
      = Cert.Spec.cNewArr x0 (val_main_v10 (F := Ideal) x1 x3 x12) (val_main_v21 (F := Ideal) x2 x4 x12) x5 x6 x7 x8 x9 x10 := by
  funext i
  obtain ⟨r, j, rfl⟩ : ∃ (r : Fin 16384) (j : Fin 1024), i = ix2 r j := ⟨i 0, i 1, eq_ix2 i⟩
  exact c_new_at x0 x1 x2 x3 x4 x5 x6 x7 x8 x9 x10 x12 r j

/-- The reference's new hidden state is the specification's, as arrays. -/
theorem h_new_eq :
    val_main_v69 (F := Ideal) x0 x1 x2 x3 x4 x5 x6 x7 x8 x9 x10 x12
      = Cert.Spec.hNewArr x0 (val_main_v10 (F := Ideal) x1 x3 x12) (val_main_v21 (F := Ideal) x2 x4 x12) x5 x6 x7 x8 x9 x10 := by
  funext i
  obtain ⟨r, j, rfl⟩ : ∃ (r : Fin 16384) (j : Fin 1024), i = ix2 r j := ⟨i 0, i 1, eq_ix2 i⟩
  exact h_new_at x0 x1 x2 x3 x4 x5 x6 x7 x8 x9 x10 x12 r j

/-! ## The run -/

/-- The reference's run with its two results stated by the specification: from any memory with zero counters, every
    weakly fair execution terminates with the new hidden state and the new cell state at `Spec.hNewArr` and
    `Spec.cNewArr` of the launch contents (the two slot tables as the reference's own stages of the previous states,
    the initial states and the slot indices), and the arguments unchanged. -/
theorem run_spec (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v69) = Cert.Spec.hNewArr (m' ((c.tc : Thread nD τ).loc main_arg0)) (val_main_v10 (F := Ideal) (m' ((c.tc : Thread nD τ).loc main_arg1)) (m' ((c.tc : Thread nD τ).loc main_arg3)) (m' ((c.tc : Thread nD τ).loc main_arg12))) (val_main_v21 (F := Ideal) (m' ((c.tc : Thread nD τ).loc main_arg2)) (m' ((c.tc : Thread nD τ).loc main_arg4)) (m' ((c.tc : Thread nD τ).loc main_arg12))) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10))
      ∧ r.2.mem ((c.tc : Thread nD τ).loc main_v67) = Cert.Spec.cNewArr (m' ((c.tc : Thread nD τ).loc main_arg0)) (val_main_v10 (F := Ideal) (m' ((c.tc : Thread nD τ).loc main_arg1)) (m' ((c.tc : Thread nD τ).loc main_arg3)) (m' ((c.tc : Thread nD τ).loc main_arg12))) (val_main_v21 (F := Ideal) (m' ((c.tc : Thread nD τ).loc main_arg2)) (m' ((c.tc : Thread nD τ).loc main_arg4)) (m' ((c.tc : Thread nD τ).loc main_arg12))) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12) :=
  (θ_run defs _ _).mono (fun _ h c =>
      ⟨(h c).1.trans ((val_main_v69_eq m' c).trans (h_new_eq (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg12)))),
        (h c).2.1.trans ((val_main_v67_eq m' c).trans (c_new_eq (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg12)))),
        (h c).2.2⟩)
    (Cert.ReferenceIdeal.Value.run (F := Ideal) m' ρ')

/-- The reference runs and leaves its arguments unchanged: its generated run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

end Cert.ReferenceIdeal.RefValue

end
-- ==== Proof.SlotTablesIdeal.lean ====
/-
  The two slot tables are one term in the two programs.

  Before its first kernel region, the kernel's program builds the hidden and the cell slot tables on the host exactly as the
  reference does: the initial state (a row of 1024) is reshaped and broadcast to 32768 slot rows; the slot indices are
  normalised (a negative index has 32768 added: compare, add, select) and given a unit axis; the previous states are
  scattered into their slots, a later write replacing an earlier one; and the [32768, 1024] table is reshaped to
  [16384, 2048], the two children of a row side by side. The two programs print the same operations with the same
  literals, so what the kernel's program holds in these two buffers when its first region starts is the reference's
  stage of the same arguments. Nothing here reads a scatter at an index: the two terms are compared as written.
-/
import proofs.«146003_j63513976373582_1_alg».proof.Proof.Gen.KernelIdeal.Regions
import proofs.«146003_j63513976373582_1_alg».proof.Proof.Gen.ReferenceIdeal.Read

noncomputable section

namespace Cert.KernelIdeal.Slots

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (c : Dev nD)

set_option maxHeartbeats 4000000 in
/-- The hidden slot table the kernel's program holds after its host prefix is the reference's stage of the previous
    hidden states, the initial hidden state and the slot indices. -/
theorem hf_eq :
    V1 m c (Proc.devRef .tc main_v10)
      = Cert.ReferenceIdeal.Read.val_main_v10 (F := Ideal) (m ((c.tc : Thread nD τ).loc main_arg1))
          (m ((c.tc : Thread nD τ).loc main_arg3)) (m ((c.tc : Thread nD τ).loc main_arg12)) := by
  show StableHlo.after hostOps0 (fun b => m (c, b)) (Proc.devRef .tc main_v10) = _
  after_results
  rfl

set_option maxHeartbeats 4000000 in
/-- The cell slot table likewise, of the previous cell states, the initial cell state and the slot indices. -/
theorem cf_eq :
    V1 m c (Proc.devRef .tc main_v21)
      = Cert.ReferenceIdeal.Read.val_main_v21 (F := Ideal) (m ((c.tc : Thread nD τ).loc main_arg2))
          (m ((c.tc : Thread nD τ).loc main_arg4)) (m ((c.tc : Thread nD τ).loc main_arg12)) := by
  show StableHlo.after hostOps0 (fun b => m (c, b)) (Proc.devRef .tc main_v21) = _
  after_results
  rfl

end Cert.KernelIdeal.Slots

end
-- ==== Proof.EpiValueIdeal.lean ====
/- The gate region's two stored values read at one element, over the extended reals: the new cell state is
   σ(i)·tanh(g) + (σ(f₁)·c₁ + σ(f₂)·c₂) and the new hidden state σ(o)·tanh(cell), the gates i, o, g, f₁, f₂ being the
   five column bands of width 1024 of the pre-activation block (f₁, f₂ adjacent: one band of width 2048 against the
   two halves of the carried cell block). Entry (p, q) of either value depends on row p only: on columns q, q + 1024,
   q + 2048, q + 3072, q + 4096 of the pre-activations and columns q, q + 1024 of the carried cells. The only laws
   used are that a band cut from column o reads, at column q, the source at column o + q, that a reshape to the same
   shape changes nothing, and that the pointwise operations act entry by entry; no arithmetic law of the extended
   reals is needed. -/
import proofs.«146003_j63513976373582_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.EpiValue

open Cert.KernelIdeal Cert.KernelIdeal.Gen
open Idealize.ShloMosaic Idealize.ShloMosaic.ValueIdx

/-! ## The column bands -/

/-- Column `q` of the band starting at column 0 of the 5120 pre-activation columns (the input gate). -/
def col0 (q : Fin 1024) : Fin 5120 := ⟨q.val, by have := q.isLt; omega⟩
/-- … at column 1024 (the output gate). -/
def col1024 (q : Fin 1024) : Fin 5120 := ⟨q.val + 1024, by have := q.isLt; omega⟩
/-- … at column 2048 (the candidate). -/
def col2048 (q : Fin 1024) : Fin 5120 := ⟨q.val + 2048, by have := q.isLt; omega⟩
/-- … at column 3072 (the first forget gate). -/
def col3072 (q : Fin 1024) : Fin 5120 := ⟨q.val + 3072, by have := q.isLt; omega⟩
/-- … at column 4096 (the second forget gate). -/
def col4096 (q : Fin 1024) : Fin 5120 := ⟨q.val + 4096, by have := q.isLt; omega⟩
/-- Column `q` of the first half of the 2048 carried-cell columns. -/
def lo (q : Fin 1024) : Fin 2048 := ⟨q.val, by have := q.isLt; omega⟩
/-- Column `q` of the second half. -/
def hi (q : Fin 1024) : Fin 2048 := ⟨q.val + 1024, by have := q.isLt; omega⟩

/-- The forget band (columns 3072 … 5119) at a column `k` of its 2048. -/
def colF (k : Fin 2048) : Fin 5120 := ⟨k.val + 3072, by have := k.isLt; omega⟩

theorem colF_lo (q : Fin 1024) : colF (lo q) = col3072 q := rfl
theorem colF_hi (q : Fin 1024) : colF (hi q) = col4096 q := Fin.ext (by show q.val + 1024 + 3072 = q.val + 4096; omega)

/-! ## The new cell state -/

set_option maxHeartbeats 400000 in
/-- The value stored into the cell-state window, at row `p` and column `q` of the block. -/
theorem pay2_apply (x0 : Vec Ideal S256x5120 .f32) (x1 : Vec Ideal S256x2048 .f32) (p : Fin 256) (q : Fin 1024) :
    k1_pay2 (F := Ideal) x0 x1 (ix2 p q)
      = Ideal.logistic (x0 (ix2 p (col0 q))) * Ideal.tanh (x0 (ix2 p (col2048 q)))
        + (Ideal.logistic (x0 (ix2 p (col3072 q))) * x1 (ix2 p (lo q)) + Ideal.logistic (x0 (ix2 p (col4096 q))) * x1 (ix2 p (hi q))) := by
  -- the reshapes to the same shape are the identity
  have s0 : shapeCast S256x5120 x0 shapeCasts_S256x5120_S256x5120 = x0 := shapeCast_self x0 _
  have s1 : shapeCast S256x2048 x1 shapeCasts_S256x2048_S256x2048 = x1 := shapeCast_self x1 _
  -- each band of the pre-activations, read at a column
  have e0 : extractStridedSlice S256x1024 ![0, 0] x0 slices_S256x5120_o0_0_S256x1024 (ix2 p q) = x0 (ix2 p (col0 q)) :=
    slice2_axis1_apply 0 x0 _ p q (col0 q) (Nat.zero_add _).symm
  have e2 : extractStridedSlice S256x1024 ![0, 2048] x0 slices_S256x5120_o0_2048_S256x1024 (ix2 p q) = x0 (ix2 p (col2048 q)) :=
    slice2_axis1_apply 2048 x0 _ p q (col2048 q) (Nat.add_comm _ _)
  have eF (k : Fin 2048) : extractStridedSlice S256x2048 ![0, 3072] x0 slices_S256x5120_o0_3072_S256x2048 (ix2 p k) = x0 (ix2 p (colF k)) :=
    slice2_axis1_apply 3072 x0 _ p k (colF k) (Nat.add_comm _ _)
  unfold k1_pay2 k1_pay1
  dsimp only
  rw [s0, s1]
  -- the forget-gated carried cell over its 2048 columns, and its two halves
  generalize hW : mulf (F := Ideal) (logistic (extractStridedSlice S256x2048 ![0, 3072] (x0 : FVec Ideal S256x5120 .f32) slices_S256x5120_o0_3072_S256x2048)) (x1 : FVec Ideal S256x2048 .f32) = W
  have eW (k : Fin 2048) : W (ix2 p k) = Ideal.logistic (x0 (ix2 p (colF k))) * x1 (ix2 p k) := by
    rw [← hW, ← eF k]; rfl
  have eL : extractStridedSlice S256x1024 ![0, 0] W slices_S256x2048_o0_0_S256x1024 (ix2 p q) = W (ix2 p (lo q)) :=
    slice2_axis1_apply 0 W _ p q (lo q) (Nat.zero_add _).symm
  have eH : extractStridedSlice S256x1024 ![0, 1024] W slices_S256x2048_o0_1024_S256x1024 (ix2 p q) = W (ix2 p (hi q)) :=
    slice2_axis1_apply 1024 W _ p q (hi q) (Nat.add_comm _ _)
  show Ideal.logistic (extractStridedSlice S256x1024 ![0, 0] x0 slices_S256x5120_o0_0_S256x1024 (ix2 p q))
        * Ideal.tanh (extractStridedSlice S256x1024 ![0, 2048] x0 slices_S256x5120_o0_2048_S256x1024 (ix2 p q))
      + (extractStridedSlice S256x1024 ![0, 0] W slices_S256x2048_o0_0_S256x1024 (ix2 p q)
        + extractStridedSlice S256x1024 ![0, 1024] W slices_S256x2048_o0_1024_S256x1024 (ix2 p q)) = _
  rw [e0, e2, eL, eH, eW, eW, colF_lo, colF_hi]

/-! ## The new hidden state -/

set_option maxHeartbeats 400000 in
/-- The value stored into the hidden-state window, at row `p` and column `q` of the block. -/
theorem pay3_apply (x0 : Vec Ideal S256x5120 .f32) (x1 : Vec Ideal S256x2048 .f32) (p : Fin 256) (q : Fin 1024) :
    k1_pay3 (F := Ideal) x0 x1 (ix2 p q)
      = Ideal.logistic (x0 (ix2 p (col1024 q))) * Ideal.tanh (k1_pay2 (F := Ideal) x0 x1 (ix2 p q)) := by
  have s0 : shapeCast S256x5120 x0 shapeCasts_S256x5120_S256x5120 = x0 := shapeCast_self x0 _
  have e1 : extractStridedSlice S256x1024 ![0, 1024] x0 slices_S256x5120_o0_1024_S256x1024 (ix2 p q) = x0 (ix2 p (col1024 q)) :=
    slice2_axis1_apply 1024 x0 _ p q (col1024 q) (Nat.add_comm _ _)
  unfold k1_pay3 k1_pay1
  dsimp only
  rw [s0]
  show Ideal.logistic (extractStridedSlice S256x1024 ![0, 1024] x0 slices_S256x5120_o0_1024_S256x1024 (ix2 p q))
      * Ideal.tanh (k1_pay2 (F := Ideal) x0 x1 (ix2 p q)) = _
  rw [e1]

end Cert.KernelIdeal.EpiValue

end
-- ==== Proof.EpiArrayIdeal.lean ====
/- From blocks to arrays for the gate region's two outputs, over the extended reals. Point t of the 64 reads rows
   256·t … 256·t + 255 of the pre-activation array and of the carried-cell table and writes back the same rows of the
   two output arrays; entry (r, q) of an output depends on row r of the two inputs only, so every block written back
   is the restriction of ONE function of the two whole input arrays. An array written back block by block, each block
   such a restriction and the blocks covering every index (row r lies in block r / 256), ends holding that function:
   that is the one law used here. -/
import proofs.«146003_j63513976373582_1_alg».proof.Proof.EpiFrameIdeal
import proofs.«146003_j63513976373582_1_alg».proof.Proof.EpiValueIdeal
import Idealize.ShloMosaic.Lib.Pipeline.Value
import Idealize.ShloMosaic.Lib.ValueIdx

set_option maxRecDepth 16384

noncomputable section

namespace Cert.KernelIdeal.EpiArray

open Cert.KernelIdeal Cert.KernelIdeal.Gen Cert.KernelIdeal.Epi Cert.KernelIdeal.EpiValue
open Idealize.ShloMosaic Idealize.ShloMosaic.TcCoe Idealize.ShloMosaic.ValueIdx
open Idealize.SL Idealize.SL.Sem
open Idealize.ShloMosaic.Pipeline (Dat Cfg Window)

/-! ## The two outputs as functions of the whole input arrays -/

/-- The new cell state at row `r`, column `q`: σ(i)·tanh(g) + (σ(f₁)·c₁ + σ(f₂)·c₂), the gates read off the
    pre-activation array `A` and the two carried cells off `C`. -/
def cellAt (A : S16384x5120.Idx → EReal) (C : S16384x2048.Idx → EReal) (r : Fin 16384) (q : Fin 1024) : EReal :=
  Ideal.logistic (A (ix2 r (col0 q))) * Ideal.tanh (A (ix2 r (col2048 q)))
    + (Ideal.logistic (A (ix2 r (col3072 q))) * C (ix2 r (lo q)) + Ideal.logistic (A (ix2 r (col4096 q))) * C (ix2 r (hi q)))

/-- The new hidden state at row `r`, column `q`: σ(o)·tanh(new cell state). -/
def hiddenAt (A : S16384x5120.Idx → EReal) (C : S16384x2048.Idx → EReal) (r : Fin 16384) (q : Fin 1024) : EReal :=
  Ideal.logistic (A (ix2 r (col1024 q))) * Ideal.tanh (cellAt A C r q)

/-- The new hidden state as an array (what output window 2's array ends holding). -/
def G2 (A : S16384x5120.Idx → EReal) (C : S16384x2048.Idx → EReal) : S16384x1024.Idx → EReal :=
  fun i => hiddenAt A C (i 0) (i 1)

/-- The new cell state as an array (what output window 3's array ends holding). -/
def G3 (A : S16384x5120.Idx → EReal) (C : S16384x2048.Idx → EReal) : S16384x1024.Idx → EReal :=
  fun i => cellAt A C (i 0) (i 1)

theorem G2_ix2 (A : S16384x5120.Idx → EReal) (C : S16384x2048.Idx → EReal) (r : Fin 16384) (q : Fin 1024) :
    G2 A C (ix2 r q) = hiddenAt A C r q := rfl
theorem G3_ix2 (A : S16384x5120.Idx → EReal) (C : S16384x2048.Idx → EReal) (r : Fin 16384) (q : Fin 1024) :
    G3 A C (ix2 r q) = cellAt A C r q := rfl

/-! ## One block: the stored values are the arrays' functions at the block's rows -/

/-- When the two loaded blocks are rows `256 b …` of `A` and `C`, the value stored into the cell-state window
    at a block index is the array function at the index `256 b` rows further down. -/
theorem cell_block (A : S16384x5120.Idx → EReal) (C : S16384x2048.Idx → EReal)
    (x0 : Vec Ideal S256x5120 .f32) (x1 : Vec Ideal S256x2048 .f32) (b : ℕ)
    (h0 : ∀ (x : S256x5120.Idx) (k : S16384x5120.Idx), (k 0).val = b * 256 + (x 0).val → (k 1).val = (x 1).val → x0 x = A k)
    (h1 : ∀ (x : S256x2048.Idx) (k : S16384x2048.Idx), (k 0).val = b * 256 + (x 0).val → (k 1).val = (x 1).val → x1 x = C k)
    (j : S256x1024.Idx) (i : S16384x1024.Idx) (hi0 : (i 0).val = b * 256 + (j 0).val) (hi1 : (i 1).val = (j 1).val) :
    k1_pay2 (F := Ideal) x0 x1 j = G3 A C i := by
  obtain ⟨p, q, rfl⟩ : ∃ (p : Fin 256) (q : Fin 1024), j = ix2 p q := ⟨j 0, j 1, eq_ix2 j⟩
  obtain ⟨r, q', rfl⟩ : ∃ (r : Fin 16384) (q' : Fin 1024), i = ix2 r q' := ⟨i 0, i 1, eq_ix2 i⟩
  have hr : r.val = b * 256 + p.val := hi0
  obtain rfl : q = q' := Fin.ext hi1.symm
  rw [pay2_apply, G3_ix2]
  unfold cellAt
  rw [h0 (ix2 p (col0 q)) (ix2 r (col0 q)) hr rfl, h0 (ix2 p (col2048 q)) (ix2 r (col2048 q)) hr rfl,
    h0 (ix2 p (col3072 q)) (ix2 r (col3072 q)) hr rfl, h0 (ix2 p (col4096 q)) (ix2 r (col4096 q)) hr rfl,
    h1 (ix2 p (lo q)) (ix2 r (lo q)) hr rfl, h1 (ix2 p (hi q)) (ix2 r (hi q)) hr rfl]

/-- The same for the value stored into the hidden-state window. -/
theorem hidden_block (A : S16384x5120.Idx → EReal) (C : S16384x2048.Idx → EReal)
    (x0 : Vec Ideal S256x5120 .f32) (x1 : Vec Ideal S256x2048 .f32) (b : ℕ)
    (h0 : ∀ (x : S256x5120.Idx) (k : S16384x5120.Idx), (k 0).val = b * 256 + (x 0).val → (k 1).val = (x 1).val → x0 x = A k)
    (h1 : ∀ (x : S256x2048.Idx) (k : S16384x2048.Idx), (k 0).val = b * 256 + (x 0).val → (k 1).val = (x 1).val → x1 x = C k)
    (j : S256x1024.Idx) (i : S16384x1024.Idx) (hi0 : (i 0).val = b * 256 + (j 0).val) (hi1 : (i 1).val = (j 1).val) :
    k1_pay3 (F := Ideal) x0 x1 j = G2 A C i := by
  obtain ⟨p, q, rfl⟩ : ∃ (p : Fin 256) (q : Fin 1024), j = ix2 p q := ⟨j 0, j 1, eq_ix2 j⟩
  obtain ⟨r, q', rfl⟩ : ∃ (r : Fin 16384) (q' : Fin 1024), i = ix2 r q' := ⟨i 0, i 1, eq_ix2 i⟩
  have hr : r.val = b * 256 + p.val := hi0
  obtain rfl : q = q' := Fin.ext hi1.symm
  have hc : k1_pay2 (F := Ideal) x0 x1 (ix2 p q) = cellAt A C r q :=
    (cell_block A C x0 x1 b h0 h1 (ix2 p q) (ix2 r q) hr rfl).trans (G3_ix2 A C r q)
  rw [pay3_apply, G2_ix2, hc]
  unfold hiddenAt
  rw [h0 (ix2 p (col1024 q)) (ix2 r (col1024 q)) hr rfl]

/-! ## The region's blocks -/

variable (V : (c : Dev nD) → (b : Ref sig .tc) → Buf (Elt Ideal) ((c : Thread nD τ).loc b))

/-- The block index maps at each of the 64 points: at point `t` every window is on block row `t`, block column 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Every block row of the outputs is some point's. -/
theorem idx_onto2 : ∀ q0 : Fin 64, ∃ t : Fin cfg1.N, win1_2.index t = ![q0.val, 0] :=
  (by decide +kernel : ∀ q0 : Fin 64, ∃ t : Fin grid1.N, win1_2.index t = ![q0.val, 0])
theorem idx_onto3 : ∀ q0 : Fin 64, ∃ t : Fin cfg1.N, win1_3.index t = ![q0.val, 0] :=
  (by decide +kernel : ∀ q0 : Fin 64, ∃ t : Fin grid1.N, win1_3.index t = ![q0.val, 0])

/-- The pre-activation window's block at point `t` is rows `256 t …` of its array. -/
theorem iblk0_apply (c : Dev nD) (t : Fin cfg1.N) (x : S256x5120.Idx) (k : S16384x5120.Idx)
    (hk0 : (k 0).val = t.val * 256 + (x 0).val) (hk1 : (k 1).val = (x 1).val) :
    (iblk1 V c 0 t : Vec Ideal S256x5120 .f32) x = (V c main_v36 : S16384x5120.Idx → EReal) k := by
  obtain ⟨e0, e1, -⟩ := idx_facts t
  unfold iblk1
  rw [View.read_apply]
  show (V c main_v36 : S16384x5120.Idx → EReal) _ = _
  congr 1
  funext a; apply Fin.ext
  match a with
  | ⟨0, _⟩ => show win1_0.index t (0 : Fin 2) * 256 + 1 * (x 0).val = (k 0).val; omega
  | ⟨1, _⟩ => show win1_0.index t (1 : Fin 2) * 5120 + 1 * (x 1).val = (k 1).val; omega

/-- The carried-cell window's block at point `t` is rows `256 t …` of its array. -/
theorem iblk1_apply (c : Dev nD) (t : Fin cfg1.N) (x : S256x2048.Idx) (k : S16384x2048.Idx)
    (hk0 : (k 0).val = t.val * 256 + (x 0).val) (hk1 : (k 1).val = (x 1).val) :
    (iblk1 V c 1 t : Vec Ideal S256x2048 .f32) x = (V c main_v21 : S16384x2048.Idx → EReal) k := by
  obtain ⟨-, -, e0, e1, -⟩ := idx_facts t
  unfold iblk1
  rw [View.read_apply]
  show (V c main_v21 : S16384x2048.Idx → EReal) _ = _
  congr 1
  funext a; apply Fin.ext
  match a with
  | ⟨0, _⟩ => show win1_1.index t (0 : Fin 2) * 256 + 1 * (x 0).val = (k 0).val; omega
  | ⟨1, _⟩ => show win1_1.index t (1 : Fin 2) * 2048 + 1 * (x 1).val = (k 1).val; omega

/-! ## What each point writes back -/

/-- Point `t` writes back, into the hidden-state array, block `t` of `G2` of the two input arrays. -/
theorem flushed2_eq (c : Dev nD) (t : Fin cfg1.N) :
    (dat1 V c).flushed 2 t = ((cfg1.win 2).blk t).view.read (Elt Ideal) (G2 (V c main_v36) (V c main_v21)) := by
  obtain ⟨-, -, -, -, e0, e1, -⟩ := idx_facts t
  show (cfg1.win 2).cut (grid1.coords t) ((dat1 V c).after 2 t) = _
  rw [after1_2, out1_2_eq]
  funext j
  show k1_pay3 (F := Ideal) (iblk1 V c 0 t) (iblk1 V c 1 t) j = G2 (V c main_v36) (V c main_v21) (((cfg1.win 2).blk t).view.emb j)
  refine hidden_block _ _ _ _ t.val (fun x k h0 h1 => iblk0_apply V c t x k h0 h1) (fun x k h0 h1 => iblk1_apply V c t x k h0 h1) j _ ?_ ?_
  · show win1_2.index t (0 : Fin 2) * 256 + 1 * (j 0).val = t.val * 256 + (j 0).val; omega
  · show win1_2.index t (1 : Fin 2) * 1024 + 1 * (j 1).val = (j 1).val; omega

/-- Point `t` writes back, into the cell-state array, block `t` of `G3` of the two input arrays. -/
theorem flushed3_eq (c : Dev nD) (t : Fin cfg1.N) :
    (dat1 V c).flushed 3 t = ((cfg1.win 3).blk t).view.read (Elt Ideal) (G3 (V c main_v36) (V c main_v21)) := by
  obtain ⟨-, -, -, -, -, -, e0, e1⟩ := idx_facts t
  show (cfg1.win 3).cut (grid1.coords t) ((dat1 V c).after 3 t) = _
  rw [after1_3, out1_3_eq]
  funext j
  show k1_pay2 (F := Ideal) (iblk1 V c 0 t) (iblk1 V c 1 t) j = G3 (V c main_v36) (V c main_v21) (((cfg1.win 3).blk t).view.emb j)
  refine cell_block _ _ _ _ t.val (fun x k h0 h1 => iblk0_apply V c t x k h0 h1) (fun x k h0 h1 => iblk1_apply V c t x k h0 h1) j _ ?_ ?_
  · show win1_3.index t (0 : Fin 2) * 256 + 1 * (j 0).val = t.val * 256 + (j 0).val; omega
  · show win1_3.index t (1 : Fin 2) * 1024 + 1 * (j 1).val = (j 1).val; omega

/-! ## The blocks cover the arrays -/

/-- An index of the hidden-state array is in point `t`'s block iff each coordinate is in the block's range. -/
theorem mem_blk2 (t : Fin cfg1.N) (i : S16384x1024.Idx) :
    i ∈ ((cfg1.win 2).blk t).view.set ↔ ∀ a : Fin 2, win1_2.index t a * S256x1024.size a ≤ (i a).val ∧ (i a).val < win1_2.index t a * S256x1024.size a + S256x1024.size a := by
  show i ∈ ((View.whole main_v37_0).slice (win1_2.rect t)).set ↔ _
  rw [View.set_slice_whole, Rect.mem_set_unit]
  exact Iff.rfl

/-- The same for the cell-state array. -/
theorem mem_blk3 (t : Fin cfg1.N) (i : S16384x1024.Idx) :
    i ∈ ((cfg1.win 3).blk t).view.set ↔ ∀ a : Fin 2, win1_3.index t a * S256x1024.size a ≤ (i a).val ∧ (i a).val < win1_3.index t a * S256x1024.size a + S256x1024.size a := by
  show i ∈ ((View.whole main_v37_1).slice (win1_3.rect t)).set ↔ _
  rw [View.set_slice_whole, Rect.mem_set_unit]
  exact Iff.rfl

/-- Row `r` of the hidden-state array is in the block of the point on block row `r / 256`, which writes it back. -/
theorem cover2 (i : S16384x1024.Idx) : ∃ t : Fin cfg1.N, (cfg1.win 2).flush t = true ∧ i ∈ ((cfg1.win 2).blk t).view.set := by
  have hi0 : (i 0).val < 16384 := (i 0).isLt
  have hi1 : (i 1).val < 1024 := (i 1).isLt
  obtain ⟨t, ht⟩ := idx_onto2 ⟨(i 0).val / 256, by omega⟩
  have q0 : win1_2.index t (0 : Fin 2) = (i 0).val / 256 := congrFun ht 0
  have q1 : win1_2.index t (1 : Fin 2) = 0 := congrFun ht 1
  refine ⟨t, flush1_2 t, ?_⟩
  rw [mem_blk2]
  intro a
  match a with
  | ⟨0, _⟩ => show win1_2.index t (0 : Fin 2) * 256 ≤ (i 0).val ∧ (i 0).val < win1_2.index t (0 : Fin 2) * 256 + 256; omega
  | ⟨1, _⟩ => show win1_2.index t (1 : Fin 2) * 1024 ≤ (i 1).val ∧ (i 1).val < win1_2.index t (1 : Fin 2) * 1024 + 1024; omega

/-- The same for the cell-state array. -/
theorem cover3 (i : S16384x1024.Idx) : ∃ t : Fin cfg1.N, (cfg1.win 3).flush t = true ∧ i ∈ ((cfg1.win 3).blk t).view.set := by
  have hi0 : (i 0).val < 16384 := (i 0).isLt
  have hi1 : (i 1).val < 1024 := (i 1).isLt
  obtain ⟨t, ht⟩ := idx_onto3 ⟨(i 0).val / 256, by omega⟩
  have q0 : win1_3.index t (0 : Fin 2) = (i 0).val / 256 := congrFun ht 0
  have q1 : win1_3.index t (1 : Fin 2) = 0 := congrFun ht 1
  refine ⟨t, flush1_3 t, ?_⟩
  rw [mem_blk3]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 1024 ≤ (i 1).val ∧ (i 1).val < win1_3.index t (1 : Fin 2) * 1024 + 1024; omega

/-! ## The arrays after the region -/

/-- The hidden-state array after the region's last point is `G2` of the two input arrays as the region found them. -/
theorem final2 (c : Dev nD) : (dat1 V c).arrAt 2 cfg1.N = G2 (V c main_v36) (V c main_v21) :=
  (dat1 V c).arrAt_eq_of_cover 2 (G2 (V c main_v36) (V c main_v21)) (fun t _ => flushed2_eq V c t) (fun i => cover2 i)

/-- The cell-state array after the region's last point is `G3` of the two input arrays as the region found them. -/
theorem final3 (c : Dev nD) : (dat1 V c).arrAt 3 cfg1.N = G3 (V c main_v36) (V c main_v21) :=
  (dat1 V c).arrAt_eq_of_cover 3 (G3 (V c main_v36) (V c main_v21)) (fun t _ => flushed3_eq V c t) (fun i => cover3 i)

end Cert.KernelIdeal.EpiArray

end
-- ==== Proof.EpiSpecIdeal.lean ====
/- The gate region's two array functions against the cell's specification: when the pre-activation array holds the
   input / output / update pre-activations in its first 3072 columns and the two forget pre-activations in its last
   2048, and the carried-cell array is the specification's cell table, the hidden-state and cell-state arrays the
   region leaves are the specification's, grouping for grouping. -/
import proofs.«146003_j63513976373582_1_alg».proof.Proof.EpiArrayIdeal
import proofs.«146003_j63513976373582_1_alg».proof.Proof.Spec

noncomputable section

namespace Cert.KernelIdeal.EpiSpec

open Cert.KernelIdeal Cert.KernelIdeal.EpiValue Cert.KernelIdeal.EpiArray
open Idealize.ShloMosaic Idealize.ShloMosaic.ValueIdx
open Cert.Spec (A16384x1024 A16384x2048 A3072x1024 A3072x2048 A1024x1024 A2048x2048 A3072 A2048)

variable (A : S16384x5120.Idx → EReal) (C : S16384x2048.Idx → EReal)
  (x : A16384x1024.Idx → EReal) (hf cf : A16384x2048.Idx → EReal)
  (Wx : A3072x1024.Idx → EReal) (Wh : A3072x2048.Idx → EReal) (b : A3072.Idx → EReal)
  (Wfx : A1024x1024.Idx → EReal) (Wfh : A2048x2048.Idx → EReal) (bf : A2048.Idx → EReal)

/-- A read of the first 3072 columns at any column of the same number. -/
theorem iou_at
    (hiou : ∀ (r : Fin 16384) (n : Fin 3072), A (ix2 r (⟨n.val, by have := n.isLt; omega⟩ : Fin 5120)) = Cert.Spec.iou x hf Wx Wh b r n)
    (r : Fin 16384) (n : Fin 3072) (k : Fin 5120) (hk : k.val = n.val) : A (ix2 r k) = Cert.Spec.iou x hf Wx Wh b r n :=
  (congrArg (fun k => A (ix2 r k)) (Fin.ext hk : k = ⟨n.val, by have := n.isLt; omega⟩)).trans (hiou r n)

/-- A read of the last 2048 columns at any column of the same number. -/
theorem fpre_at
    (hfp : ∀ (r : Fin 16384) (n : Fin 2048), A (ix2 r (⟨n.val + 3072, by have := n.isLt; omega⟩ : Fin 5120)) = Cert.Spec.fpre x hf Wfx Wfh bf r n)
    (r : Fin 16384) (n : Fin 2048) (k : Fin 5120) (hk : k.val = n.val + 3072) : A (ix2 r k) = Cert.Spec.fpre x hf Wfx Wfh bf r n :=
  (congrArg (fun k => A (ix2 r k)) (Fin.ext hk : k = ⟨n.val + 3072, by have := n.isLt; omega⟩)).trans (hfp r n)

/-- The new cell state read off the pre-activation array is the specification's, at every row and column. -/
theorem cellAt_eq_cNew
    (hiou : ∀ (r : Fin 16384) (n : Fin 3072), A (ix2 r (⟨n.val, by have := n.isLt; omega⟩ : Fin 5120)) = Cert.Spec.iou x hf Wx Wh b r n)
    (hfp : ∀ (r : Fin 16384) (n : Fin 2048), A (ix2 r (⟨n.val + 3072, by have := n.isLt; omega⟩ : Fin 5120)) = Cert.Spec.fpre x hf Wfx Wfh bf r n)
    (hC : ∀ (r : Fin 16384) (k : Fin 2048), C (ix2 r k) = cf (ix2 r k))
    (r : Fin 16384) (q : Fin 1024) :
    cellAt A C r q = Cert.Spec.cNew x hf cf Wx Wh b Wfx Wfh bf r q := by
  unfold cellAt Cert.Spec.cNew
  rw [iou_at A x hf Wx Wh b hiou r ⟨q.val, by have := q.isLt; omega⟩ (col0 q) rfl,
    iou_at A x hf Wx Wh b hiou r ⟨q.val + 2048, by have := q.isLt; omega⟩ (col2048 q) rfl,
    fpre_at A x hf Wfx Wfh bf hfp r ⟨q.val, by have := q.isLt; omega⟩ (col3072 q) rfl,
    fpre_at A x hf Wfx Wfh bf hfp r ⟨q.val + 1024, by have := q.isLt; omega⟩ (col4096 q) (by show q.val + 4096 = q.val + 1024 + 3072; omega),
    hC r (lo q), hC r (hi q)]
  rfl

/-- The same for the new hidden state. -/
theorem hiddenAt_eq_hNew
    (hiou : ∀ (r : Fin 16384) (n : Fin 3072), A (ix2 r (⟨n.val, by have := n.isLt; omega⟩ : Fin 5120)) = Cert.Spec.iou x hf Wx Wh b r n)
    (hfp : ∀ (r : Fin 16384) (n : Fin 2048), A (ix2 r (⟨n.val + 3072, by have := n.isLt; omega⟩ : Fin 5120)) = Cert.Spec.fpre x hf Wfx Wfh bf r n)
    (hC : ∀ (r : Fin 16384) (k : Fin 2048), C (ix2 r k) = cf (ix2 r k))
    (r : Fin 16384) (q : Fin 1024) :
    hiddenAt A C r q = Cert.Spec.hNew x hf cf Wx Wh b Wfx Wfh bf r q := by
  unfold hiddenAt Cert.Spec.hNew
  rw [cellAt_eq_cNew A C x hf cf Wx Wh b Wfx Wfh bf hiou hfp hC r q,
    iou_at A x hf Wx Wh b hiou r ⟨q.val + 1024, by have := q.isLt; omega⟩ (col1024 q) rfl]

/-- The hidden-state array the region leaves is the specification's. -/
theorem G2_eq_spec
    (hiou : ∀ (r : Fin 16384) (n : Fin 3072), A (ix2 r (⟨n.val, by have := n.isLt; omega⟩ : Fin 5120)) = Cert.Spec.iou x hf Wx Wh b r n)
    (hfp : ∀ (r : Fin 16384) (n : Fin 2048), A (ix2 r (⟨n.val + 3072, by have := n.isLt; omega⟩ : Fin 5120)) = Cert.Spec.fpre x hf Wfx Wfh bf r n)
    (hC : ∀ (r : Fin 16384) (k : Fin 2048), C (ix2 r k) = cf (ix2 r k)) :
    G2 A C = Cert.Spec.hNewArr x hf cf Wx Wh b Wfx Wfh bf :=
  funext fun i => hiddenAt_eq_hNew A C x hf cf Wx Wh b Wfx Wfh bf hiou hfp hC (i 0) (i 1)

/-- The cell-state array the region leaves is the specification's. -/
theorem G3_eq_spec
    (hiou : ∀ (r : Fin 16384) (n : Fin 3072), A (ix2 r (⟨n.val, by have := n.isLt; omega⟩ : Fin 5120)) = Cert.Spec.iou x hf Wx Wh b r n)
    (hfp : ∀ (r : Fin 16384) (n : Fin 2048), A (ix2 r (⟨n.val + 3072, by have := n.isLt; omega⟩ : Fin 5120)) = Cert.Spec.fpre x hf Wfx Wfh bf r n)
    (hC : ∀ (r : Fin 16384) (k : Fin 2048), C (ix2 r k) = cf (ix2 r k)) :
    G3 A C = Cert.Spec.cNewArr x hf cf Wx Wh b Wfx Wfh bf :=
  funext fun i => cellAt_eq_cNew A C x hf cf Wx Wh b Wfx Wfh bf hiou hfp hC (i 0) (i 1)

end Cert.KernelIdeal.EpiSpec

end
-- ==== Proof.LibSumSplit.lean ====
/-
Splitting and regrouping finite sums

A sum over `Fin (m + n)`, in any additive commutative monoid, is the sum over the first `m` indices
plus the sum over the last `n`; over the extended reals, a sum over `Fin 3072` or `Fin 2048` splits
into blocks of 1024 in the order an accumulator adds them, `((0 + t₀) + t₁) + t₂`.  Addition on the
extended reals is commutative and associative with no finiteness side condition, which gives the
two regroupings `acc_iou` and `acc_f` of an accumulated value plus a bias.
-/
import Mathlib.Data.EReal.Basic
import Mathlib.Algebra.BigOperators.Fin

namespace Cert.SumAlgebra

open Finset

/-- A sum over `Fin (m + n)` is the sum over the first `m` indices plus the sum over
the last `n` indices, the latter read at `k + m`. -/
theorem sum_split_add {M : Type*} [AddCommMonoid M] (m n : ℕ) (f : Fin (m + n) → M) :
    ∑ k : Fin (m + n), f k
      = ∑ k : Fin m, f ⟨k, by omega⟩ + ∑ k : Fin n, f ⟨k + m, by omega⟩ := by
  rw [Fin.sum_univ_add]
  refine congrArg₂ (· + ·) (Finset.sum_congr rfl fun k _ => congrArg f (Fin.ext rfl))
    (Finset.sum_congr rfl fun k _ => congrArg f (Fin.ext ?_))
  show m + (k : ℕ) = (k : ℕ) + m
  exact Nat.add_comm _ _

/-- The contraction axis of length 3072 = 1024 + 2048 (the concatenation of an axis
of length 1024 with one of length 2048). -/
theorem sum_split_3072 (f : Fin 3072 → EReal) :
    ∑ k : Fin 3072, f k
      = ∑ k : Fin 1024, f ⟨k, by omega⟩ + ∑ k : Fin 2048, f ⟨k + 1024, by omega⟩ :=
  sum_split_add 1024 2048 f

/-- An axis of length 2048 = 1024 + 1024. -/
theorem sum_split_2048 (f : Fin 2048 → EReal) :
    ∑ k : Fin 2048, f k
      = ∑ k : Fin 1024, f ⟨k, by omega⟩ + ∑ k : Fin 1024, f ⟨k + 1024, by omega⟩ :=
  sum_split_add 1024 1024 f

/-- The axis of length 3072 cut into three tiles of length 1024, added in the order
`(t₀ + t₁) + t₂`. -/
theorem sum_split_tiles (f : Fin 3072 → EReal) :
    ∑ k : Fin 3072, f k
      = (∑ k : Fin 1024, f ⟨k, by omega⟩ + ∑ k : Fin 1024, f ⟨k + 1024, by omega⟩)
        + ∑ k : Fin 1024, f ⟨k + 2048, by omega⟩ := by
  rw [sum_split_add 2048 1024 f, sum_split_add 1024 1024 (fun k : Fin 2048 => f ⟨k, by omega⟩)]

/-- The three tiles accumulated from zero, `((0 + t₀) + t₁) + t₂`, are the whole sum. -/
theorem sum_tiles_acc (f : Fin 3072 → EReal) :
    ((0 + ∑ k : Fin 1024, f ⟨k, by omega⟩) + ∑ k : Fin 1024, f ⟨k + 1024, by omega⟩)
        + ∑ k : Fin 1024, f ⟨k + 2048, by omega⟩
      = ∑ k : Fin 3072, f k := by
  rw [zero_add, sum_split_tiles f]

/-- The accumulation order `(((0 + sx) + sh₁) + sh₂) + b` against the grouping
`(sx + (sh₁ + sh₂)) + b`. -/
theorem acc_iou (sx sh1 sh2 b : EReal) :
    (((0 + sx) + sh1) + sh2) + b = (sx + (sh1 + sh2)) + b := by
  rw [zero_add, add_assoc sx]

/-- The accumulation order `(((0 + sx) + sh₁) + sh₂) + b` against the grouping
`((sh₁ + sh₂) + b) + sx`. -/
theorem acc_f (sx sh1 sh2 b : EReal) :
    (((0 + sx) + sh1) + sh2) + b = ((sh1 + sh2) + b) + sx := by
  rw [zero_add, add_assoc sx, add_assoc sx, add_comm sx]

end Cert.SumAlgebra
-- ==== Proof.ConcatIdeal.lean ====
/-
The host operations that build the matmul operands, read at an index

The activations `[x | h_full]` are a concatenation along the columns; the combined weight is the
block matrix
```
  [ W_iou_x.T   tile₂(W_fx.T) ]
  [ W_iou_h.T   W_fh.T        ]
```
built from transposes, a tile (reshape, broadcast, reshape) and three concatenations; the combined
bias is a concatenation of two vectors.  Each operation, read at an entry, is its operand at the
matching entry: a concatenation reads the piece that holds the coordinate (the second piece at the
coordinate less the first piece's extent), a transpose swaps the coordinates, and the tile reads
column `n % 1024`.  The entry on the concatenated axis is written `⟨k, _⟩` for the first piece and
`⟨k + extent, _⟩` for the second, the form a sum over the axis splits into.
-/
import proofs.«146003_j63513976373582_1_alg».proof.Proof.Gen.KernelIdeal
import Idealize.ShloMosaic.Lib.Pipeline.Value
import Idealize.ShloMosaic.Lib.ValueIdx
import Idealize.ShloMosaic.Lib.ValueLayout

noncomputable section

namespace Cert.KernelIdeal.Concat

open Cert.KernelIdeal Cert.KernelIdeal.Gen Idealize.ShloMosaic Idealize.ShloMosaic.ValueIdx

variable {α : Type}

/-! ## The activations: `x` beside `h_full` (columns 0–1023 and 1024–3071) -/

theorem xh_lo (a : S16384x1024.Idx → α) (hf : S16384x2048.Idx → α) (r : Fin 16384) (k : Fin 1024) :
    concatenate S16384x3072 1 [⟨S16384x1024, a⟩, ⟨S16384x2048, hf⟩]
        concatenates_S16384x1024_S16384x2048_S16384x3072_d1 (ix2 r (⟨k, by omega⟩ : Fin 3072))
      = a (ix2 r k) := by
  refine concatenate_pair_apply_left (t := S16384x3072) (s₁ := S16384x1024) (s₂ := S16384x2048) 1 a hf
    concatenates_S16384x1024_S16384x2048_S16384x3072_d1 (ix2 r (⟨k, by omega⟩ : Fin 3072)) rfl (ix2 r k) ?_
  intro c
  match c with
  | ⟨0, _⟩ => rfl
  | ⟨1, _⟩ => rfl

theorem xh_hi (a : S16384x1024.Idx → α) (hf : S16384x2048.Idx → α) (r : Fin 16384) (k : Fin 2048) :
    concatenate S16384x3072 1 [⟨S16384x1024, a⟩, ⟨S16384x2048, hf⟩]
        concatenates_S16384x1024_S16384x2048_S16384x3072_d1 (ix2 r (⟨k + 1024, by omega⟩ : Fin 3072))
      = hf (ix2 r k) := by
  refine concatenate_pair_apply_right (t := S16384x3072) (s₁ := S16384x1024) (s₂ := S16384x2048) 1 a hf
    concatenates_S16384x1024_S16384x2048_S16384x3072_d1 (ix2 r (⟨k + 1024, by omega⟩ : Fin 3072)) rfl rfl (ix2 r k) ?_ ?_
  · intro c hc
    match c, hc with
    | ⟨0, _⟩, _ => rfl
    | ⟨1, _⟩, hb => exact absurd rfl hb
  · show k.val + 1024 = k.val + 1024
    rfl

/-! ## The weights' row concatenations (rows 0–1023 and 1024–3071) -/

theorem wiou_lo (a : S1024x3072.Idx → α) (b : S2048x3072.Idx → α) (k : Fin 1024) (n : Fin 3072) :
    concatenate S3072x3072 0 [⟨S1024x3072, a⟩, ⟨S2048x3072, b⟩]
        concatenates_S1024x3072_S2048x3072_S3072x3072_d0 (ix2 (⟨k, by omega⟩ : Fin 3072) n)
      = a (ix2 k n) := by
  refine concatenate_pair_apply_left (t := S3072x3072) (s₁ := S1024x3072) (s₂ := S2048x3072) 0 a b
    concatenates_S1024x3072_S2048x3072_S3072x3072_d0 (ix2 (⟨k, by omega⟩ : Fin 3072) n) rfl (ix2 k n) ?_
  intro c
  match c with
  | ⟨0, _⟩ => rfl
  | ⟨1, _⟩ => rfl

theorem wiou_hi (a : S1024x3072.Idx → α) (b : S2048x3072.Idx → α) (k : Fin 2048) (n : Fin 3072) :
    concatenate S3072x3072 0 [⟨S1024x3072, a⟩, ⟨S2048x3072, b⟩]
        concatenates_S1024x3072_S2048x3072_S3072x3072_d0 (ix2 (⟨k + 1024, by omega⟩ : Fin 3072) n)
      = b (ix2 k n) := by
  refine concatenate_pair_apply_right (t := S3072x3072) (s₁ := S1024x3072) (s₂ := S2048x3072) 0 a b
    concatenates_S1024x3072_S2048x3072_S3072x3072_d0 (ix2 (⟨k + 1024, by omega⟩ : Fin 3072) n) rfl rfl (ix2 k n) ?_ ?_
  · intro c hc
    match c, hc with
    | ⟨0, _⟩, hb => exact absurd rfl hb
    | ⟨1, _⟩, _ => rfl
  · show k.val + 1024 = k.val + 1024
    rfl

theorem wf_lo (a : S1024x2048.Idx → α) (b : S2048x2048.Idx → α) (k : Fin 1024) (n : Fin 2048) :
    concatenate S3072x2048 0 [⟨S1024x2048, a⟩, ⟨S2048x2048, b⟩]
        concatenates_S1024x2048_S2048x2048_S3072x2048_d0 (ix2 (⟨k, by omega⟩ : Fin 3072) n)
      = a (ix2 k n) := by
  refine concatenate_pair_apply_left (t := S3072x2048) (s₁ := S1024x2048) (s₂ := S2048x2048) 0 a b
    concatenates_S1024x2048_S2048x2048_S3072x2048_d0 (ix2 (⟨k, by omega⟩ : Fin 3072) n) rfl (ix2 k n) ?_
  intro c
  match c with
  | ⟨0, _⟩ => rfl
  | ⟨1, _⟩ => rfl

theorem wf_hi (a : S1024x2048.Idx → α) (b : S2048x2048.Idx → α) (k : Fin 2048) (n : Fin 2048) :
    concatenate S3072x2048 0 [⟨S1024x2048, a⟩, ⟨S2048x2048, b⟩]
        concatenates_S1024x2048_S2048x2048_S3072x2048_d0 (ix2 (⟨k + 1024, by omega⟩ : Fin 3072) n)
      = b (ix2 k n) := by
  refine concatenate_pair_apply_right (t := S3072x2048) (s₁ := S1024x2048) (s₂ := S2048x2048) 0 a b
    concatenates_S1024x2048_S2048x2048_S3072x2048_d0 (ix2 (⟨k + 1024, by omega⟩ : Fin 3072) n) rfl rfl (ix2 k n) ?_ ?_
  · intro c hc
    match c, hc with
    | ⟨0, _⟩, hb => exact absurd rfl hb
    | ⟨1, _⟩, _ => rfl
  · show k.val + 1024 = k.val + 1024
    rfl

/-! ## The weights' column concatenation (columns 0–3071 and 3072–5119) -/

theorem wc_lo (a : S3072x3072.Idx → α) (b : S3072x2048.Idx → α) (k : Fin 3072) (n : Fin 3072) :
    concatenate S3072x5120 1 [⟨S3072x3072, a⟩, ⟨S3072x2048, b⟩]
        concatenates_S3072x3072_S3072x2048_S3072x5120_d1 (ix2 k (⟨n, by omega⟩ : Fin 5120))
      = a (ix2 k n) := by
  refine concatenate_pair_apply_left (t := S3072x5120) (s₁ := S3072x3072) (s₂ := S3072x2048) 1 a b
    concatenates_S3072x3072_S3072x2048_S3072x5120_d1 (ix2 k (⟨n, by omega⟩ : Fin 5120)) rfl (ix2 k n) ?_
  intro c
  match c with
  | ⟨0, _⟩ => rfl
  | ⟨1, _⟩ => rfl

theorem wc_hi (a : S3072x3072.Idx → α) (b : S3072x2048.Idx → α) (k : Fin 3072) (n : Fin 2048) :
    concatenate S3072x5120 1 [⟨S3072x3072, a⟩, ⟨S3072x2048, b⟩]
        concatenates_S3072x3072_S3072x2048_S3072x5120_d1 (ix2 k (⟨n + 3072, by omega⟩ : Fin 5120))
      = b (ix2 k n) := by
  refine concatenate_pair_apply_right (t := S3072x5120) (s₁ := S3072x3072) (s₂ := S3072x2048) 1 a b
    concatenates_S3072x3072_S3072x2048_S3072x5120_d1 (ix2 k (⟨n + 3072, by omega⟩ : Fin 5120)) rfl rfl (ix2 k n) ?_ ?_
  · intro c hc
    match c, hc with
    | ⟨0, _⟩, _ => rfl
    | ⟨1, _⟩, hb => exact absurd rfl hb
  · show n.val + 3072 = n.val + 3072
    rfl

/-! ## The bias: entries 0–3071 and 3072–5119 -/

theorem bias_lo (a : S3072.Idx → α) (b : S2048.Idx → α) (n : Fin 3072) :
    concatenate S5120 0 [⟨S3072, a⟩, ⟨S2048, b⟩]
        concatenates_S3072_S2048_S5120_d0 (ix1 (⟨n, by omega⟩ : Fin 5120))
      = a (ix1 n) := by
  refine concatenate_pair_apply_left (t := S5120) (s₁ := S3072) (s₂ := S2048) 0 a b
    concatenates_S3072_S2048_S5120_d0 (ix1 (⟨n, by omega⟩ : Fin 5120)) rfl (ix1 n) ?_
  intro c
  match c with
  | ⟨0, _⟩ => rfl

theorem bias_hi (a : S3072.Idx → α) (b : S2048.Idx → α) (n : Fin 2048) :
    concatenate S5120 0 [⟨S3072, a⟩, ⟨S2048, b⟩]
        concatenates_S3072_S2048_S5120_d0 (ix1 (⟨n + 3072, by omega⟩ : Fin 5120))
      = b (ix1 n) := by
  refine concatenate_pair_apply_right (t := S5120) (s₁ := S3072) (s₂ := S2048) 0 a b
    concatenates_S3072_S2048_S5120_d0 (ix1 (⟨n + 3072, by omega⟩ : Fin 5120)) rfl rfl (ix1 n) ?_ ?_
  · intro c hc
    match c, hc with
    | ⟨0, _⟩, hb => exact absurd rfl hb
  · show n.val + 3072 = n.val + 3072
    rfl

/-! ## The transposes -/

theorem t_iou_x (w : S3072x1024.Idx → α) (k : Fin 1024) (n : Fin 3072) :
    transpose S1024x3072 [1, 0] w transposes_S3072x1024_S1024x3072_1_0 (ix2 k n) = w (ix2 n k) :=
  transpose_ix2_apply w _ k n

theorem t_iou_h (w : S3072x2048.Idx → α) (k : Fin 2048) (n : Fin 3072) :
    transpose S2048x3072 [1, 0] w transposes_S3072x2048_S2048x3072_1_0 (ix2 k n) = w (ix2 n k) :=
  transpose_ix2_apply w _ k n

theorem t_fx (w : S1024x1024.Idx → α) (k : Fin 1024) (n : Fin 1024) :
    transpose S1024x1024 [1, 0] w transposes_S1024x1024_S1024x1024_1_0 (ix2 k n) = w (ix2 n k) :=
  transpose_ix2_apply w _ k n

theorem t_fh (w : S2048x2048.Idx → α) (k : Fin 2048) (n : Fin 2048) :
    transpose S2048x2048 [1, 0] w transposes_S2048x2048_S2048x2048_1_0 (ix2 k n) = w (ix2 n k) :=
  transpose_ix2_apply w _ k n

/-! ## The tile: `[1024, 1024] → [1, 1024, 1, 1024] → [1, 1024, 2, 1024] → [1024, 2048]` -/

/-- The matrix repeated twice along the columns: entry `(k, n)` is the operand's `(k, n % 1024)`. -/
theorem tile_apply (w : S1024x1024.Idx → α) (k : Fin 1024) (n : Fin 2048) :
    shapeCast S1024x2048
        (broadcastInDim S1x1024x2x1024 ![0, 1, 2, 3] bcast_S1x1024x1x1024_S1x1024x2x1024_0_1_2_3
          (shapeCast S1x1024x1x1024 w shapeCasts_S1024x1024_S1x1024x1x1024))
        shapeCasts_S1x1024x2x1024_S1024x2048 (ix2 k n)
      = w (ix2 k (⟨n % 1024, Nat.mod_lt _ (by decide)⟩ : Fin 1024)) := by
  have hn : n.val < 2048 := n.isLt
  have hk : k.val < 1024 := k.isLt
  refine (shapeCast_apply _ shapeCasts_S1x1024x2x1024_S1024x2048 (ix2 k n)
    (ix4 (0 : Fin 1) k (⟨n / 1024, by omega⟩ : Fin 2) (⟨n % 1024, Nat.mod_lt _ (by decide)⟩ : Fin 1024)) ?_).trans ?_
  · rw [Shape.rowMajor_val_four, Shape.rowMajor_val_two]
    show ((0 * 1024 + k.val) * 2 + n.val / 1024) * 1024 + n.val % 1024 = k.val * 2048 + n.val
    omega
  refine (broadcastInDim_apply _ bcast_S1x1024x1x1024_S1x1024x2x1024_0_1_2_3 _ _
    (ix4 (0 : Fin 1) k (0 : Fin 1) (⟨n % 1024, Nat.mod_lt _ (by decide)⟩ : Fin 1024)) ?_).trans ?_
  · intro a
    match a with
    | ⟨0, _⟩ => show 0 = if (1 : ℕ) = 1 then 0 else _; rw [if_pos rfl]
    | ⟨1, _⟩ => show k.val = if (1024 : ℕ) = 1 then 0 else k.val; rw [if_neg (by decide)]
    | ⟨2, _⟩ => show 0 = if (1 : ℕ) = 1 then 0 else _; rw [if_pos rfl]
    | ⟨3, _⟩ => show n.val % 1024 = if (1024 : ℕ) = 1 then 0 else n.val % 1024; rw [if_neg (by decide)]
  refine shapeCast_apply w shapeCasts_S1024x1024_S1x1024x1x1024 _ _ ?_
  rw [Shape.rowMajor_val_two, Shape.rowMajor_val_four]
  show k.val * 1024 + n.val % 1024 = ((0 * 1024 + k.val) * 1 + 0) * 1024 + n.val % 1024
  omega

end Cert.KernelIdeal.Concat
-- ==== Proof.LinearIdeal.lean ====
/-
The tiled, concatenated contraction against the specification

The matmul kernel contracts the activations `[x | h_full]` (3072 columns) with the combined weight
(3072 rows, 5120 columns) in three tiles of 1024, accumulating from zero, and then adds the
combined bias.  Reading the operands through the concatenations, transposes and the tile, the three
tile sums are the input's contraction and the two halves of the hidden table's contraction; the
accumulated value is then the specification's pre-activation, for the first 3072 columns the
input / output / update one and for the last 2048 the forget one, by splitting the hidden table's
sum in two and regrouping the additions (addition on the extended reals is commutative and
associative).
-/
import proofs.«146003_j63513976373582_1_alg».proof.Proof.LibSumSplit
import proofs.«146003_j63513976373582_1_alg».proof.Proof.ConcatIdeal
import proofs.«146003_j63513976373582_1_alg».proof.Proof.Spec

noncomputable section

namespace Cert.KernelIdeal.Linear

open Cert.KernelIdeal Cert.KernelIdeal.Gen Idealize.ShloMosaic Idealize.ShloMosaic.ValueIdx
open Cert.KernelIdeal.Concat Cert.SumAlgebra
open scoped BigOperators

/-! ## The three operands, from the arrays they are built from -/

/-- The activations `[x | h_full]`, converted to the matmul's input format (the identity over the
extended reals). -/
abbrev xh (x : S16384x1024.Idx → EReal) (hf : S16384x2048.Idx → EReal) : S16384x3072.Idx → EReal :=
  truncf (F := Ideal) (φ := .f32) .bf16
    (concatenate S16384x3072 1 [⟨S16384x1024, x⟩, ⟨S16384x2048, hf⟩]
      concatenates_S16384x1024_S16384x2048_S16384x3072_d1)
    bitsLt_bf16_f32

/-- The combined weight: `W_iou_x.T` over `W_iou_h.T` beside the tiled `W_fx.T` over `W_fh.T`,
converted to the matmul's input format. -/
abbrev wcomb (Wx : S3072x1024.Idx → EReal) (Wh : S3072x2048.Idx → EReal)
    (Wfx : S1024x1024.Idx → EReal) (Wfh : S2048x2048.Idx → EReal) : S3072x5120.Idx → EReal :=
  truncf (F := Ideal) (φ := .f32) .bf16
    (concatenate S3072x5120 1
      [⟨S3072x3072, concatenate S3072x3072 0
          [⟨S1024x3072, transpose S1024x3072 [1, 0] Wx transposes_S3072x1024_S1024x3072_1_0⟩,
           ⟨S2048x3072, transpose S2048x3072 [1, 0] Wh transposes_S3072x2048_S2048x3072_1_0⟩]
          concatenates_S1024x3072_S2048x3072_S3072x3072_d0⟩,
       ⟨S3072x2048, concatenate S3072x2048 0
          [⟨S1024x2048, shapeCast S1024x2048
              (broadcastInDim S1x1024x2x1024 ![0, 1, 2, 3] bcast_S1x1024x1x1024_S1x1024x2x1024_0_1_2_3
                (shapeCast S1x1024x1x1024
                  (transpose S1024x1024 [1, 0] Wfx transposes_S1024x1024_S1024x1024_1_0)
                  shapeCasts_S1024x1024_S1x1024x1x1024))
              shapeCasts_S1x1024x2x1024_S1024x2048⟩,
           ⟨S2048x2048, transpose S2048x2048 [1, 0] Wfh transposes_S2048x2048_S2048x2048_1_0⟩]
          concatenates_S1024x2048_S2048x2048_S3072x2048_d0⟩]
      concatenates_S3072x3072_S3072x2048_S3072x5120_d1)
    bitsLt_bf16_f32

/-- The combined bias. -/
abbrev bcomb (b : S3072.Idx → EReal) (bf : S2048.Idx → EReal) : S5120.Idx → EReal :=
  concatenate S5120 0 [⟨S3072, b⟩, ⟨S2048, bf⟩] concatenates_S3072_S2048_S5120_d0

/-! ## The operands read at an entry -/

/-- The conversion to the matmul's input format is the identity over the extended reals. -/
theorem truncf_id {s : Shape} (X : s.Idx → EReal) (h : FTy.bits .bf16 < FTy.bits .f32) (j : s.Idx) :
    truncf (F := Ideal) (φ := .f32) .bf16 X h j = X j := rfl

section Entries
variable (x : S16384x1024.Idx → EReal) (hf : S16384x2048.Idx → EReal)
  (Wx : S3072x1024.Idx → EReal) (Wh : S3072x2048.Idx → EReal)
  (Wfx : S1024x1024.Idx → EReal) (Wfh : S2048x2048.Idx → EReal)
  (b : S3072.Idx → EReal) (bf : S2048.Idx → EReal)

/-- A column below 1024 of the activations is the input's. -/
theorem xh_x (r : Fin 16384) (c : Fin 3072) (k : Fin 1024) (hc : c.val = k.val) :
    xh x hf (ix2 r c) = x (ix2 r k) := by
  obtain rfl : c = ⟨k.val, Nat.lt_of_lt_of_le k.isLt (by decide)⟩ := Fin.ext hc
  exact (truncf_id _ _ _).trans (xh_lo x hf r k)

/-- A column from 1024 on of the activations is the hidden table's, 1024 less. -/
theorem xh_h (r : Fin 16384) (c : Fin 3072) (k : Fin 2048) (hc : c.val = k.val + 1024) :
    xh x hf (ix2 r c) = hf (ix2 r k) := by
  obtain rfl : c = ⟨k.val + 1024, Nat.add_lt_add_right k.isLt 1024⟩ := Fin.ext hc
  exact (truncf_id _ _ _).trans (xh_hi x hf r k)

/-- The weight's upper left block: `W_iou_x` transposed. -/
theorem wcomb_iou_x (c : Fin 3072) (m : Fin 5120) (k : Fin 1024) (n : Fin 3072)
    (hc : c.val = k.val) (hm : m.val = n.val) :
    wcomb Wx Wh Wfx Wfh (ix2 c m) = Wx (ix2 n k) := by
  obtain rfl : c = ⟨k.val, Nat.lt_of_lt_of_le k.isLt (by decide)⟩ := Fin.ext hc
  obtain rfl : m = ⟨n.val, Nat.lt_of_lt_of_le n.isLt (by decide)⟩ := Fin.ext hm
  refine (truncf_id _ _ _).trans ?_
  exact (wc_lo _ _ _ n).trans ((wiou_lo _ _ k n).trans (t_iou_x Wx k n))

/-- The weight's lower left block: `W_iou_h` transposed. -/
theorem wcomb_iou_h (c : Fin 3072) (m : Fin 5120) (k : Fin 2048) (n : Fin 3072)
    (hc : c.val = k.val + 1024) (hm : m.val = n.val) :
    wcomb Wx Wh Wfx Wfh (ix2 c m) = Wh (ix2 n k) := by
  obtain rfl : c = ⟨k.val + 1024, Nat.add_lt_add_right k.isLt 1024⟩ := Fin.ext hc
  obtain rfl : m = ⟨n.val, Nat.lt_of_lt_of_le n.isLt (by decide)⟩ := Fin.ext hm
  refine (truncf_id _ _ _).trans ?_
  exact (wc_lo _ _ _ n).trans ((wiou_hi _ _ k n).trans (t_iou_h Wh k n))

/-- The weight's upper right block: `W_fx` transposed, repeated for the two children. -/
theorem wcomb_f_x (c : Fin 3072) (m : Fin 5120) (k : Fin 1024) (n : Fin 2048)
    (hc : c.val = k.val) (hm : m.val = n.val + 3072) :
    wcomb Wx Wh Wfx Wfh (ix2 c m)
      = Wfx (ix2 (⟨n.val % 1024, Nat.mod_lt _ (by decide)⟩ : Fin 1024) k) := by
  obtain rfl : c = ⟨k.val, Nat.lt_of_lt_of_le k.isLt (by decide)⟩ := Fin.ext hc
  obtain rfl : m = ⟨n.val + 3072, Nat.add_lt_add_right n.isLt 3072⟩ := Fin.ext hm
  refine (truncf_id _ _ _).trans ?_
  exact (wc_hi _ _ _ n).trans ((wf_lo _ _ k n).trans ((tile_apply _ k n).trans (t_fx Wfx k _)))

/-- The weight's lower right block: `W_fh` transposed. -/
theorem wcomb_f_h (c : Fin 3072) (m : Fin 5120) (k : Fin 2048) (n : Fin 2048)
    (hc : c.val = k.val + 1024) (hm : m.val = n.val + 3072) :
    wcomb Wx Wh Wfx Wfh (ix2 c m) = Wfh (ix2 n k) := by
  obtain rfl : c = ⟨k.val + 1024, Nat.add_lt_add_right k.isLt 1024⟩ := Fin.ext hc
  obtain rfl : m = ⟨n.val + 3072, Nat.add_lt_add_right n.isLt 3072⟩ := Fin.ext hm
  refine (truncf_id _ _ _).trans ?_
  exact (wc_hi _ _ _ n).trans ((wf_hi _ _ k n).trans (t_fh Wfh k n))

/-- The bias below 3072. -/
theorem bcomb_b (m : Fin 5120) (n : Fin 3072) (hm : m.val = n.val) : bcomb b bf (ix1 m) = b (ix1 n) := by
  obtain rfl : m = ⟨n.val, Nat.lt_of_lt_of_le n.isLt (by decide)⟩ := Fin.ext hm
  exact bias_lo b bf n

/-- The bias from 3072 on. -/
theorem bcomb_bf (m : Fin 5120) (n : Fin 2048) (hm : m.val = n.val + 3072) :
    bcomb b bf (ix1 m) = bf (ix1 n) := by
  obtain rfl : m = ⟨n.val + 3072, Nat.add_lt_add_right n.isLt 3072⟩ := Fin.ext hm
  exact bias_hi b bf n

end Entries

/-! ## The accumulated value is the specification's pre-activation -/

/-- Columns below 3072: the three tile sums accumulated from zero, plus the bias, are the
input / output / update pre-activation.  The tiles' contraction columns `c₀ c₁ c₂` and the output
column `m` are given by their values. -/
theorem lin_iou (x : S16384x1024.Idx → EReal) (hf : S16384x2048.Idx → EReal)
    (Wx : S3072x1024.Idx → EReal) (Wh : S3072x2048.Idx → EReal)
    (Wfx : S1024x1024.Idx → EReal) (Wfh : S2048x2048.Idx → EReal)
    (b : S3072.Idx → EReal) (bf : S2048.Idx → EReal)
    (r : Fin 16384) (n : Fin 3072) (m : Fin 5120) (hm : m.val = n.val)
    (c0 c1 c2 : Fin 1024 → Fin 3072) (h0 : ∀ k, (c0 k).val = k.val)
    (h1 : ∀ k, (c1 k).val = k.val + 1024) (h2 : ∀ k, (c2 k).val = k.val + 2048) :
    (((0 + ∑ k : Fin 1024, xh x hf (ix2 r (c0 k)) * wcomb Wx Wh Wfx Wfh (ix2 (c0 k) m))
          + ∑ k : Fin 1024, xh x hf (ix2 r (c1 k)) * wcomb Wx Wh Wfx Wfh (ix2 (c1 k) m))
          + ∑ k : Fin 1024, xh x hf (ix2 r (c2 k)) * wcomb Wx Wh Wfx Wfh (ix2 (c2 k) m))
        + bcomb b bf (ix1 m)
      = Cert.Spec.iou x hf Wx Wh b r n := by
  have e0 : ∑ k : Fin 1024, xh x hf (ix2 r (c0 k)) * wcomb Wx Wh Wfx Wfh (ix2 (c0 k) m)
      = ∑ k : Fin 1024, x (ix2 r k) * Wx (ix2 n k) :=
    Finset.sum_congr rfl fun k _ => by
      rw [xh_x x hf r (c0 k) k (h0 k), wcomb_iou_x Wx Wh Wfx Wfh (c0 k) m k n (h0 k) hm]
  have e1 : ∑ k : Fin 1024, xh x hf (ix2 r (c1 k)) * wcomb Wx Wh Wfx Wfh (ix2 (c1 k) m)
      = ∑ k : Fin 1024, hf (ix2 r (⟨k, by omega⟩ : Fin 2048)) * Wh (ix2 n (⟨k, by omega⟩ : Fin 2048)) :=
    Finset.sum_congr rfl fun k _ => by
      rw [xh_h x hf r (c1 k) ⟨k, by omega⟩ (h1 k),
        wcomb_iou_h Wx Wh Wfx Wfh (c1 k) m ⟨k, by omega⟩ n (h1 k) hm]
  have e2 : ∑ k : Fin 1024, xh x hf (ix2 r (c2 k)) * wcomb Wx Wh Wfx Wfh (ix2 (c2 k) m)
      = ∑ k : Fin 1024, hf (ix2 r (⟨k + 1024, by omega⟩ : Fin 2048))
          * Wh (ix2 n (⟨k + 1024, by omega⟩ : Fin 2048)) :=
    Finset.sum_congr rfl fun k _ => by
      have hk : (c2 k).val = (⟨k + 1024, by omega⟩ : Fin 2048).val + 1024 :=
        (h2 k).trans (by show k.val + 2048 = k.val + 1024 + 1024; omega)
      rw [xh_h x hf r (c2 k) ⟨k + 1024, by omega⟩ hk,
        wcomb_iou_h Wx Wh Wfx Wfh (c2 k) m ⟨k + 1024, by omega⟩ n hk hm]
  rw [e0, e1, e2, bcomb_b b bf m n hm, acc_iou]
  unfold Cert.Spec.iou
  rw [sum_split_2048 (fun k : Fin 2048 => hf (ix2 r k) * Wh (ix2 n k))]

/-- Columns from 3072 on: the three tile sums accumulated from zero, plus the bias, are the forget
pre-activation. -/
theorem lin_f (x : S16384x1024.Idx → EReal) (hf : S16384x2048.Idx → EReal)
    (Wx : S3072x1024.Idx → EReal) (Wh : S3072x2048.Idx → EReal)
    (Wfx : S1024x1024.Idx → EReal) (Wfh : S2048x2048.Idx → EReal)
    (b : S3072.Idx → EReal) (bf : S2048.Idx → EReal)
    (r : Fin 16384) (n : Fin 2048) (m : Fin 5120) (hm : m.val = n.val + 3072)
    (c0 c1 c2 : Fin 1024 → Fin 3072) (h0 : ∀ k, (c0 k).val = k.val)
    (h1 : ∀ k, (c1 k).val = k.val + 1024) (h2 : ∀ k, (c2 k).val = k.val + 2048) :
    (((0 + ∑ k : Fin 1024, xh x hf (ix2 r (c0 k)) * wcomb Wx Wh Wfx Wfh (ix2 (c0 k) m))
          + ∑ k : Fin 1024, xh x hf (ix2 r (c1 k)) * wcomb Wx Wh Wfx Wfh (ix2 (c1 k) m))
          + ∑ k : Fin 1024, xh x hf (ix2 r (c2 k)) * wcomb Wx Wh Wfx Wfh (ix2 (c2 k) m))
        + bcomb b bf (ix1 m)
      = Cert.Spec.fpre x hf Wfx Wfh bf r n := by
  have e0 : ∑ k : Fin 1024, xh x hf (ix2 r (c0 k)) * wcomb Wx Wh Wfx Wfh (ix2 (c0 k) m)
      = ∑ k : Fin 1024, x (ix2 r k)
          * Wfx (ix2 (⟨n.val % 1024, Nat.mod_lt _ (by decide)⟩ : Fin 1024) k) :=
    Finset.sum_congr rfl fun k _ => by
      rw [xh_x x hf r (c0 k) k (h0 k), wcomb_f_x Wx Wh Wfx Wfh (c0 k) m k n (h0 k) hm]
  have e1 : ∑ k : Fin 1024, xh x hf (ix2 r (c1 k)) * wcomb Wx Wh Wfx Wfh (ix2 (c1 k) m)
      = ∑ k : Fin 1024, hf (ix2 r (⟨k, by omega⟩ : Fin 2048)) * Wfh (ix2 n (⟨k, by omega⟩ : Fin 2048)) :=
    Finset.sum_congr rfl fun k _ => by
      rw [xh_h x hf r (c1 k) ⟨k, by omega⟩ (h1 k),
        wcomb_f_h Wx Wh Wfx Wfh (c1 k) m ⟨k, by omega⟩ n (h1 k) hm]
  have e2 : ∑ k : Fin 1024, xh x hf (ix2 r (c2 k)) * wcomb Wx Wh Wfx Wfh (ix2 (c2 k) m)
      = ∑ k : Fin 1024, hf (ix2 r (⟨k + 1024, by omega⟩ : Fin 2048))
          * Wfh (ix2 n (⟨k + 1024, by omega⟩ : Fin 2048)) :=
    Finset.sum_congr rfl fun k _ => by
      have hk : (c2 k).val = (⟨k + 1024, by omega⟩ : Fin 2048).val + 1024 :=
        (h2 k).trans (by show k.val + 2048 = k.val + 1024 + 1024; omega)
      rw [xh_h x hf r (c2 k) ⟨k + 1024, by omega⟩ hk,
        wcomb_f_h Wx Wh Wfx Wfh (c2 k) m ⟨k + 1024, by omega⟩ n hk hm]
  rw [e0, e1, e2, bcomb_bf b bf m n hm, acc_f]
  unfold Cert.Spec.fpre
  rw [sum_split_2048 (fun k : Fin 2048 => hf (ix2 r k) * Wfh (ix2 n k))]

end Cert.KernelIdeal.Linear
-- ==== Proof.TiledSpecIdeal.lean ====
/-
  From the tiled contraction to the cell: the abstract step.

  The first region leaves, at row `r` and column `c` of the wide pre-activation array, three partial sums over the three
  contraction tiles (columns 0–1023, 1024–2047, 2048–3071 of the activations `[x | h]`), accumulated from zero in tile
  order, plus the combined bias. With the activations, the combined weight and the combined bias built from the
  cell's arrays, columns below 3072 are the input / output / update pre-activation and columns from 3072 on the
  forget pre-activation, by regrouping sums only. The gate region then reads that array and the cell table, and its
  two results are the specification's new hidden and new cell states.
  Everything here is about arrays as functions; no program and no memory appears.
-/
import proofs.«146003_j63513976373582_1_alg».proof.Proof.EpiSpecIdeal
import proofs.«146003_j63513976373582_1_alg».proof.Proof.LinearIdeal

noncomputable section

namespace Cert.KernelIdeal.KSpec

open Cert.KernelIdeal Idealize.ShloMosaic Idealize.ShloMosaic.ValueIdx
open scoped BigOperators

/-- The first region's accumulated value at row `r`, column `c`: the three tile sums from zero, then the bias. -/
def tiled (a : S16384x3072.Idx → EReal) (w : S3072x5120.Idx → EReal) (bias : S5120.Idx → EReal)
    (r : Fin 16384) (c : Fin 5120) : EReal :=
  (((0 + ∑ k : Fin 1024, a (ix2 r (⟨k.val, by have := k.isLt; omega⟩ : Fin 3072)) * w (ix2 (⟨k.val, by have := k.isLt; omega⟩ : Fin 3072) c))
        + ∑ k : Fin 1024, a (ix2 r (⟨k.val + 1024, by have := k.isLt; omega⟩ : Fin 3072)) * w (ix2 (⟨k.val + 1024, by have := k.isLt; omega⟩ : Fin 3072) c))
        + ∑ k : Fin 1024, a (ix2 r (⟨k.val + 2048, by have := k.isLt; omega⟩ : Fin 3072)) * w (ix2 (⟨k.val + 2048, by have := k.isLt; omega⟩ : Fin 3072) c))
      + bias (ix1 c)

section
variable (x : S16384x1024.Idx → EReal) (hf cf : S16384x2048.Idx → EReal)
  (Wx : S3072x1024.Idx → EReal) (Wh : S3072x2048.Idx → EReal) (b : S3072.Idx → EReal)
  (Wfx : S1024x1024.Idx → EReal) (Wfh : S2048x2048.Idx → EReal) (bf : S2048.Idx → EReal)

/-- Columns below 3072 of the accumulated value are the input / output / update pre-activation. -/
theorem tiled_iou (r : Fin 16384) (n : Fin 3072) :
    tiled (Linear.xh x hf) (Linear.wcomb Wx Wh Wfx Wfh) (Linear.bcomb b bf) r (⟨n.val, by have := n.isLt; omega⟩ : Fin 5120)
      = Cert.Spec.iou x hf Wx Wh b r n :=
  Linear.lin_iou x hf Wx Wh Wfx Wfh b bf r n ⟨n.val, by have := n.isLt; omega⟩ rfl
    (fun k => ⟨k.val, by have := k.isLt; omega⟩) (fun k => ⟨k.val + 1024, by have := k.isLt; omega⟩) (fun k => ⟨k.val + 2048, by have := k.isLt; omega⟩)
    (fun _ => rfl) (fun _ => rfl) (fun _ => rfl)

/-- Columns from 3072 on are the forget pre-activation. -/
theorem tiled_f (r : Fin 16384) (n : Fin 2048) :
    tiled (Linear.xh x hf) (Linear.wcomb Wx Wh Wfx Wfh) (Linear.bcomb b bf) r (⟨n.val + 3072, by have := n.isLt; omega⟩ : Fin 5120)
      = Cert.Spec.fpre x hf Wfx Wfh bf r n :=
  Linear.lin_f x hf Wx Wh Wfx Wfh b bf r n ⟨n.val + 3072, by have := n.isLt; omega⟩ rfl
    (fun k => ⟨k.val, by have := k.isLt; omega⟩) (fun k => ⟨k.val + 1024, by have := k.isLt; omega⟩) (fun k => ⟨k.val + 2048, by have := k.isLt; omega⟩)
    (fun _ => rfl) (fun _ => rfl) (fun _ => rfl)

/-- If the wide array is the accumulated value of the cell's operands at every entry and the table the gate region
    reads is the cell table, the gate region's two results are the specification's new hidden and cell states. -/
theorem arrays_spec (A : S16384x5120.Idx → EReal) (C : S16384x2048.Idx → EReal)
    (hA : ∀ (r : Fin 16384) (c : Fin 5120),
      A (ix2 r c) = tiled (Linear.xh x hf) (Linear.wcomb Wx Wh Wfx Wfh) (Linear.bcomb b bf) r c)
    (hC : C = cf) :
    EpiArray.G2 A C = Cert.Spec.hNewArr x hf cf Wx Wh b Wfx Wfh bf
      ∧ EpiArray.G3 A C = Cert.Spec.cNewArr x hf cf Wx Wh b Wfx Wfh bf := by
  have hiou : ∀ (r : Fin 16384) (n : Fin 3072),
      A (ix2 r (⟨n.val, by have := n.isLt; omega⟩ : Fin 5120)) = Cert.Spec.iou x hf Wx Wh b r n :=
    fun r n => (hA r _).trans (tiled_iou x hf Wx Wh b Wfx Wfh bf r n)
  have hfp : ∀ (r : Fin 16384) (n : Fin 2048),
      A (ix2 r (⟨n.val + 3072, by have := n.isLt; omega⟩ : Fin 5120)) = Cert.Spec.fpre x hf Wfx Wfh bf r n :=
    fun r n => (hA r _).trans (tiled_f x hf Wx Wh b Wfx Wfh bf r n)
  have hCe : ∀ (r : Fin 16384) (k : Fin 2048), C (ix2 r k) = cf (ix2 r k) := fun r k => by rw [hC]
  exact ⟨EpiSpec.G2_eq_spec A C x hf cf Wx Wh b Wfx Wfh bf hiou hfp hCe,
    EpiSpec.G3_eq_spec A C x hf cf Wx Wh b Wfx Wfh bf hiou hfp hCe⟩

end

end Cert.KernelIdeal.KSpec

end
-- ==== Proof.KernelValueIdeal.lean ====
/- The two results of the whole run as functions of what the two regions were handed: the hidden-state and
   cell-state arrays the gate region leaves are its two array functions of the product array the matmul region
   leaves and of the carried-cell table as the host operations laid it out (no window of the matmul region is that
   table, so the matmul region leaves it as it found it). -/
import proofs.«146003_j63513976373582_1_alg».proof.Proof.RegionsIdeal
import proofs.«146003_j63513976373582_1_alg».proof.Proof.EpiArrayIdeal

set_option maxRecDepth 16384

noncomputable section

namespace Cert.KernelIdeal.KValue

open Cert.KernelIdeal Cert.KernelIdeal.Gen
open Idealize.ShloMosaic Idealize.ShloMosaic.TcCoe
open Idealize.SL Idealize.SL.Sem

variable (m : (ℓ : Loc nD τ sig) → Buf (Elt Ideal) ℓ)

/-- The hidden-state array after the gate region: its array function of the product array after the matmul
    region and of the carried-cell table at the matmul region's entry. -/
theorem res0 (c : Dev nD) :
    (Epi.dat1 (Regs.VV2 m) c).arrAt 2 cfg1.N
      = EpiArray.G2 ((Mm.dat0 (Regs.VV1 m) c).arrAt 3 cfg0.N) (V1 m c (Proc.devRef .tc main_v21)) :=
  (EpiArray.final2 (Regs.VV2 m) c).trans
    (congrArg₂ EpiArray.G2 (Regs.W2_arr m c 3) (Regs.W2_of_ne m c main_v21 (by decide)))

/-- The cell-state array after the gate region, likewise. -/
theorem res1 (c : Dev nD) :
    (Epi.dat1 (Regs.VV2 m) c).arrAt 3 cfg1.N
      = EpiArray.G3 ((Mm.dat0 (Regs.VV1 m) c).arrAt 3 cfg0.N) (V1 m c (Proc.devRef .tc main_v21)) :=
  (EpiArray.final3 (Regs.VV2 m) c).trans
    (congrArg₂ EpiArray.G3 (Regs.W2_arr m c 3) (Regs.W2_of_ne m c main_v21 (by decide)))

end Cert.KernelIdeal.KValue

end
-- ==== Proof.HostPrefixIdeal.lean ====
/-
The matmul's operands as values of the host program

Before the first kernel the host program builds the matmul's three operands from the argument
arrays: the activations `[x | h_full]`, the combined weight and the combined bias.  Each is read
off the host operations as a term over the launch contents of the arguments; the hidden table
`h_full` (itself built by earlier host operations) is left as the buffer that holds it.
-/
import proofs.«146003_j63513976373582_1_alg».proof.Proof.Gen.KernelIdeal.Regions
import proofs.«146003_j63513976373582_1_alg».proof.Proof.LinearIdeal
import Idealize.ShloMosaic.Lib.StableHlo.Run
import Idealize.ShloMosaic.Lib.ValueIdx

noncomputable section

namespace Cert.KernelIdeal.HostPrefix

open Cert.KernelIdeal Cert.KernelIdeal.Gen Idealize.ShloMosaic Idealize.ShloMosaic.TcCoe
open Idealize.ShloMosaic.StableHlo Idealize.SL.Sem

variable (m : (ℓ : Loc nD τ sig) → Buf (Elt Ideal) ℓ) (c : Dev nD)

set_option maxHeartbeats 2000000 in
/-- The combined bias: the two bias arguments end to end. -/
theorem v32_eq :
    (V1 (F := Ideal) m c main_v32 : S5120.Idx → EReal)
      = concatenate S5120 0
          [⟨S3072, (V0 (F := Ideal) m c main_arg7 : S3072.Idx → EReal)⟩,
           ⟨S2048, (V0 (F := Ideal) m c main_arg10 : S2048.Idx → EReal)⟩]
          concatenates_S3072_S2048_S5120_d0 := by
  show StableHlo.after hostOps0 (V0 (F := Ideal) m c) (Proc.devRef .tc main_v32) = _
  after_results_simp
  try rfl

set_option maxHeartbeats 2000000 in
/-- The activations: the input beside the hidden table, converted to the matmul's input format. -/
theorem v34_eq :
    (V1 (F := Ideal) m c main_v34 : S16384x3072.Idx → EReal)
      = truncf (F := Ideal) (φ := .f32) .bf16
          (concatenate S16384x3072 1
            [⟨S16384x1024, (V0 (F := Ideal) m c main_arg0 : S16384x1024.Idx → EReal)⟩,
             ⟨S16384x2048, (V1 (F := Ideal) m c main_v10 : S16384x2048.Idx → EReal)⟩]
            concatenates_S16384x1024_S16384x2048_S16384x3072_d1)
          bitsLt_bf16_f32 := by
  show StableHlo.after hostOps0 (V0 (F := Ideal) m c) (Proc.devRef .tc main_v34)
    = truncf (F := Ideal) (φ := .f32) .bf16
        (concatenate S16384x3072 1
          [⟨S16384x1024, (V0 (F := Ideal) m c main_arg0 : S16384x1024.Idx → EReal)⟩,
           ⟨S16384x2048, StableHlo.after hostOps0 (V0 (F := Ideal) m c) (Proc.devRef .tc main_v10)⟩]
          concatenates_S16384x1024_S16384x2048_S16384x3072_d1)
        bitsLt_bf16_f32
  after_results_simp
  try rfl

set_option maxHeartbeats 2000000 in
/-- The combined weight: the transposed input / output / update weights over each other, beside the
tiled transposed forget weight of the input over the transposed forget weight of the hidden table,
converted to the matmul's input format. -/
theorem v35_eq :
    (V1 (F := Ideal) m c main_v35 : S3072x5120.Idx → EReal)
      = truncf (F := Ideal) (φ := .f32) .bf16
        (concatenate S3072x5120 1
          [⟨S3072x3072, concatenate S3072x3072 0
              [⟨S1024x3072, transpose S1024x3072 [1, 0] (V0 (F := Ideal) m c main_arg5 : S3072x1024.Idx → EReal) transposes_S3072x1024_S1024x3072_1_0⟩,
               ⟨S2048x3072, transpose S2048x3072 [1, 0] (V0 (F := Ideal) m c main_arg6 : S3072x2048.Idx → EReal) transposes_S3072x2048_S2048x3072_1_0⟩]
              concatenates_S1024x3072_S2048x3072_S3072x3072_d0⟩,
           ⟨S3072x2048, concatenate S3072x2048 0
              [⟨S1024x2048, shapeCast S1024x2048
                  (broadcastInDim S1x1024x2x1024 ![0, 1, 2, 3] bcast_S1x1024x1x1024_S1x1024x2x1024_0_1_2_3
                    (shapeCast S1x1024x1x1024
                      (transpose S1024x1024 [1, 0] (V0 (F := Ideal) m c main_arg8 : S1024x1024.Idx → EReal) transposes_S1024x1024_S1024x1024_1_0)
                      shapeCasts_S1024x1024_S1x1024x1x1024))
                  shapeCasts_S1x1024x2x1024_S1024x2048⟩,
               ⟨S2048x2048, transpose S2048x2048 [1, 0] (V0 (F := Ideal) m c main_arg9 : S2048x2048.Idx → EReal) transposes_S2048x2048_S2048x2048_1_0⟩]
              concatenates_S1024x2048_S2048x2048_S3072x2048_d0⟩]
          concatenates_S3072x3072_S3072x2048_S3072x5120_d1)
        bitsLt_bf16_f32 := by
  show StableHlo.after hostOps0 (V0 (F := Ideal) m c) (Proc.devRef .tc main_v35) = _
  after_results_simp
  try rfl

/-! ## The same, with the operands named -/

theorem v34_xh :
    (V1 (F := Ideal) m c main_v34 : S16384x3072.Idx → EReal)
      = Linear.xh (V0 (F := Ideal) m c main_arg0 : S16384x1024.Idx → EReal)
          (V1 (F := Ideal) m c main_v10 : S16384x2048.Idx → EReal) :=
  v34_eq m c

theorem v35_wcomb :
    (V1 (F := Ideal) m c main_v35 : S3072x5120.Idx → EReal)
      = Linear.wcomb (V0 (F := Ideal) m c main_arg5 : S3072x1024.Idx → EReal)
          (V0 (F := Ideal) m c main_arg6 : S3072x2048.Idx → EReal)
          (V0 (F := Ideal) m c main_arg8 : S1024x1024.Idx → EReal)
          (V0 (F := Ideal) m c main_arg9 : S2048x2048.Idx → EReal) :=
  v35_eq m c

theorem v32_bcomb :
    (V1 (F := Ideal) m c main_v32 : S5120.Idx → EReal)
      = Linear.bcomb (V0 (F := Ideal) m c main_arg7 : S3072.Idx → EReal)
          (V0 (F := Ideal) m c main_arg10 : S2048.Idx → EReal) :=
  v32_eq m c

end Cert.KernelIdeal.HostPrefix
-- ==== Proof.MatmulPayIdeal.lean ====
/-
The matmul kernel's stored values read at an index, over the extended reals

The tiled matmul kernel stores three values: the zero splat that starts the accumulator, the
accumulator plus the product of the two loaded tiles, and the accumulator plus the bias row.
Over the extended reals each, read at the entry `(p, q)`, is the expected expression of the
loaded values at their entries: a same-shape cast is the identity, the `[1024] → [1, 1024]` cast
followed by the row broadcast reads the bias at the column, and the matrix product read at an
entry is the accumulator there plus the sum over the contracted coordinate of the products.
-/
import proofs.«146003_j63513976373582_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.MatmulPay

open Cert.KernelIdeal Cert.KernelIdeal.Gen Idealize.ShloMosaic Idealize.ShloMosaic.ValueIdx

/-- The dimension numbers of the kernel's matrix product: rows × contraction times
contraction × columns, no batch axis. -/
local notation "D₀" => dot_S1024x1024_S1024x1024_S1024x1024_1_0_0_1_n_n

/-- The left operand's row coordinate is the output entry's row, whatever the contracted index. -/
theorem lhs_0 (i : S1024x1024.Idx) (c : (D₀).contr.Idx) : ((D₀).lhsIdx i c 0).val = (i 0).val := by
  unfold DotDims.lhsIdx
  rw [dif_neg (show ¬(0 : Fin S1024x1024.rank) ∈ (D₀).lhsBatch by decide),
    dif_pos (show (0 : Fin S1024x1024.rank) ∈ (D₀).lhsNonContracting by decide)]
  rfl

/-- The left operand's column coordinate is the contracted coordinate. -/
theorem lhs_1 (i : S1024x1024.Idx) (c : (D₀).contr.Idx) :
    ((D₀).lhsIdx i c 1).val = (c ⟨0, by decide⟩).val :=
  (D₀).lhsIdx_val_of_single rfl i c

/-- The right operand's row coordinate is the contracted coordinate. -/
theorem rhs_0 (i : S1024x1024.Idx) (c : (D₀).contr.Idx) :
    ((D₀).rhsIdx i c 0).val = (c ⟨0, by decide⟩).val :=
  (D₀).rhsIdx_val_of_single rfl i c

/-- The right operand's column coordinate is the output entry's column. -/
theorem rhs_1 (i : S1024x1024.Idx) (c : (D₀).contr.Idx) : ((D₀).rhsIdx i c 1).val = (i 1).val := by
  unfold DotDims.rhsIdx
  rw [dif_neg (show ¬(1 : Fin S1024x1024.rank) ∈ (D₀).rhsBatch by decide),
    dif_pos (show (1 : Fin S1024x1024.rank) ∈ (D₀).rhsNonContracting by decide)]
  rfl

/-- The left operand's index at output entry `(p, q)` and contracted coordinate `k` is `(p, k)`. -/
theorem lhsIdx_eq (p q k : Fin 1024) :
    (D₀).lhsIdx (ix2 p q) ((contrEquiv1 D₀ 1024 rfl rfl).symm k) = ix2 p k := by
  have hk := contrEquiv1_symm_val D₀ 1024 rfl rfl k
  exact funext fun a => Fin.ext (by
    match a with
    | ⟨0, _⟩ => exact lhs_0 _ _
    | ⟨1, _⟩ => exact (lhs_1 _ _).trans hk)

/-- The right operand's index at output entry `(p, q)` and contracted coordinate `k` is `(k, q)`. -/
theorem rhsIdx_eq (p q k : Fin 1024) :
    (D₀).rhsIdx (ix2 p q) ((contrEquiv1 D₀ 1024 rfl rfl).symm k) = ix2 k q := by
  have hk := contrEquiv1_symm_val D₀ 1024 rfl rfl k
  exact funext fun a => Fin.ext (by
    match a with
    | ⟨0, _⟩ => exact (rhs_0 _ _).trans hk
    | ⟨1, _⟩ => exact rhs_1 _ _)

/-- The matrix product into the zero splat, read at the entry `(p, q)`: the sum over the
contracted coordinate of the products of the entries. -/
theorem matmul_zero_apply (A B : S1024x1024.Idx → EReal) (p q : Fin 1024) :
    FloatOps.matmul (F := Ideal) (φ₁ := .bf16) (φ₂ := .bf16) D₀ none A B
        (constant S1024x1024 .f32 0x00000000#32) (ix2 p q)
      = ∑ k : Fin 1024, A (ix2 p k) * B (ix2 k q) := by
  rw [Ideal.matmul_constant_zero_apply, ← Equiv.sum_comp (contrEquiv1 D₀ 1024 rfl rfl).symm]
  refine Finset.sum_congr rfl fun k _ => ?_
  rw [lhsIdx_eq, rhsIdx_eq]

/-- The value that starts the accumulator is zero everywhere. -/
theorem pay1_apply (p q : Fin 1024) : k0_pay1 (F := Ideal) (ix2 p q) = (0 : EReal) := by
  unfold k0_pay1
  show shapeCast S1024x1024 (broadcast S1024x1024 (Scalar.ofBits (F := Ideal) .f32 0x00000000#32))
    shapeCasts_S1024x1024_S1024x1024 (ix2 p q) = (0 : EReal)
  rw [shapeCast_self]
  exact Ideal.ofBits_zero_f32

/-- The accumulation step: the accumulator at `(p, q)` plus the product of the two tiles there. -/
theorem pay2_apply (v3 : Vec Ideal S1024x1024 .f32) (v4 v6 : Vec Ideal S1024x1024 .bf16) (p q : Fin 1024) :
    k0_pay2 (F := Ideal) v3 v4 v6 (ix2 p q)
      = (v3 (ix2 p q) : EReal) + ∑ k : Fin 1024, (v4 (ix2 p k) : EReal) * (v6 (ix2 k q) : EReal) := by
  unfold k0_pay2
  show shapeCast S1024x1024 (addf (F := Ideal) (φ := .f32) v3
      (matmul D₀ none
        (shapeCast S1024x1024 v4 shapeCasts_S1024x1024_S1024x1024)
        (shapeCast S1024x1024 v6 shapeCasts_S1024x1024_S1024x1024)
        (constant S1024x1024 .f32 0x00000000#32)))
    shapeCasts_S1024x1024_S1024x1024 (ix2 p q) = _
  rw [shapeCast_self, shapeCast_self, shapeCast_self]
  exact congrArg ((v3 (ix2 p q) : EReal) + ·) (matmul_zero_apply v4 v6 p q)

/-- The last step: the accumulator at `(p, q)` plus the bias at column `q`. -/
theorem pay3_apply (v16 : Vec Ideal S1024 .f32) (v20 : Vec Ideal S1024x1024 .f32) (p q : Fin 1024) :
    k0_pay3 (F := Ideal) v16 v20 (ix2 p q) = (v20 (ix2 p q) : EReal) + (v16 (ix1 q) : EReal) := by
  unfold k0_pay3
  show addf (F := Ideal) (φ := .f32) v20
      (broadcastTo S1024x1024
        (shapeCast S1x1024 (shapeCast S1024 v16 shapeCasts_S1024_S1024) shapeCasts_S1024_S1x1024)
        broadcasts_S1x1024_S1024x1024) (ix2 p q) = _
  rw [shapeCast_self]
  refine congrArg ((v20 (ix2 p q) : EReal) + ·) ?_
  refine (broadcastTo_1b_ab_apply _ broadcasts_S1x1024_S1024x1024 p q).trans ?_
  exact shapeCast_a_1a_apply v16 shapeCasts_S1024_S1x1024 (0 : Fin 1) q

end Cert.KernelIdeal.MatmulPay
-- ==== Proof.Mm0EntryIdeal.lean ====
/-
  One entry of the array the tiled matmul leaves, over the extended reals. Entry (r, n) is the bias at n added to
  the products of row r of the left operand with column n of the right operand, the contraction axis of length
  3072 summed as three tiles of 1024 in the order the accumulator takes them: ((0 + first tile) + second tile) +
  third tile. The last contraction step of an output block stores, at entry (p, q) of the block, the bias block at
  q added to the accumulator there, and the accumulator is the three partial products of the loaded 1024 x 1024
  blocks added in order over zero; so when the loaded blocks hold row r and column n over the three tiles, the
  stored entry is entry (r, n) of the array.
-/
import proofs.«146003_j63513976373582_1_alg».proof.Proof.MatmulPayIdeal

set_option maxRecDepth 16384

noncomputable section

namespace Cert.KernelIdeal.MmValue

open Cert.KernelIdeal Cert.KernelIdeal.Gen Cert.KernelIdeal.MatmulPay
open Idealize.ShloMosaic Idealize.ShloMosaic.ValueIdx

/-! ## The value at an entry -/

/-- Entry `(r, n)` of the product with the bias added, the contraction axis of length 3072 summed tile by tile in
    the order the accumulator takes the three tiles. -/
def G0at (a : S16384x3072.Idx → EReal) (b : S3072x5120.Idx → EReal) (bias : S5120.Idx → EReal)
    (r : Fin 16384) (n : Fin 5120) : EReal :=
  (((0 + ∑ k : Fin 1024, a (ix2 r ⟨k, by omega⟩) * b (ix2 ⟨k, by omega⟩ n))
      + ∑ k : Fin 1024, a (ix2 r ⟨k + 1024, by omega⟩) * b (ix2 ⟨k + 1024, by omega⟩ n))
      + ∑ k : Fin 1024, a (ix2 r ⟨k + 2048, by omega⟩) * b (ix2 ⟨k + 2048, by omega⟩ n))
    + bias (ix1 n)

/-- The array the region leaves: at each entry, the row of the left operand against the column of the right
    operand, summed tile by tile, plus the bias at the column. -/
def G0 (a : S16384x3072.Idx → EReal) (b : S3072x5120.Idx → EReal) (bias : S5120.Idx → EReal) :
    S16384x5120.Idx → EReal := fun i => G0at a b bias (i 0) (i 1)

theorem G0_apply (a : S16384x3072.Idx → EReal) (b : S3072x5120.Idx → EReal) (bias : S5120.Idx → EReal)
    (i : S16384x5120.Idx) : G0 a b bias i = G0at a b bias (i 0) (i 1) := rfl

/-- One entry of a stored output block. If the three left blocks hold row `r` of the left operand over the three
    tiles of the contraction axis, the three right blocks column `n` of the right operand over the same tiles, and
    the bias block the bias at `n`, then entry `(p, q)` of what the last step stores is entry `(r, n)` of the
    array. -/
theorem entry_value (a : S16384x3072.Idx → EReal) (b : S3072x5120.Idx → EReal) (bias : S5120.Idx → EReal)
    (A0 A1 A2 B0 B1 B2 : Vec Ideal S1024x1024 .bf16) (C : Vec Ideal S1024 .f32)
    (p q : Fin 1024) (r : Fin 16384) (n : Fin 5120)
    (hA0 : ∀ k : Fin 1024, (A0 (ix2 p k) : EReal) = a (ix2 r ⟨k, by omega⟩))
    (hA1 : ∀ k : Fin 1024, (A1 (ix2 p k) : EReal) = a (ix2 r ⟨k + 1024, by omega⟩))
    (hA2 : ∀ k : Fin 1024, (A2 (ix2 p k) : EReal) = a (ix2 r ⟨k + 2048, by omega⟩))
    (hB0 : ∀ k : Fin 1024, (B0 (ix2 k q) : EReal) = b (ix2 ⟨k, by omega⟩ n))
    (hB1 : ∀ k : Fin 1024, (B1 (ix2 k q) : EReal) = b (ix2 ⟨k + 1024, by omega⟩ n))
    (hB2 : ∀ k : Fin 1024, (B2 (ix2 k q) : EReal) = b (ix2 ⟨k + 2048, by omega⟩ n))
    (hC : (C (ix1 q) : EReal) = bias (ix1 n)) :
    k0_pay3 (F := Ideal) C (k0_pay2 (k0_pay2 (k0_pay2 (k0_pay1 (F := Ideal)) A0 B0) A1 B1) A2 B2) (ix2 p q)
      = G0at a b bias r n := by
  rw [pay3_apply, pay2_apply, pay2_apply, pay2_apply, pay1_apply, hC]
  unfold G0at
  simp only [hA0, hA1, hA2, hB0, hB1, hB2]

end Cert.KernelIdeal.MmValue

end
-- ==== Proof.Mm0PiecesIdeal.lean ====
/-
  What each control case of the matmul body leaves, as terms of the body's arithmetic. The pieces the stores of a
  case leave are each ONE store through the whole 1024 x 1024 buffer at zero offsets, and every load reads a whole
  buffer, so the contents a case leaves are its last store's payload over the loaded blocks: the first contraction
  step leaves the partial product added to the cleared accumulator (the read-back of the clearing store is the
  zero block itself); the middle step the partial product added to what the accumulator held; the last step the
  same in the accumulator, and in the output block that sum with the bias row added.
-/
import proofs.«146003_j63513976373582_1_alg».proof.Proof.Mm0FrameIdeal
import Idealize.ShloMosaic.Lib.Pipeline.Value

set_option maxRecDepth 16384

noncomputable section

namespace Cert.KernelIdeal.Mm

open Cert.KernelIdeal Cert.KernelIdeal.Gen
open Idealize.ShloMosaic Idealize.ShloMosaic.TcCoe Idealize.ShloMosaic.Tactic
open Idealize.SL Idealize.SL.Sem

variable {F : FTy → Type} [FloatOps F]

/-- The zero offsets of a whole-buffer rectangle, as the constant function. -/
theorem zero_off2 : (![0, 0] : Fin 2 → Nat) = fun _ => 0 := funext fun a => by fin_cases a <;> rfl

/-- The zero offset of the bias row's whole-buffer rectangle. -/
theorem zero_off1 : (![0] : Fin 1 → Nat) = fun _ => 0 := funext fun a => by fin_cases a; rfl

set_option maxHeartbeats 1000000 in
/-- The first contraction step: the accumulator is cleared, read back (the zero block) and the first partial product
    added to it. -/
theorem sout0_A_0_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i) (x0 : Vec F S1024x1024 .bf16) (x1 : Vec F S1024x1024 .bf16) (x2 : Vec F S1024 .f32) :
    sout0_A_0 (F := F) c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) zero_off2, View.readCov_unit_zero (S := S1024x1024) _ zero_off2]
  simp only [View.readAt_eq_ld, harg3.read_unread, harg4.read_unread, View.ld_unit_zero (S := S1024x1024) zero_off2]

set_option maxHeartbeats 1000000 in
/-- The middle contraction step: the partial product added to what the accumulator held. -/
theorem sout0_B_0_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i) (x0 : Vec F S1024x1024 .bf16) (x1 : Vec F S1024x1024 .bf16) (x2 : Vec F S1024 .f32) (xs0 : Vec F S1024x1024 .f32) :
    sout0_B_0 (F := F) c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero (S := S1024x1024) zero_off2]
  simp only [View.readAt_eq_ld, harg3.read_unread, harg4.read_unread, harg7.read_unread, View.ld_unit_zero (S := S1024x1024) zero_off2]

set_option maxHeartbeats 1000000 in
/-- The last contraction step, in the accumulator: the partial product added to what it held. -/
theorem sout0_C_0_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i) (x0 : Vec F S1024x1024 .bf16) (x1 : Vec F S1024x1024 .bf16) (x2 : Vec F S1024 .f32) (xs0 : Vec F S1024x1024 .f32) :
    sout0_C_0 (F := F) c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero (S := S1024x1024) zero_off2]
  simp only [View.readAt_eq_ld, harg3.read_unread, harg4.read_unread, harg7.read_unread, View.ld_unit_zero (S := S1024x1024) zero_off2]

set_option maxHeartbeats 1000000 in
/-- The last contraction step, in the output block: the accumulator's new contents, read back, with the bias row
    added. -/
theorem out0_C_3_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i) (x0 : Vec F S1024x1024 .bf16) (x1 : Vec F S1024x1024 .bf16) (x2 : Vec F S1024 .f32) (xs0 : Vec F S1024x1024 .f32) :
    out0_C_3 (F := F) c i arg3 harg3 arg4 harg4 arg5 harg5 arg6 harg6 arg7 harg7 hc0 hc1 x0 x1 x2 xs0 = k0_pay3 x2 (k0_pay2 xs0 x0 x1) := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero (S := S1024x1024) zero_off2, View.readCov_unit_zero (S := S1024x1024) _ zero_off2]
  simp only [View.readAt_eq_ld, harg3.read_unread, harg4.read_unread, harg5.read_unread, harg7.read_unread, View.ld_unit_zero (S := S1024x1024) zero_off2, View.ld_unit_zero (S := S1024) zero_off1]

end Cert.KernelIdeal.Mm

end
-- ==== Proof.Mm0UnrollIdeal.lean ====
/-
  The three contraction steps of one output block of the tiled matmul. The grid runs the contraction coordinate
  fastest, so the three points of one output block are consecutive: a point whose position is 2 mod 3 stores the
  block, the point before it is the middle step and the one before that the first step of the same block. Following
  the accumulator back through these three points: the first step leaves the first partial product over the cleared
  accumulator, the middle step adds the second, and the last step adds the third and stores the sum with the bias
  row added. So the output block at a storing point is that term of the nine operand blocks read at the three
  points.
-/
import proofs.«146003_j63513976373582_1_alg».proof.Proof.Mm0PiecesIdeal

set_option maxRecDepth 16384

noncomputable section

namespace Cert.KernelIdeal.MmValue

open Cert.KernelIdeal Cert.KernelIdeal.Gen Cert.KernelIdeal.Mm
open Idealize.ShloMosaic Idealize.ShloMosaic.TcCoe
open Idealize.SL Idealize.SL.Sem
open Idealize.ShloMosaic.Pipeline (Dat Cfg Window)

section Unroll
variable {F : FTy → Type} [FloatOps F]
variable (V : (c : Dev nD) → (b : Ref sig .tc) → Buf (Elt F) ((c : Thread nD τ).loc b))

/-- The point before `t` (the first point's is itself). -/
def before (t : Fin cfg0.N) : Fin cfg0.N := ⟨t.val - 1, Nat.lt_of_le_of_lt (Nat.sub_le _ _) t.isLt⟩

theorem before_val (t : Fin cfg0.N) : (before t).val = t.val - 1 := rfl

/-- What the accumulator holds when a later point starts is what the point before left. -/
theorem prevAt0_before (c : Dev nD) (t : Fin cfg0.N) (hz : t.val ≠ 0) :
    prevAt0 V c t = (step0 V c (before t) (prevAt0 V c (before t))).2 :=
  (prevAt0_pos V c t hz).trans (congrArg Prod.snd (outsAt0_eq V c (before t)))

/-- A first contraction step leaves the first partial product over the cleared accumulator. -/
theorem acc_first (c : Dev nD) (t : Fin cfg0.N) (prev : Vec F S1024x1024 .f32) (h0 : t.val % 3 = 0) :
    (step0 V c t prev).2 = k0_pay2 (k0_pay1 (F := F)) (iblk0 V c 0 t) (iblk0 V c 1 t) := by
  rw [step0_A V c t prev h0]
  dsimp only
  exact sout0_A_0_eq c (grid0.coords t) (ms0_0 t) (hs0_0 t) (ms0_1 t) (hs0_1 t) (ms0_2 t) (hs0_2 t) (ms0_3 t) (hs0_3 t) scM0_0 (Memref.isWhole_whole _) ((hcond0_0 t).mpr h0) (fun h => absurd ((hcond0_1 t).mp h) (by omega)) (iblk0 V c 0 t) (iblk0 V c 1 t) (iblk0 V c 2 t)

/-- A middle contraction step adds its partial product to what the accumulator held. -/
theorem acc_middle (c : Dev nD) (t : Fin cfg0.N) (prev : Vec F S1024x1024 .f32) (h0 : ¬t.val % 3 = 0) (h1 : ¬t.val % 3 = 2) :
    (step0 V c t prev).2 = k0_pay2 prev (iblk0 V c 0 t) (iblk0 V c 1 t) := by
  rw [step0_B V c t prev h0 h1]
  dsimp only
  exact sout0_B_0_eq c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) prev

/-- A last contraction step stores, into the output block, the accumulator with its partial product and the bias
    row added. -/
theorem out_last (c : Dev nD) (t : Fin cfg0.N) (prev : Vec F S1024x1024 .f32) (h0 : ¬t.val % 3 = 0) (h1 : t.val % 3 = 2) :
    (step0 V c t prev).1 = k0_pay3 (iblk0 V c 2 t) (k0_pay2 prev (iblk0 V c 0 t) (iblk0 V c 1 t)) := by
  rw [step0_C V c t prev h0 h1]
  dsimp only
  exact out0_C_3_eq c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) prev

/-- The output block at a storing point: the three partial products of its block row and block column, added in
    order over the cleared accumulator, and the bias row. -/
theorem after3_last (c : Dev nD) (t : Fin cfg0.N) (h2 : t.val % 3 = 2) :
    (dat0 V c).after 3 t
      = k0_pay3 (iblk0 V c 2 t)
          (k0_pay2
            (k0_pay2
              (k0_pay2 (k0_pay1 (F := F)) (iblk0 V c 0 (before (before t))) (iblk0 V c 1 (before (before t))))
              (iblk0 V c 0 (before t)) (iblk0 V c 1 (before t)))
            (iblk0 V c 0 t) (iblk0 V c 1 t)) := by
  have e1 : (before t).val % 3 = 1 := by rw [before_val]; omega
  have e2 : (before (before t)).val % 3 = 0 := by rw [before_val, before_val]; omega
  rw [after0_3, outsAt0_eq, out_last V c t _ (by omega) h2, prevAt0_before V c t (by omega),
    acc_middle V c (before t) _ (by omega) (by omega), prevAt0_before V c (before t) (by rw [before_val]; omega),
    acc_first V c (before (before t)) _ e2]

end Unroll

end Cert.KernelIdeal.MmValue

end
-- ==== Proof.Mm0BlocksIdeal.lean ====
/- The matmul region's blocks: where each window's block sits at each of the 240 points (the point of grid
   coordinates (i, j, k) is ((i·5 + j)·3 + k)), each input block as rows and columns of its array, and the product
   window's write-backs (at k = 2) covering the product array. -/
import proofs.«146003_j63513976373582_1_alg».proof.Proof.Mm0FrameIdeal
import Idealize.ShloMosaic.Lib.Pipeline.Value
import Idealize.ShloMosaic.Lib.ValueIdx

set_option maxRecDepth 16384

noncomputable section

namespace Cert.KernelIdeal.MmBlocks

open Cert.KernelIdeal Cert.KernelIdeal.Gen Cert.KernelIdeal.Mm
open Idealize.ShloMosaic Idealize.ShloMosaic.TcCoe Idealize.ShloMosaic.ValueIdx
open Idealize.SL Idealize.SL.Sem
open Idealize.ShloMosaic.Pipeline (Dat Cfg Window)

/-! ## The block index maps at each of the 240 points -/

/-- At point `t = (i·5 + j)·3 + k`: the left operand is on block (i, k), the right on (k, j), the bias on (j), the
    product on (i, j). -/
theorem idx_facts0 : ∀ t : Fin cfg0.N,
    win0_0.index t (0 : Fin 2) = t.val / 15 ∧ win0_0.index t (1 : Fin 2) = t.val % 3
    ∧ win0_1.index t (0 : Fin 2) = t.val % 3 ∧ win0_1.index t (1 : Fin 2) = t.val / 3 % 5
    ∧ win0_2.index t (0 : Fin 1) = t.val / 3 % 5
    ∧ win0_3.index t (0 : Fin 2) = t.val / 15 ∧ win0_3.index t (1 : Fin 2) = t.val / 3 % 5 :=
  (by decide +kernel : ∀ t : Fin grid0.N, _)

/-! ## The input blocks as parts of their arrays -/

variable (V : (c : Dev nD) → (b : Ref sig .tc) → Buf (Elt Ideal) ((c : Thread nD τ).loc b))

/-- The left operand's block at point `t`, over the window's block indices. -/
theorem iblk0_0_raw (c : Dev nD) (t : Fin cfg0.N) (x : S1024x1024.Idx) (k : S16384x3072.Idx)
    (hk0 : win0_0.index t (0 : Fin 2) * 1024 + (x 0).val = (k 0).val) (hk1 : win0_0.index t (1 : Fin 2) * 1024 + (x 1).val = (k 1).val) :
    (iblk0 V c 0 t : Vec Ideal S1024x1024 .bf16) x = (V c main_v34 : S16384x3072.Idx → EReal) k := by
  unfold iblk0
  rw [View.read_apply]
  show (V c main_v34 : S16384x3072.Idx → EReal) _ = _
  congr 1
  funext a; apply Fin.ext
  match a with
  | ⟨0, _⟩ => show win0_0.index t (0 : Fin 2) * 1024 + 1 * (x 0).val = (k 0).val; omega
  | ⟨1, _⟩ => show win0_0.index t (1 : Fin 2) * 1024 + 1 * (x 1).val = (k 1).val; omega

/-- The right operand's block at point `t`, over the window's block indices. -/
theorem iblk0_1_raw (c : Dev nD) (t : Fin cfg0.N) (x : S1024x1024.Idx) (k : S3072x5120.Idx)
    (hk0 : win0_1.index t (0 : Fin 2) * 1024 + (x 0).val = (k 0).val) (hk1 : win0_1.index t (1 : Fin 2) * 1024 + (x 1).val = (k 1).val) :
    (iblk0 V c 1 t : Vec Ideal S1024x1024 .bf16) x = (V c main_v35 : S3072x5120.Idx → EReal) k := by
  unfold iblk0
  rw [View.read_apply]
  show (V c main_v35 : S3072x5120.Idx → EReal) _ = _
  congr 1
  funext a; apply Fin.ext
  match a with
  | ⟨0, _⟩ => show win0_1.index t (0 : Fin 2) * 1024 + 1 * (x 0).val = (k 0).val; omega
  | ⟨1, _⟩ => show win0_1.index t (1 : Fin 2) * 1024 + 1 * (x 1).val = (k 1).val; omega

/-- The bias block at point `t`, over the window's block index. -/
theorem iblk0_2_raw (c : Dev nD) (t : Fin cfg0.N) (x : S1024.Idx) (k : S5120.Idx)
    (hk0 : win0_2.index t (0 : Fin 1) * 1024 + (x 0).val = (k 0).val) :
    (iblk0 V c 2 t : Vec Ideal S1024 .f32) x = (V c main_v32 : S5120.Idx → EReal) k := by
  unfold iblk0
  rw [View.read_apply]
  show (V c main_v32 : S5120.Idx → EReal) _ = _
  congr 1
  funext a; apply Fin.ext
  match a with
  | ⟨0, _⟩ => show win0_2.index t (0 : Fin 1) * 1024 + 1 * (x 0).val = (k 0).val; omega

/-- The same three over coordinates. -/
theorem iblk0_0_ix (c : Dev nD) (s : Fin cfg0.N) (p k : Fin 1024) (r : Fin 16384) (kk : Fin 3072)
    (h0 : win0_0.index s (0 : Fin 2) * 1024 + p.val = r.val) (h1 : win0_0.index s (1 : Fin 2) * 1024 + k.val = kk.val) :
    (iblk0 V c 0 s : Vec Ideal S1024x1024 .bf16) (ix2 p k) = (V c main_v34 : S16384x3072.Idx → EReal) (ix2 r kk) :=
  iblk0_0_raw V c s (ix2 p k) (ix2 r kk) h0 h1
theorem iblk0_1_ix (c : Dev nD) (s : Fin cfg0.N) (k q : Fin 1024) (kk : Fin 3072) (n : Fin 5120)
    (h0 : win0_1.index s (0 : Fin 2) * 1024 + k.val = kk.val) (h1 : win0_1.index s (1 : Fin 2) * 1024 + q.val = n.val) :
    (iblk0 V c 1 s : Vec Ideal S1024x1024 .bf16) (ix2 k q) = (V c main_v35 : S3072x5120.Idx → EReal) (ix2 kk n) :=
  iblk0_1_raw V c s (ix2 k q) (ix2 kk n) h0 h1
theorem iblk0_2_ix (c : Dev nD) (s : Fin cfg0.N) (q : Fin 1024) (n : Fin 5120)
    (h0 : win0_2.index s (0 : Fin 1) * 1024 + q.val = n.val) :
    (iblk0 V c 2 s : Vec Ideal S1024 .f32) (ix1 q) = (V c main_v32 : S5120.Idx → EReal) (ix1 n) :=
  iblk0_2_raw V c s (ix1 q) (ix1 n) h0

/-- The left operand's block at point `t` is rows `(t / 15)·1024 …`, columns `(t % 3)·1024 …` of its array. -/
theorem iblk0_0_apply (c : Dev nD) (t : Fin cfg0.N) (x : S1024x1024.Idx) (k : S16384x3072.Idx)
    (hk0 : (k 0).val = (t.val / 15) * 1024 + (x 0).val) (hk1 : (k 1).val = (t.val % 3) * 1024 + (x 1).val) :
    (iblk0 V c 0 t : Vec Ideal S1024x1024 .bf16) x = (V c main_v34 : S16384x3072.Idx → EReal) k := by
  obtain ⟨e0, e1, -⟩ := idx_facts0 t
  exact iblk0_0_raw V c t x k (by omega) (by omega)

/-- The right operand's block at point `t` is rows `(t % 3)·1024 …`, columns `(t / 3 % 5)·1024 …` of its array. -/
theorem iblk0_1_apply (c : Dev nD) (t : Fin cfg0.N) (x : S1024x1024.Idx) (k : S3072x5120.Idx)
    (hk0 : (k 0).val = (t.val % 3) * 1024 + (x 0).val) (hk1 : (k 1).val = (t.val / 3 % 5) * 1024 + (x 1).val) :
    (iblk0 V c 1 t : Vec Ideal S1024x1024 .bf16) x = (V c main_v35 : S3072x5120.Idx → EReal) k := by
  obtain ⟨-, -, e0, e1, -⟩ := idx_facts0 t
  exact iblk0_1_raw V c t x k (by omega) (by omega)

/-- The bias block at point `t` is entries `(t / 3 % 5)·1024 …` of its array. -/
theorem iblk0_2_apply (c : Dev nD) (t : Fin cfg0.N) (x : S1024.Idx) (k : S5120.Idx)
    (hk0 : (k 0).val = (t.val / 3 % 5) * 1024 + (x 0).val) :
    (iblk0 V c 2 t : Vec Ideal S1024 .f32) x = (V c main_v32 : S5120.Idx → EReal) k := by
  obtain ⟨-, -, -, -, e0, -⟩ := idx_facts0 t
  exact iblk0_2_raw V c t x k (by omega)

/-! ## The product window's blocks -/

/-- The element of the product array under index `y` of point `t`'s block: its row and its column. -/
theorem blk3_emb0 (t : Fin cfg0.N) (y : S1024x1024.Idx) :
    (((((cfg0.win 3).blk t).view.emb y : S16384x5120.Idx)) 0).val = (t.val / 15) * 1024 + (y 0).val := by
  obtain ⟨-, -, -, -, -, e0, e1⟩ := idx_facts0 t
  show win0_3.index t (0 : Fin 2) * 1024 + 1 * (y 0).val = _; omega
theorem blk3_emb1 (t : Fin cfg0.N) (y : S1024x1024.Idx) :
    (((((cfg0.win 3).blk t).view.emb y : S16384x5120.Idx)) 1).val = (t.val / 3 % 5) * 1024 + (y 1).val := by
  obtain ⟨-, -, -, -, -, e0, e1⟩ := idx_facts0 t
  show win0_3.index t (1 : Fin 2) * 1024 + 1 * (y 1).val = _; omega

/-- An index of the product array is in point `t`'s block iff each coordinate is in the block's range. -/
theorem mem_blk3 (t : Fin cfg0.N) (i : S16384x5120.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v36).slice (win0_3.rect t)).set ↔ _
  rw [View.set_slice_whole, Rect.mem_set_unit]
  exact Iff.rfl

/-- Every element of the product array is in the block of a point that writes it back: row `r`, column `n` in
    that of the point `((r / 1024)·5 + n / 1024)·3 + 2`. -/
theorem cover3 (i : S16384x5120.Idx) : ∃ t : Fin cfg0.N, (cfg0.win 3).flush t = true ∧ i ∈ ((cfg0.win 3).blk t).view.set := by
  have hN : cfg0.N = 240 := N_0
  have hi0 : (i 0).val < 16384 := (i 0).isLt
  have hi1 : (i 1).val < 5120 := (i 1).isLt
  let t : Fin cfg0.N := ⟨((i 0).val / 1024 * 5 + (i 1).val / 1024) * 3 + 2, by omega⟩
  have ht : t.val = ((i 0).val / 1024 * 5 + (i 1).val / 1024) * 3 + 2 := rfl
  obtain ⟨-, -, -, -, -, e0, e1⟩ := idx_facts0 t
  refine ⟨t, (flush0_3 t).mpr (by omega), ?_⟩
  rw [mem_blk3]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

end Cert.KernelIdeal.MmBlocks

end
-- ==== Proof.Mm0ValueIdeal.lean ====
/- The matmul region's product array, over the extended reals. The grid is 16 × 5 × 3: block row i of the left
   operand (1024 rows), block column j of the right operand (1024 columns), contraction tile k (1024 of the 3072
   contracted indices); the accumulator is zeroed at k = 0, gains one tile's partial products at each k, and at k = 2
   the bias is added and the block written back. So entry (r, n) of the product array is
   ((0 + Σ tile 0) + Σ tile 1) + Σ tile 2, plus the bias at n, the three sums over the three tiles of row r of the left
   operand against column n of the right: it depends on row r, column n and bias entry n only, every block written
   back is the restriction of that ONE function, and the 16 × 5 blocks written back at k = 2 cover the array. -/
import proofs.«146003_j63513976373582_1_alg».proof.Proof.Mm0EntryIdeal
import proofs.«146003_j63513976373582_1_alg».proof.Proof.Mm0UnrollIdeal
import proofs.«146003_j63513976373582_1_alg».proof.Proof.Mm0BlocksIdeal
import Idealize.ShloMosaic.Lib.Pipeline.Value
import Idealize.ShloMosaic.Lib.ValueIdx

set_option maxRecDepth 16384

noncomputable section

namespace Cert.KernelIdeal.MmValue

open Cert.KernelIdeal Cert.KernelIdeal.Gen Cert.KernelIdeal.Mm Cert.KernelIdeal.MmBlocks
open Idealize.ShloMosaic Idealize.ShloMosaic.TcCoe Idealize.ShloMosaic.ValueIdx
open Idealize.SL Idealize.SL.Sem
open Idealize.ShloMosaic.Pipeline (Dat Cfg Window)

/-! ## One block -/

/-- When the three pairs of operand blocks are the three tiles of block row `bi` of `a` and of block column `bj` of
    `b`, and the bias block is block `bj` of the bias, the value stored at a block index is the array function
    at the index `1024·bi` rows down and `1024·bj` columns right. -/
theorem block_value (a : S16384x3072.Idx → EReal) (b : S3072x5120.Idx → EReal) (bias : S5120.Idx → EReal)
    (A0 A1 A2 B0 B1 B2 : Vec Ideal S1024x1024 .bf16) (C : Vec Ideal S1024 .f32) (bi bj : ℕ)
    (hA0 : ∀ (x : S1024x1024.Idx) (k : S16384x3072.Idx), (k 0).val = bi * 1024 + (x 0).val → (k 1).val = (x 1).val → A0 x = a k)
    (hA1 : ∀ (x : S1024x1024.Idx) (k : S16384x3072.Idx), (k 0).val = bi * 1024 + (x 0).val → (k 1).val = (x 1).val + 1024 → A1 x = a k)
    (hA2 : ∀ (x : S1024x1024.Idx) (k : S16384x3072.Idx), (k 0).val = bi * 1024 + (x 0).val → (k 1).val = (x 1).val + 2048 → A2 x = a k)
    (hB0 : ∀ (x : S1024x1024.Idx) (k : S3072x5120.Idx), (k 0).val = (x 0).val → (k 1).val = bj * 1024 + (x 1).val → B0 x = b k)
    (hB1 : ∀ (x : S1024x1024.Idx) (k : S3072x5120.Idx), (k 0).val = (x 0).val + 1024 → (k 1).val = bj * 1024 + (x 1).val → B1 x = b k)
    (hB2 : ∀ (x : S1024x1024.Idx) (k : S3072x5120.Idx), (k 0).val = (x 0).val + 2048 → (k 1).val = bj * 1024 + (x 1).val → B2 x = b k)
    (hC : ∀ (x : S1024.Idx) (k : S5120.Idx), (k 0).val = bj * 1024 + (x 0).val → C x = bias k)
    (j : S1024x1024.Idx) (i : S16384x5120.Idx) (hi0 : (i 0).val = bi * 1024 + (j 0).val) (hi1 : (i 1).val = bj * 1024 + (j 1).val) :
    k0_pay3 (F := Ideal) C (k0_pay2 (k0_pay2 (k0_pay2 (k0_pay1 (F := Ideal)) A0 B0) A1 B1) A2 B2) j = G0 a b bias i := by
  obtain ⟨p, q, rfl⟩ : ∃ (p q : Fin 1024), j = ix2 p q := ⟨j 0, j 1, eq_ix2 j⟩
  obtain ⟨r, n, rfl⟩ : ∃ (r : Fin 16384) (n : Fin 5120), i = ix2 r n := ⟨i 0, i 1, eq_ix2 i⟩
  have hr : r.val = bi * 1024 + p.val := hi0
  have hn : n.val = bj * 1024 + q.val := hi1
  rw [G0_apply]
  exact entry_value a b bias A0 A1 A2 B0 B1 B2 C p q r n
    (fun k => hA0 (ix2 p k) (ix2 r ⟨k.val, by have := k.isLt; omega⟩) hr rfl)
    (fun k => hA1 (ix2 p k) (ix2 r ⟨k.val + 1024, by have := k.isLt; omega⟩) hr rfl)
    (fun k => hA2 (ix2 p k) (ix2 r ⟨k.val + 2048, by have := k.isLt; omega⟩) hr rfl)
    (fun k => hB0 (ix2 k q) (ix2 ⟨k.val, by have := k.isLt; omega⟩ n) rfl hn)
    (fun k => hB1 (ix2 k q) (ix2 ⟨k.val + 1024, by have := k.isLt; omega⟩ n) rfl hn)
    (fun k => hB2 (ix2 k q) (ix2 ⟨k.val + 2048, by have := k.isLt; omega⟩ n) rfl hn)
    (hC (ix1 q) (ix1 n) hn)

/-! ## What each flushing point writes back -/

variable (V : (c : Dev nD) → (b : Ref sig .tc) → Buf (Elt Ideal) ((c : Thread nD τ).loc b))

/-- A point `t` on the last contraction step writes back block `t` of the product function of the three arrays: the
    three steps `t - 2`, `t - 1`, `t` are on the same block row of the left operand and block column of the right,
    at contraction tiles 0, 1, 2. -/
theorem flushed3_eq (c : Dev nD) (t : Fin cfg0.N) (hf : (cfg0.win 3).flush t = true) :
    (dat0 V c).flushed 3 t = ((cfg0.win 3).blk t).view.read (Elt Ideal) (G0 (V c main_v34) (V c main_v35) (V c main_v32)) := by
  have h2 : t.val % 3 = 2 := (flush0_3 t).mp hf
  have hb1 : (before t).val = t.val - 1 := rfl
  have hb2 : (before (before t)).val = t.val - 1 - 1 := rfl
  show (cfg0.win 3).cut (grid0.coords t) ((dat0 V c).after 3 t) = _
  rw [after3_last V c t h2]
  funext j
  show k0_pay3 (F := Ideal) (iblk0 V c 2 t) (k0_pay2 (k0_pay2 (k0_pay2 (k0_pay1 (F := Ideal)) (iblk0 V c 0 (before (before t))) (iblk0 V c 1 (before (before t)))) (iblk0 V c 0 (before t)) (iblk0 V c 1 (before t))) (iblk0 V c 0 t) (iblk0 V c 1 t)) j
      = G0 (V c main_v34) (V c main_v35) (V c main_v32) (((cfg0.win 3).blk t).view.emb j)
  refine block_value _ _ _ _ _ _ _ _ _ _ (t.val / 15) (t.val / 3 % 5)
    (fun x k h0 h1 => iblk0_0_apply V c (before (before t)) x k (by omega) (by omega))
    (fun x k h0 h1 => iblk0_0_apply V c (before t) x k (by omega) (by omega))
    (fun x k h0 h1 => iblk0_0_apply V c t x k (by omega) (by omega))
    (fun x k h0 h1 => iblk0_1_apply V c (before (before t)) x k (by omega) (by omega))
    (fun x k h0 h1 => iblk0_1_apply V c (before t) x k (by omega) (by omega))
    (fun x k h0 h1 => iblk0_1_apply V c t x k (by omega) (by omega))
    (fun x k h0 => iblk0_2_apply V c t x k h0)
    j _ (blk3_emb0 t j) (blk3_emb1 t j)

/-! ## The product array after the region -/

/-- The product array after the region's last point is the product function of the three arrays as the region found
    them: every index lies in the block of a point on the last contraction step. -/
theorem final3 (c : Dev nD) :
    (Mm.dat0 (F := Ideal) V c).arrAt 3 cfg0.N = G0 (V c main_v34) (V c main_v35) (V c main_v32) :=
  (dat0 V c).arrAt_eq_of_cover 3 (G0 (V c main_v34) (V c main_v35) (V c main_v32)) (fun t hf => flushed3_eq V c t hf) (fun i => cover3 i)

end Cert.KernelIdeal.MmValue

end
-- ==== Proof.KernelSpecIdeal.lean ====
/-
  The kernel's program computes the cell of `Spec.lean`: the parts joined.

  What the program's run leaves in its two result buffers is what the gate region's pipeline leaves in its two output
  arrays. Those are the gate functions of the wide pre-activation array the first region leaves and of the cell slot
  table; the wide array is, entry by entry, the three tile sums and the bias of the operands the host prefix builds —
  the activations `[x | h]`, the combined weight, the combined bias — and the two slot tables are the reference's
  stages of the same arguments. So the two results are the specification's new hidden and new cell states of the
  launch contents.
-/
import proofs.«146003_j63513976373582_1_alg».proof.Proof.RegionsIdeal
import proofs.«146003_j63513976373582_1_alg».proof.Proof.SlotTablesIdeal
import proofs.«146003_j63513976373582_1_alg».proof.Proof.TiledSpecIdeal
import proofs.«146003_j63513976373582_1_alg».proof.Proof.KernelValueIdeal
import proofs.«146003_j63513976373582_1_alg».proof.Proof.HostPrefixIdeal
import proofs.«146003_j63513976373582_1_alg».proof.Proof.Mm0ValueIdeal

noncomputable section

namespace Cert.KernelIdeal.KSpec

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (c : Dev nD)

set_option backward.isDefEq.respectTransparency.types false in
/-- The two output arrays of the gate region are the specification's arrays, given: the gate region's two outputs as the
    gate functions of the first region's output and the cell table; the first region's output `A0` entry by entry as the
    accumulated tile sums of the three operand buffers; and the three operand buffers as built from the arguments
    and the hidden slot table. -/
theorem results_spec_of (A0 : S16384x5120.Idx → EReal)
    (hres0 : (Epi.dat1 (Regs.VV2 m) c).arrAt 2 cfg1.N = EpiArray.G2 A0 (V1 m c (Proc.devRef .tc main_v21)))
    (hres1 : (Epi.dat1 (Regs.VV2 m) c).arrAt 3 cfg1.N = EpiArray.G3 A0 (V1 m c (Proc.devRef .tc main_v21)))
    (hA0 : ∀ (r : Fin 16384) (col : Fin 5120),
      A0 (ix2 r col) = tiled (V1 m c (Proc.devRef .tc main_v34)) (V1 m c (Proc.devRef .tc main_v35)) (V1 m c (Proc.devRef .tc main_v32)) r col)
    (h34 : (V1 m c (Proc.devRef .tc main_v34)) = Linear.xh (m ((c.tc : Thread nD τ).loc main_arg0)) (V1 m c (Proc.devRef .tc main_v10)))
    (h35 : (V1 m c (Proc.devRef .tc main_v35)) = Linear.wcomb (m ((c.tc : Thread nD τ).loc main_arg5)) (m ((c.tc : Thread nD τ).loc main_arg6)) (m ((c.tc : Thread nD τ).loc main_arg8)) (m ((c.tc : Thread nD τ).loc main_arg9)))
    (h32 : (V1 m c (Proc.devRef .tc main_v32)) = Linear.bcomb (m ((c.tc : Thread nD τ).loc main_arg7)) (m ((c.tc : Thread nD τ).loc main_arg10))) :
    (Epi.dat1 (Regs.VV2 m) c).arrAt 2 cfg1.N = Cert.Spec.hNewArr (m ((c.tc : Thread nD τ).loc main_arg0)) (Cert.ReferenceIdeal.Read.val_main_v10 (F := Ideal) (m ((c.tc : Thread nD τ).loc main_arg1)) (m ((c.tc : Thread nD τ).loc main_arg3)) (m ((c.tc : Thread nD τ).loc main_arg12))) (Cert.ReferenceIdeal.Read.val_main_v21 (F := Ideal) (m ((c.tc : Thread nD τ).loc main_arg2)) (m ((c.tc : Thread nD τ).loc main_arg4)) (m ((c.tc : Thread nD τ).loc main_arg12))) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    ∧ (Epi.dat1 (Regs.VV2 m) c).arrAt 3 cfg1.N = Cert.Spec.cNewArr (m ((c.tc : Thread nD τ).loc main_arg0)) (Cert.ReferenceIdeal.Read.val_main_v10 (F := Ideal) (m ((c.tc : Thread nD τ).loc main_arg1)) (m ((c.tc : Thread nD τ).loc main_arg3)) (m ((c.tc : Thread nD τ).loc main_arg12))) (Cert.ReferenceIdeal.Read.val_main_v21 (F := Ideal) (m ((c.tc : Thread nD τ).loc main_arg2)) (m ((c.tc : Thread nD τ).loc main_arg4)) (m ((c.tc : Thread nD τ).loc main_arg12))) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  have e34 : (V1 m c (Proc.devRef .tc main_v34)) = Linear.xh (m ((c.tc : Thread nD τ).loc main_arg0)) (Cert.ReferenceIdeal.Read.val_main_v10 (F := Ideal) (m ((c.tc : Thread nD τ).loc main_arg1)) (m ((c.tc : Thread nD τ).loc main_arg3)) (m ((c.tc : Thread nD τ).loc main_arg12))) :=
    h34.trans (congrArg (Linear.xh (m ((c.tc : Thread nD τ).loc main_arg0))) (Slots.hf_eq m c))
  have hA : ∀ (r : Fin 16384) (col : Fin 5120),
      A0 (ix2 r col) = tiled (Linear.xh (m ((c.tc : Thread nD τ).loc main_arg0)) (Cert.ReferenceIdeal.Read.val_main_v10 (F := Ideal) (m ((c.tc : Thread nD τ).loc main_arg1)) (m ((c.tc : Thread nD τ).loc main_arg3)) (m ((c.tc : Thread nD τ).loc main_arg12))))
        (Linear.wcomb (m ((c.tc : Thread nD τ).loc main_arg5)) (m ((c.tc : Thread nD τ).loc main_arg6)) (m ((c.tc : Thread nD τ).loc main_arg8)) (m ((c.tc : Thread nD τ).loc main_arg9)))
        (Linear.bcomb (m ((c.tc : Thread nD τ).loc main_arg7)) (m ((c.tc : Thread nD τ).loc main_arg10))) r col := by
    intro r col
    rw [hA0 r col, e34, h35, h32]
  have hs := arrays_spec (m ((c.tc : Thread nD τ).loc main_arg0)) (Cert.ReferenceIdeal.Read.val_main_v10 (F := Ideal) (m ((c.tc : Thread nD τ).loc main_arg1)) (m ((c.tc : Thread nD τ).loc main_arg3)) (m ((c.tc : Thread nD τ).loc main_arg12))) (Cert.ReferenceIdeal.Read.val_main_v21 (F := Ideal) (m ((c.tc : Thread nD τ).loc main_arg2)) (m ((c.tc : Thread nD τ).loc main_arg4)) (m ((c.tc : Thread nD τ).loc main_arg12))) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) A0 (V1 m c (Proc.devRef .tc main_v21)) hA (Slots.cf_eq m c)
  exact ⟨hres0.trans hs.1, hres1.trans hs.2⟩

set_option backward.isDefEq.respectTransparency.types false in
/-- The same with everything but the first region's output supplied: it is enough that the first region leaves an array
    `A0` which is, entry by entry, the accumulated tile sums of the three operand buffers. -/
theorem results_spec_of_product (A0 : S16384x5120.Idx → EReal)
    (hfinal3 : ((Mm.dat0 (Regs.VV1 m) c).arrAt 3 cfg0.N : S16384x5120.Idx → EReal) = A0)
    (hA0 : ∀ (r : Fin 16384) (col : Fin 5120),
      A0 (ix2 r col) = tiled (V1 m c (Proc.devRef .tc main_v34)) (V1 m c (Proc.devRef .tc main_v35)) (V1 m c (Proc.devRef .tc main_v32)) r col) :
    (Epi.dat1 (Regs.VV2 m) c).arrAt 2 cfg1.N = Cert.Spec.hNewArr (m ((c.tc : Thread nD τ).loc main_arg0)) (Cert.ReferenceIdeal.Read.val_main_v10 (F := Ideal) (m ((c.tc : Thread nD τ).loc main_arg1)) (m ((c.tc : Thread nD τ).loc main_arg3)) (m ((c.tc : Thread nD τ).loc main_arg12))) (Cert.ReferenceIdeal.Read.val_main_v21 (F := Ideal) (m ((c.tc : Thread nD τ).loc main_arg2)) (m ((c.tc : Thread nD τ).loc main_arg4)) (m ((c.tc : Thread nD τ).loc main_arg12))) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    ∧ (Epi.dat1 (Regs.VV2 m) c).arrAt 3 cfg1.N = Cert.Spec.cNewArr (m ((c.tc : Thread nD τ).loc main_arg0)) (Cert.ReferenceIdeal.Read.val_main_v10 (F := Ideal) (m ((c.tc : Thread nD τ).loc main_arg1)) (m ((c.tc : Thread nD τ).loc main_arg3)) (m ((c.tc : Thread nD τ).loc main_arg12))) (Cert.ReferenceIdeal.Read.val_main_v21 (F := Ideal) (m ((c.tc : Thread nD τ).loc main_arg2)) (m ((c.tc : Thread nD τ).loc main_arg4)) (m ((c.tc : Thread nD τ).loc main_arg12))) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  results_spec_of m c A0
    ((KValue.res0 m c).trans (congrArg (fun A => EpiArray.G2 A (V1 m c (Proc.devRef .tc main_v21))) hfinal3))
    ((KValue.res1 m c).trans (congrArg (fun A => EpiArray.G3 A (V1 m c (Proc.devRef .tc main_v21))) hfinal3))
    hA0 (HostPrefix.v34_xh m c) (HostPrefix.v35_wcomb m c) (HostPrefix.v32_bcomb m c)

set_option backward.isDefEq.respectTransparency.types false in
/-- The program's run with its two results stated by the specification, given the equation of `results_spec_of` on every
    core: from any memory with zero counters every weakly fair execution terminates with the new hidden state and the
    new cell state at the specification's arrays of the launch contents, and the arguments unchanged. -/
theorem run_spec_kernel_of (ρ : Dev nD → PrngReg)
    (hres : ∀ c : Dev nD,
      (Epi.dat1 (Regs.VV2 m) c).arrAt 2 cfg1.N = Cert.Spec.hNewArr (m ((c.tc : Thread nD τ).loc main_arg0)) (Cert.ReferenceIdeal.Read.val_main_v10 (F := Ideal) (m ((c.tc : Thread nD τ).loc main_arg1)) (m ((c.tc : Thread nD τ).loc main_arg3)) (m ((c.tc : Thread nD τ).loc main_arg12))) (Cert.ReferenceIdeal.Read.val_main_v21 (F := Ideal) (m ((c.tc : Thread nD τ).loc main_arg2)) (m ((c.tc : Thread nD τ).loc main_arg4)) (m ((c.tc : Thread nD τ).loc main_arg12))) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ (Epi.dat1 (Regs.VV2 m) c).arrAt 3 cfg1.N = Cert.Spec.cNewArr (m ((c.tc : Thread nD τ).loc main_arg0)) (Cert.ReferenceIdeal.Read.val_main_v10 (F := Ideal) (m ((c.tc : Thread nD τ).loc main_arg1)) (m ((c.tc : Thread nD τ).loc main_arg3)) (m ((c.tc : Thread nD τ).loc main_arg12))) (Cert.ReferenceIdeal.Read.val_main_v21 (F := Ideal) (m ((c.tc : Thread nD τ).loc main_arg2)) (m ((c.tc : Thread nD τ).loc main_arg4)) (m ((c.tc : Thread nD τ).loc main_arg12))) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) :
    θ_run (defs (F := Ideal)) (onTc (τ := τ) (main (F := Ideal))) ⟨m, fun _ => 0, ρ⟩ fun r => ∀ c : Dev nD,
      r.2.mem ((c.tc : Thread nD τ).loc main_v37_0) = Cert.Spec.hNewArr (m ((c.tc : Thread nD τ).loc main_arg0)) (Cert.ReferenceIdeal.Read.val_main_v10 (F := Ideal) (m ((c.tc : Thread nD τ).loc main_arg1)) (m ((c.tc : Thread nD τ).loc main_arg3)) (m ((c.tc : Thread nD τ).loc main_arg12))) (Cert.ReferenceIdeal.Read.val_main_v21 (F := Ideal) (m ((c.tc : Thread nD τ).loc main_arg2)) (m ((c.tc : Thread nD τ).loc main_arg4)) (m ((c.tc : Thread nD τ).loc main_arg12))) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v37_1) = Cert.Spec.cNewArr (m ((c.tc : Thread nD τ).loc main_arg0)) (Cert.ReferenceIdeal.Read.val_main_v10 (F := Ideal) (m ((c.tc : Thread nD τ).loc main_arg1)) (m ((c.tc : Thread nD τ).loc main_arg3)) (m ((c.tc : Thread nD τ).loc main_arg12))) (Cert.ReferenceIdeal.Read.val_main_v21 (F := Ideal) (m ((c.tc : Thread nD τ).loc main_arg2)) (m ((c.tc : Thread nD τ).loc main_arg4)) (m ((c.tc : Thread nD τ).loc main_arg12))) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c).1.trans (hres c).1, (h c).2.1.trans (hres c).2, (h c).2.2⟩)
    (Regs.run_all m ρ)

set_option backward.isDefEq.respectTransparency.types false in
/-- The two output arrays of the gate region are the specification's new hidden and new cell states of the launch
    contents: the first region's output is the tile-by-tile product array, whose entries are the accumulated tile sums
    as written. -/
theorem results_spec :
    (Epi.dat1 (Regs.VV2 m) c).arrAt 2 cfg1.N = Cert.Spec.hNewArr (m ((c.tc : Thread nD τ).loc main_arg0)) (Cert.ReferenceIdeal.Read.val_main_v10 (F := Ideal) (m ((c.tc : Thread nD τ).loc main_arg1)) (m ((c.tc : Thread nD τ).loc main_arg3)) (m ((c.tc : Thread nD τ).loc main_arg12))) (Cert.ReferenceIdeal.Read.val_main_v21 (F := Ideal) (m ((c.tc : Thread nD τ).loc main_arg2)) (m ((c.tc : Thread nD τ).loc main_arg4)) (m ((c.tc : Thread nD τ).loc main_arg12))) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    ∧ (Epi.dat1 (Regs.VV2 m) c).arrAt 3 cfg1.N = Cert.Spec.cNewArr (m ((c.tc : Thread nD τ).loc main_arg0)) (Cert.ReferenceIdeal.Read.val_main_v10 (F := Ideal) (m ((c.tc : Thread nD τ).loc main_arg1)) (m ((c.tc : Thread nD τ).loc main_arg3)) (m ((c.tc : Thread nD τ).loc main_arg12))) (Cert.ReferenceIdeal.Read.val_main_v21 (F := Ideal) (m ((c.tc : Thread nD τ).loc main_arg2)) (m ((c.tc : Thread nD τ).loc main_arg4)) (m ((c.tc : Thread nD τ).loc main_arg12))) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  results_spec_of_product m c
    (MmValue.G0 (Regs.VV1 m c main_v34) (Regs.VV1 m c main_v35) (Regs.VV1 m c main_v32))
    (MmValue.final3 (Regs.VV1 m) c) (fun _ _ => rfl)

set_option backward.isDefEq.respectTransparency.types false in
/-- The program's run with its two results stated by the specification: from any memory with zero counters every weakly
    fair execution terminates with the new hidden state and the new cell state at the specification's arrays of the
    launch contents, and the arguments unchanged. -/
theorem run_spec_kernel (ρ : Dev nD → PrngReg) :
    θ_run (defs (F := Ideal)) (onTc (τ := τ) (main (F := Ideal))) ⟨m, fun _ => 0, ρ⟩ fun r => ∀ c : Dev nD,
      r.2.mem ((c.tc : Thread nD τ).loc main_v37_0) = Cert.Spec.hNewArr (m ((c.tc : Thread nD τ).loc main_arg0)) (Cert.ReferenceIdeal.Read.val_main_v10 (F := Ideal) (m ((c.tc : Thread nD τ).loc main_arg1)) (m ((c.tc : Thread nD τ).loc main_arg3)) (m ((c.tc : Thread nD τ).loc main_arg12))) (Cert.ReferenceIdeal.Read.val_main_v21 (F := Ideal) (m ((c.tc : Thread nD τ).loc main_arg2)) (m ((c.tc : Thread nD τ).loc main_arg4)) (m ((c.tc : Thread nD τ).loc main_arg12))) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v37_1) = Cert.Spec.cNewArr (m ((c.tc : Thread nD τ).loc main_arg0)) (Cert.ReferenceIdeal.Read.val_main_v10 (F := Ideal) (m ((c.tc : Thread nD τ).loc main_arg1)) (m ((c.tc : Thread nD τ).loc main_arg3)) (m ((c.tc : Thread nD τ).loc main_arg12))) (Cert.ReferenceIdeal.Read.val_main_v21 (F := Ideal) (m ((c.tc : Thread nD τ).loc main_arg2)) (m ((c.tc : Thread nD τ).loc main_arg4)) (m ((c.tc : Thread nD τ).loc main_arg12))) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  run_spec_kernel_of m ρ (fun c => results_spec m c)

end Cert.KernelIdeal.KSpec

end
-- ==== Proof.lean ====
/-
  An N-ary Tree-LSTM cell on 16384 nodes with two child slots each, hidden size 1024. The kernel program lays the
  inputs and the four weight matrices out as ONE product: the rows [x | h_full] (16384 x 3072) against the stacked
  weights (3072 x 5120), whose first 3072 columns are the input/output/update gate projections and whose last 2048
  columns the two children's forget-gate projections (the input-to-forget weights repeated for both children), plus
  the joined bias row. A first tiled region computes that product, summing the three blocks of the contraction axis
  in an accumulator it carries from one grid point to the next; a second region applies the gates row block by row
  block: c_new = sigmoid(i) * tanh(u) + sum over the two children of sigmoid(f_child) * c_child, and
  h_new = sigmoid(o) * tanh(c_new). The reference computes the four projections as separate products and adds them.

  Over the extended reals the two agree entry by entry, for every input: a sum over the joined contraction axis of
  3072 terms is the sum over its first 1024 terms plus the sum over the other 2048, in any grouping (addition of
  extended reals is commutative and associative without any finiteness); a product against a weight matrix repeated
  side by side is the product repeated; the logistic function is 1 / (1 + exp(-x)) at every extended real; a change
  of float format is the identity. Both programs build the child slot tables h_full and c_full by the same host
  operations, so these enter as the same arrays on both sides and are never opened.

  The modules: Spec (the cell as a function of the arrays, index by index, in the reference's grouping); RefSpec (the
  reference's run ends at Spec); Mm0* and EpiFrame* (each region's body at every grid point, and what its pipeline
  leaves), Regions* (the whole run of the kernel program, at the word level and over the extended reals); Mm0Value,
  EpiArray, HostPrefix, Linear, EpiSpec, SlotTables, KernelSpec (the kernel's two results are Spec of its
  arguments); here the five claims are put together.
-/
import proofs.«146003_j63513976373582_1_alg».proof.Defs
import proofs.«146003_j63513976373582_1_alg».proof.Proof.Gen.Kernel
import proofs.«146003_j63513976373582_1_alg».proof.Proof.Gen.KernelIdeal
import proofs.«146003_j63513976373582_1_alg».proof.Proof.Gen.ReferenceIdeal
import proofs.«146003_j63513976373582_1_alg».proof.Proof.Gen.Pre_finite_inputs
import proofs.«146003_j63513976373582_1_alg».proof.Proof.RegionsBits
import proofs.«146003_j63513976373582_1_alg».proof.Proof.RegionsIdeal
import proofs.«146003_j63513976373582_1_alg».proof.Proof.RefSpec
import proofs.«146003_j63513976373582_1_alg».proof.Proof.KernelSpecIdeal
import Idealize.ShloMosaic.Adequacy
import Idealize.ShloMosaic.Init

noncomputable section

namespace Cert.Proof

open Idealize.ShloMosaic Idealize.SL.Sem

/-- The kernel program as printed, at the word level: it runs to the end, faults nowhere and leaves its arguments
    as launched. -/
theorem frame_k : Cert.frame_Kernel := fun m ρ _ => Cert.Kernel.Regs.frame m ρ

/-- The same program read over the extended reals. -/
theorem frame_ki : Cert.frame_KernelIdeal := fun m ρ _ => Cert.KernelIdeal.Regs.frame m ρ

/-- The reference: its run with the results dropped. -/
theorem frame_ri : Cert.frame_ReferenceIdeal := Cert.ReferenceIdeal.RefValue.frame_ri

/-- The idealization rewrote no operation. -/
theorem preserves : Cert.preserves_Kernel_KernelIdeal := trivial

/-- Run from memories that agree on the arguments, both programs end with h_new and c_new at the cell's function of
    those arguments. -/
theorem algebraic : Cert.algebraic_KernelIdeal_ReferenceIdeal := by
  intro m ρ m' ρ' _ hagree
  refine ⟨_, _, Cert.KernelIdeal.KSpec.run_spec_kernel m ρ, ?_⟩
  refine (θ_run Cert.ReferenceIdeal.defs _ _).mono (fun r h c => ?_) (Cert.ReferenceIdeal.RefValue.run_spec m' ρ')
  obtain ⟨h0, h1, hargs⟩ := h c
  obtain ⟨e0, e1, e2, e3, e4, e5, e6, e7, e8, e9, e10, e11, e12⟩ := hagree c
  refine ⟨h0.trans ?_, h1.trans ?_, hargs⟩
  · rw [e0, e1, e2, e3, e4, e5, e6, e7, e8, e9, e10, e12]
  · rw [e0, e1, e2, e3, e4, e5, e6, e7, e8, e9, e10, e12]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
